-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x16 : Shape := ⟨2, ![1600000, 16]⟩
abbrev S16x32 : Shape := ⟨2, ![16, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S16x128 : Shape := ⟨2, ![16, 128]⟩
abbrev S128x1 : Shape := ⟨2, ![128, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S16x128 : S_.BroadcastsInDim S16x128 (![] : Fin 0 → Fin S16x128.rank)
  reducesTo_S16x128_S_d0_1 : S16x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S128x128 .f32) (main_arg20 : FVec F S128 .f32) (main_arg21 : FVec F S128x1 .f32) (main_arg22 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x1 .f32 := Host.absf main_arg21
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x1 .f32) (main_arg22 : FVec F S1 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x1 .f32) (main_arg22 : FVec F S1 .f32) (main_v48 : IVec S_ 1) (main_v49 : FVec F S16x128 .f32) (main_v50 : FVec F S16x128 .f32) : IVec S_ 1 :=
  let main_v51 : IVec S16x128 1 := cmpf .olt main_v49 main_v50
  let main_c_19 : IVec S_ 1 := constantI S_ 1 1#1
  let main_v52 : IVec S_ 1 := (fun x v => Host.reduce IntOp.andi x v reducesTo_S16x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S128 .f32) (main_arg9 : FVec F S128 .f32) (main_arg10 : FVec F S128 .f32) (main_arg11 : FVec F S16x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x1 .f32) (main_arg22 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S16x128 .f32 := Host.absf main_arg11
  let main_cst_18 : FVec F S_ .f32 := constant S_ .f32 0x7F800000#32
  let main_v50 : FVec F S16x128 .f32 := broadcastInDim S16x128 ![] bcast_S_S16x128 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S32x128 .f32) (main_arg6 : FVec F S128 .f32) (main_arg7 : FVec F S128x128 .f32) (main_arg8 : FVec F S128 .f32) (main_arg9 : FVec F S128 .f32) (main_arg10 : FVec F S128 .f32) (main_arg11 : FVec F S16x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x1 .f32) (main_arg22 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x32 .f32) (main_arg1 : IVec S2x1600000 32) (main_arg2 : FVec F S1600000x16 .f32) (main_arg3 : FVec F S16x32 .f32) (main_arg4 : FVec F S32 .f32) (main_arg5 : FVec F S32x128 .f32) (main_arg6 : FVec F S128 .f32) (main_arg7 : FVec F S128x128 .f32) (main_arg8 : FVec F S128 .f32) (main_arg9 : FVec F S128 .f32) (main_arg10 : FVec F S128 .f32) (main_arg11 : FVec F S16x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x1 .f32) (main_arg22 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x32 : Shape := ⟨2, ![100000, 32]⟩
abbrev S2x1600000 : Shape := ⟨2, ![2, 1600000]⟩
abbrev S1600000x16 : Shape := ⟨2, ![1600000, 16]⟩
abbrev S16x32 : Shape := ⟨2, ![16, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S16x128 : Shape := ⟨2, ![16, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S1x128 : Shape := ⟨2, ![1, 128]⟩
abbrev S100000x128 : Shape := ⟨2, ![100000, 128]⟩
abbrev S25x8x128 : Shape := ⟨3, ![25, 8, 128]⟩
abbrev S4000x32 : Shape := ⟨2, ![4000, 32]⟩
abbrev S4000x128 : Shape := ⟨2, ![4000, 128]⟩
abbrev S1x8x128 : Shape := ⟨3, ![1, 8, 128]⟩
abbrev S1x1x128 : Shape := ⟨3, ![1, 1, 128]⟩
abbrev S25x1x128 : Shape := ⟨3, ![25, 1, 128]⟩
abbrev S25x128 : Shape := ⟨2, ![25, 128]⟩
abbrev S1600000x128 : Shape := ⟨2, ![1600000, 128]⟩
abbrev S1x1 : Shape := ⟨2, ![1, 1]⟩
abbrev S100000x1 : Shape := ⟨2, ![100000, 1]⟩
abbrev S4000x1 : Shape := ⟨2, ![4000, 1]⟩

abbrev nBuf : Space → Nat
  | .hbm => 147
  | .vmem => 44
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S16x32, .f32⟩
  | 4 => ⟨S32, .f32⟩
  | 5 => ⟨S32x128, .f32⟩
  | 6 => ⟨S128, .f32⟩
  | 7 => ⟨S128x128, .f32⟩
  | 8 => ⟨S128, .f32⟩
  | 9 => ⟨S128, .f32⟩
  | 10 => ⟨S128, .f32⟩
  | 11 => ⟨S16x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S128x128, .f32⟩
  | 20 => ⟨S128, .f32⟩
  | 21 => ⟨S128x1, .f32⟩
  | 22 => ⟨S1, .f32⟩
  | 23 => ⟨S1x1600000, .i32⟩
  | 24 => ⟨S1600000, .i32⟩
  | 25 => ⟨S1x1600000, .i32⟩
  | 26 => ⟨S1600000, .i32⟩
  | 27 => ⟨S100000x32, .bf16⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x32, .bf16⟩
  | 37 => ⟨S1600000x16, .bf16⟩
  | 38 => ⟨S16x32, .bf16⟩
  | 39 => ⟨S1600000x32, .f32⟩
  | 40 => ⟨S1x32, .f32⟩
  | 41 => ⟨S1600000x32, .f32⟩
  | 42 => ⟨S1600000x32, .f32⟩
  | 43 => ⟨S1600000x32, .f32⟩
  | 44 => ⟨S1600000x32, .f32⟩
  | 45 => ⟨S_, .f32⟩
  | 46 => ⟨S1600000x32, .f32⟩
  | 47 => ⟨S1600000x32, .f32⟩
  | 48 => ⟨S_, .f32⟩
  | 49 => ⟨S100000x32, .f32⟩
  | 50 => ⟨S1600000x1, .i32⟩
  | 51 => ⟨S100000x32, .f32⟩
  | 52 => ⟨S1x128, .f32⟩
  | 53 => ⟨S1x128, .f32⟩
  | 54 => ⟨S100000x128, .f32⟩
  | 55 => ⟨S25x8x128, .f32⟩
  | 56 => ⟨S25x8x128, .f32⟩
  | 57 => ⟨S25x1x128, .f32⟩
  | 58 => ⟨S25x128, .f32⟩
  | 59 => ⟨S_, .f32⟩
  | 60 => ⟨S128, .f32⟩
  | 61 => ⟨S1x128, .f32⟩
  | 62 => ⟨S25x1x128, .f32⟩
  | 63 => ⟨S25x128, .f32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S100000x128, .f32⟩
  | 86 => ⟨S100000x128, .bf16⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .bf16⟩
  | 96 => ⟨S1600000x16, .bf16⟩
  | 97 => ⟨S16x128, .bf16⟩
  | 98 => ⟨S1600000x128, .f32⟩
  | 99 => ⟨S1x128, .f32⟩
  | 100 => ⟨S1600000x128, .f32⟩
  | 101 => ⟨S1600000x128, .f32⟩
  | 102 => ⟨S1600000x128, .f32⟩
  | 103 => ⟨S1600000x128, .f32⟩
  | 104 => ⟨S_, .f32⟩
  | 105 => ⟨S1600000x128, .f32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S1x128, .f32⟩
  | 112 => ⟨S1x128, .f32⟩
  | 113 => ⟨S100000x128, .f32⟩
  | 114 => ⟨S25x8x128, .f32⟩
  | 115 => ⟨S25x8x128, .f32⟩
  | 116 => ⟨S25x1x128, .f32⟩
  | 117 => ⟨S25x128, .f32⟩
  | 118 => ⟨S_, .f32⟩
  | 119 => ⟨S128, .f32⟩
  | 120 => ⟨S1x128, .f32⟩
  | 121 => ⟨S25x1x128, .f32⟩
  | 122 => ⟨S25x128, .f32⟩
  | 123 => ⟨S_, .f32⟩
  | 124 => ⟨S128, .f32⟩
  | 125 => ⟨S1x128, .f32⟩
  | 126 => ⟨S_, .f32⟩
  | 127 => ⟨S1x128, .f32⟩
  | _ => ⟨S100000x32, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S1x128, .f32⟩
  | 5 => ⟨S1x128, .f32⟩
  | 6 => ⟨S_, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S1x128, .f32⟩
  | 14 => ⟨S1x128, .f32⟩
  | 15 => ⟨S1x128, .f32⟩
  | 16 => ⟨S1x128, .f32⟩
  | 17 => ⟨S1x1, .f32⟩
  | 18 => ⟨S100000x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S32x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S4000x128, .f32⟩
  | .local _ .vmem, ⟨15, _⟩ => ⟨S4000x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S1x8x128, .f32⟩
  | .local _ .vmem, ⟨31, _⟩ => ⟨S1x8x128, .f32⟩
  | .local _ .vmem, ⟨32, _⟩ => ⟨S1x8x128, .f32⟩
  | .local _ .vmem, ⟨33, _⟩ => ⟨S1x8x128, .f32⟩
  | .local _ .vmem, ⟨34, _⟩ => ⟨S4000x128, .f32⟩
  | .local _ .vmem, ⟨35, _⟩ => ⟨S4000x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S128x1, .f32⟩
  | .local _ .vmem, ⟨41, _⟩ => ⟨S1x1, .f32⟩
  | .local _ .vmem, ⟨42, _⟩ => ⟨S4000x1, .f32⟩
  | .local _ .vmem, ⟨43, _⟩ => ⟨S4000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call0_cst : Ref sig .tc := ⟨.hbm, 45, rfl⟩
abbrev main_call0_v0 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26_0 : Ref sig .tc := ⟨.hbm, 54, rfl⟩
abbrev main_v26_1 : Ref sig .tc := ⟨.hbm, 55, rfl⟩
abbrev main_v26_2 : Ref sig .tc := ⟨.hbm, 56, rfl⟩
abbrev main_v27 : Ref sig .tc := ⟨.hbm, 57, rfl⟩
abbrev main_v28 : Ref sig .tc := ⟨.hbm, 58, rfl⟩
abbrev main_cst_1 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_2 : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_cst_4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_5 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_6 : Ref sig .tc := ⟨.hbm, 87, rfl⟩
abbrev main_v52 : Ref sig .tc := ⟨.hbm, 88, rfl⟩
abbrev main_v53 : Ref sig .tc := ⟨.hbm, 89, rfl⟩
abbrev main_c_7 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call1_cst : Ref sig .tc := ⟨.hbm, 104, rfl⟩
abbrev main_call1_v0 : Ref sig .tc := ⟨.hbm, 105, rfl⟩
abbrev main_v67 : Ref sig .tc := ⟨.hbm, 106, rfl⟩
abbrev main_cst_8 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73_0 : Ref sig .tc := ⟨.hbm, 113, rfl⟩
abbrev main_v73_1 : Ref sig .tc := ⟨.hbm, 114, rfl⟩
abbrev main_v73_2 : Ref sig .tc := ⟨.hbm, 115, rfl⟩
abbrev main_v74 : Ref sig .tc := ⟨.hbm, 116, rfl⟩
abbrev main_v75 : Ref sig .tc := ⟨.hbm, 117, rfl⟩
abbrev main_cst_9 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_10 : Ref sig .tc := ⟨.hbm, 123, rfl⟩
abbrev main_v80 : Ref sig .tc := ⟨.hbm, 124, rfl⟩
abbrev main_v81 : Ref sig .tc := ⟨.hbm, 125, rfl⟩
abbrev main_cst_11 : Ref sig .tc := ⟨.hbm, 126, rfl⟩
abbrev main_v82 : Ref sig .tc := ⟨.hbm, 127, rfl⟩
abbrev main_v83 : Ref sig .tc := ⟨.hbm, 128, rfl⟩
abbrev main_cst_12 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_13 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  shapeCasts_S128_S1x128 : S128.ShapeCasts S1x128
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  reduces_S4000x128_S128 : S4000x128.Reduces [0] S128
  shapeCasts_S1x128_S1x1x128 : S1x128.ShapeCasts S1x1x128
  shapeCasts_S1x1x128_S1x1x128 : S1x1x128.ShapeCasts S1x1x128
  broadcasts_S1x1x128_S1x8x128 : S1x1x128.Broadcasts S1x8x128
  inb_S1x8x128_S1x8x128_0_0_0 : ∀ a, (![0, 0, 0] : Fin 3 → Nat) a + S1x8x128.size a ≤ S1x8x128.size a
  h_S1x8x128 : 0 < S1x8x128.numel
  slices_S25x8x128_S25x1x128_0_0_0 : S25x8x128.Slices ![0, 0, 0] S25x1x128
  shapeCasts_S25x1x128_S25x128 : S25x1x128.ShapeCasts S25x128
  reducesTo_S25x128_S128_d0 : S25x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  shapeCasts_S4000x128_S4000x128 : S4000x128.ShapeCasts S4000x128
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  gather_S100000x32_S1600000x1_S1600000x32_1_0_n_n_0_1_132_wf : GatherDims.WF S100000x32 S1600000x1 S1600000x32 [1] [0] [] [0] [] 1 ![1, 32]
  dot_S1600000x16_S16x32_S1600000x32_1_0_0_1_n_n_wf : DotDims.WF S1600000x16 S16x32 S1600000x32 [1] [0] [0] [1] [] []
  scatter_S100000x32_S1600000x1_S1600000x32_1_0_0_1_wf : ScatterDims.WF S100000x32 S1600000x1 S1600000x32 [1] [0] [0] 1
  dot_S4000x32_S32x128_S4000x128_1_0_0_1_n_n_wf : DotDims.WF S4000x32 S32x128 S4000x128 [1] [0] [0] [1] [] []
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  dot_S1600000x16_S16x128_S1600000x128_1_0_0_1_n_n_wf : DotDims.WF S1600000x16 S16x128 S1600000x128 [1] [0] [0] [1] [] []
  scatter_S100000x128_S1600000x1_S1600000x128_1_0_0_1_wf : ScatterDims.WF S100000x128 S1600000x1 S1600000x128 [1] [0] [0] 1
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S100000x32.size a
  hwx0_1 : ∀ i : grid0.Coords, EltTy.bits .f32 = 32 ∨ (Rect.block (s := S100000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S25x8x128.size a
  hwx0_7 : ∀ i : grid0.Coords, EltTy.bits .f32 = 32 ∨ (Rect.block (s := S25x8x128) S1x8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128.size a ≤ S25x8x128.size a
  hwx0_8 : ∀ i : grid0.Coords, EltTy.bits .f32 = 32 ∨ (Rect.block (s := S25x8x128) S1x8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x8x128.size a ≤ S25x8x128.size a
  hwx2_7 : ∀ i : grid2.Coords, EltTy.bits .f32 = 32 ∨ (Rect.block (s := S25x8x128) S1x8x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x8x128.size a ≤ S25x8x128.size a
  hwx2_8 : ∀ i : grid2.Coords, EltTy.bits .f32 = 32 ∨ (Rect.block (s := S25x8x128) S1x8x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x1.size a ≤ S100000x1.size a
  hwx3_7 : ∀ i : grid3.Coords, EltTy.bits .f32 = 32 ∨ (Rect.block (s := S100000x1) S4000x1.size (cc3_transform_7 i) (hinb3_7 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x16_S16x128_S1600000x128_1_0_0_1_n_n : DotDims S1600000x16 S16x128 S1600000x128 where
  lhsContracting := [1]
  rhsContracting := [0]
  lhsNonContracting := [0]
  rhsNonContracting := [1]
  lhsBatch := []
  rhsBatch := []
  wf := dot_S1600000x16_S16x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S1x8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_2) S1x8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v26_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v73_1) S1x8x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v73_2) S1x8x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v73_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg19) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v97) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg21) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v98) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v99) S4000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x16 : Shape := ⟨2, ![1600000, 16]⟩
abbrev S16x32 : Shape := ⟨2, ![16, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S16x128 : Shape := ⟨2, ![16, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S100000x128 : Shape := ⟨2, ![100000, 128]⟩
abbrev S1x128 : Shape := ⟨2, ![1, 128]⟩
abbrev S1600000x128 : Shape := ⟨2, ![1600000, 128]⟩
abbrev S100000x1 : Shape := ⟨2, ![100000, 1]⟩
abbrev S1x1 : Shape := ⟨2, ![1, 1]⟩

abbrev nBuf : Space → Nat
  | .hbm => 206
  | .vmem => 0
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S16x32, .f32⟩
  | 4 => ⟨S32, .f32⟩
  | 5 => ⟨S32x128, .f32⟩
  | 6 => ⟨S128, .f32⟩
  | 7 => ⟨S128x128, .f32⟩
  | 8 => ⟨S128, .f32⟩
  | 9 => ⟨S128, .f32⟩
  | 10 => ⟨S128, .f32⟩
  | 11 => ⟨S16x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S128x128, .f32⟩
  | 20 => ⟨S128, .f32⟩
  | 21 => ⟨S128x1, .f32⟩
  | 22 => ⟨S1, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x32, .f32⟩
  | 36 => ⟨S1600000x32, .f32⟩
  | 37 => ⟨S1600000x32, .f32⟩
  | 38 => ⟨S1x32, .f32⟩
  | 39 => ⟨S1600000x32, .f32⟩
  | 40 => ⟨S1600000x32, .f32⟩
  | 41 => ⟨S_, .f32⟩
  | 42 => ⟨S1600000x32, .f32⟩
  | 43 => ⟨S1600000x32, .f32⟩
  | 44 => ⟨S_, .f32⟩
  | 45 => ⟨S100000x32, .f32⟩
  | 46 => ⟨S1600000x1, .i32⟩
  | 47 => ⟨S100000x32, .f32⟩
  | 48 => ⟨S100000x32, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S1600000x128, .f32⟩
  | 117 => ⟨S1600000x128, .f32⟩
  | 118 => ⟨S1x128, .f32⟩
  | 119 => ⟨S1600000x128, .f32⟩
  | 120 => ⟨S1600000x128, .f32⟩
  | 121 => ⟨S_, .f32⟩
  | 122 => ⟨S1600000x128, .f32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x32, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S100000x128, .f32⟩
  | 25 => ⟨S100000x128, .f32⟩
  | 26 => ⟨S100000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x1, .f32⟩
  | 67 => ⟨S1x1, .f32⟩
  | 68 => ⟨S100000x1, .f32⟩
  | 69 => ⟨S100000x1, .f32⟩
  | 70 => ⟨S100000x1, .f32⟩
  | 71 => ⟨S100000x1, .f32⟩
  | 72 => ⟨S_, .f32⟩
  | 73 => ⟨S100000x1, .f32⟩
  | 74 => ⟨S100000x1, .f32⟩
  | 75 => ⟨S_, .f32⟩
  | 76 => ⟨S100000x1, .f32⟩
  | 77 => ⟨S100000x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_call0_cst : Ref sig .tc := ⟨.hbm, 41, rfl⟩
abbrev main_call0_v0 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call1_cst : Ref sig .tc := ⟨.hbm, 53, rfl⟩
abbrev main_call1_v0 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_1 : Ref sig .tc := ⟨.hbm, 60, rfl⟩
abbrev main_v30 : Ref sig .tc := ⟨.hbm, 61, rfl⟩
abbrev main_cst_2 : Ref sig .tc := ⟨.hbm, 62, rfl⟩
abbrev main_v31 : Ref sig .tc := ⟨.hbm, 63, rfl⟩
abbrev main_v32 : Ref sig .tc := ⟨.hbm, 64, rfl⟩
abbrev main_c_3 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_cst_3 : Ref sig .tc := ⟨.hbm, 82, rfl⟩
abbrev main_call2_v12 : Ref sig .tc := ⟨.hbm, 83, rfl⟩
abbrev main_call2_cst_4 : Ref sig .tc := ⟨.hbm, 84, rfl⟩
abbrev main_call2_call0_v0 : Ref sig .tc := ⟨.hbm, 85, rfl⟩
abbrev main_call2_call0_v1 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_4 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_call3_cst : Ref sig .tc := ⟨.hbm, 104, rfl⟩
abbrev main_call3_v0 : Ref sig .tc := ⟨.hbm, 105, rfl⟩
abbrev main_v49 : Ref sig .tc := ⟨.hbm, 106, rfl⟩
abbrev main_c_5 : Ref sig .tc := ⟨.hbm, 107, rfl⟩
abbrev main_v50 : Ref sig .tc := ⟨.hbm, 108, rfl⟩
abbrev main_v51 : Ref sig .tc := ⟨.hbm, 109, rfl⟩
abbrev main_c_6 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_call4_cst : Ref sig .tc := ⟨.hbm, 121, rfl⟩
abbrev main_call4_v0 : Ref sig .tc := ⟨.hbm, 122, rfl⟩
abbrev main_v62 : Ref sig .tc := ⟨.hbm, 123, rfl⟩
abbrev main_cst_7 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_call5_cst : Ref sig .tc := ⟨.hbm, 133, rfl⟩
abbrev main_call5_v0 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_cst_8 : Ref sig .tc := ⟨.hbm, 140, rfl⟩
abbrev main_v76 : Ref sig .tc := ⟨.hbm, 141, rfl⟩
abbrev main_cst_9 : Ref sig .tc := ⟨.hbm, 142, rfl⟩
abbrev main_v77 : Ref sig .tc := ⟨.hbm, 143, rfl⟩
abbrev main_v78 : Ref sig .tc := ⟨.hbm, 144, rfl⟩
abbrev main_c_10 : Ref sig .tc := ⟨.hbm, 145, rfl⟩
abbrev main_call6_cst : Ref sig .tc := ⟨.hbm, 146, rfl⟩
abbrev main_call6_v0 : Ref sig .tc := ⟨.hbm, 147, rfl⟩
abbrev main_call6_v1 : Ref sig .tc := ⟨.hbm, 148, rfl⟩
abbrev main_call6_cst_0 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_v5 : Ref sig .tc := ⟨.hbm, 153, rfl⟩
abbrev main_call6_v6 : Ref sig .tc := ⟨.hbm, 154, rfl⟩
abbrev main_call6_v7 : Ref sig .tc := ⟨.hbm, 155, rfl⟩
abbrev main_call6_cst_1 : Ref sig .tc := ⟨.hbm, 156, rfl⟩
abbrev main_call6_v8 : Ref sig .tc := ⟨.hbm, 157, rfl⟩
abbrev main_call6_cst_2 : Ref sig .tc := ⟨.hbm, 158, rfl⟩
abbrev main_call6_v9 : Ref sig .tc := ⟨.hbm, 159, rfl⟩
abbrev main_call6_v10 : Ref sig .tc := ⟨.hbm, 160, rfl⟩
abbrev main_call6_v11 : Ref sig .tc := ⟨.hbm, 161, rfl⟩
abbrev main_call6_cst_3 : Ref sig .tc := ⟨.hbm, 162, rfl⟩
abbrev main_call6_v12 : Ref sig .tc := ⟨.hbm, 163, rfl⟩
abbrev main_call6_cst_4 : Ref sig .tc := ⟨.hbm, 164, rfl⟩
abbrev main_call6_call0_v0 : Ref sig .tc := ⟨.hbm, 165, rfl⟩
abbrev main_call6_call0_v1 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_cst_11 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_call7_cst : Ref sig .tc := ⟨.hbm, 184, rfl⟩
abbrev main_call7_v0 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_call8_cst : Ref sig .tc := ⟨.hbm, 191, rfl⟩
abbrev main_call8_v0 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_cst_12 : Ref sig .tc := ⟨.hbm, 200, rfl⟩
abbrev main_v107 : Ref sig .tc := ⟨.hbm, 201, rfl⟩
abbrev main_v108 : Ref sig .tc := ⟨.hbm, 202, rfl⟩
abbrev main_cst_13 : Ref sig .tc := ⟨.hbm, 203, rfl⟩
abbrev main_v109 : Ref sig .tc := ⟨.hbm, 204, rfl⟩
abbrev main_v110 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x32_S1600000x1_S1600000x32_1_0_n_n_0_1_132_wf : GatherDims.WF S100000x32 S1600000x1 S1600000x32 [1] [0] [] [0] [] 1 ![1, 32]
  dot_S1600000x16_S16x32_S1600000x32_1_0_0_1_n_n_wf : DotDims.WF S1600000x16 S16x32 S1600000x32 [1] [0] [0] [1] [] []
  scatter_S100000x32_S1600000x1_S1600000x32_1_0_0_1_wf : ScatterDims.WF S100000x32 S1600000x1 S1600000x32 [1] [0] [0] 1
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x16_S16x128_S1600000x128_1_0_0_1_n_n_wf : DotDims.WF S1600000x16 S16x128 S1600000x128 [1] [0] [0] [1] [] []
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x16_S16x32_S1600000x32_1_0_0_1_n_n : DotDims S1600000x16 S16x32 S1600000x32 where
  lhsContracting := [1]
  rhsContracting := [0]
  lhsNonContracting := [0]
  rhsNonContracting := [1]
  lhsBatch := []
  rhsBatch := []
  wf := dot_S1600000x16_S16x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x16_S16x128_S1600000x128_1_0_0_1_n_n : DotDims S1600000x16 S16x128 S1600000x128 where
  lhsContracting := [1]
  rhsContracting := [0]
  lhsNonContracting := [0]
  rhsNonContracting := [1]
  lhsBatch := []
  rhsBatch := []
  wf := dot_S1600000x16_S16x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The idealized kernel program's run with its result NAMED: every weakly fair execution of @main terminates,
  nothing faulting, the result array ends at the contents the last region's write-backs leave
  (`Gen.W12 … main_v99`), and the argument arrays end as launched. @main is twelve segments — eight stretches
  of host operations and four regions — run in order from the launch memory; each segment takes the thread state
  "every unscoped buffer at this boundary's contents" to the next boundary's, and the final state is read against
  the last boundary's contents at the result's buffer and at every argument's.
-/
import proofs.«116086_j16767552323790_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result's buffer read off the last thread state as the arguments' are. -/
theorem run_named : θ_run defs (onTc (τ := τ) (main (F := F))) ⟨m, fun _ => 0, ρ⟩ (fun r => ∀ c : Dev nD,
      r.2.mem ((c.tc : Thread nD τ).loc main_v99) = W12 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v99 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c)⟩)

end Cert.KernelIdeal.KRun

end
-- ==== Proof.KHost.lean ====
/-
  The kernel program's host stretches as functions of whole arrays over the extended reals, in the program's own
  spelling.
  * `aggK0`, `aggK1`: the messages relu(x[src] + (e · We + be)) summed into their destination rows, the gathered
    features and the product's operands narrowed and widened on the way (the identity on extended reals).
  * `total`: a [25, 8, 128] array of per-tile column statistics (every sublane of a tile the same) to the column
    totals as one row: sublane 0 of each tile, summed over the 25 tiles.
  * `meanK`, `rstdK`: the column means and the reciprocal roots of (mean of squares − squared mean + ε);
    `scaleK = γ · rstd`, `shiftK = β − (mean · γ) · rstd`: the normalisation as one multiply-add.
-/
import proofs.«116086_j16767552323790_2_alg».proof.KernelIdeal
import Idealize.ShloMosaic.PureOps.Ideal

noncomputable section

namespace Cert.KHost

open Idealize.ShloMosaic Cert.KernelIdeal

variable [Cert.KernelIdeal.Facts]
open Cert.KernelIdeal.Facts₀ Cert.KernelIdeal.Facts

/-- Row 0 of the edge list. -/
def row0 (ei : IVec S2x1600000 32) : IVec S1600000 32 :=
  shapeCast S1600000 (extractStridedSlice S1x1600000 ![0, 0] ei slices_S2x1600000_S1x1600000_0_0) shapeCasts_S1x1600000_S1600000

/-- Row 1 of the edge list. -/
def row1 (ei : IVec S2x1600000 32) : IVec S1600000 32 :=
  shapeCast S1600000 (extractStridedSlice S1x1600000 ![1, 0] ei slices_S2x1600000_S1x1600000_1_0) shapeCasts_S1x1600000_S1600000

/-- The sources as an index column, a negative index wrapped once. -/
def srcIdx (ei : IVec S2x1600000 32) : IVec S1600000x1 32 :=
  broadcastInDim S1600000x1 ![0] bcast_S1600000_S1600000x1_0
    (select (cmpi .slt (row0 ei) (broadcastInDim S1600000 ![] bcast_S_S1600000 (constantI S_ 32 0#32)))
      (addi (row0 ei) (broadcastInDim S1600000 ![] bcast_S_S1600000 (constantI S_ 32 100000#32)))
      (row0 ei))

/-- The destinations as an index column. -/
def dstIdx (ei : IVec S2x1600000 32) : IVec S1600000x1 32 :=
  broadcastInDim S1600000x1 ![0] bcast_S1600000_S1600000x1_0 (row1 ei)

/-- First block's aggregation as the kernel program spells it. -/
def aggK0 (x : FVec Ideal S100000x32 .f32) (ei : IVec S2x1600000 32) (e : FVec Ideal S1600000x16 .f32)
    (We : FVec Ideal S16x32 .f32) (be : FVec Ideal S32 .f32) : FVec Ideal S100000x32 .f32 :=
  Host.scatterAdd scatter_S100000x32_S1600000x1_S1600000x32_1_0_0_1
    (broadcastInDim S100000x32 ![] bcast_S_S100000x32 (constant (F := Ideal) S_ .f32 0x00000000#32))
    (dstIdx ei)
    (maximumf
      (addf
        (extf .f32 (Host.gather gather_S100000x32_S1600000x1_S1600000x32_1_0_n_n_0_1_132 (truncf .bf16 x bitsLt_bf16_f32) (srcIdx ei)) bitsLt_bf16_f32)
        (addf
          (Host.dotGeneral dot_S1600000x16_S16x32_S1600000x32_1_0_0_1_n_n none (truncf .bf16 e bitsLt_bf16_f32) (truncf .bf16 We bitsLt_bf16_f32))
          (broadcastInDim S1600000x32 ![0, 1] bcast_S1x32_S1600000x32_0_1 (broadcastInDim S1x32 ![1] bcast_S32_S1x32_1 be))))
      (broadcastInDim S1600000x32 ![] bcast_S_S1600000x32 (constant (F := Ideal) S_ .f32 0x00000000#32)))

/-- Second block's aggregation as the kernel program spells it. -/
def aggK1 (x : FVec Ideal S100000x128 .f32) (ei : IVec S2x1600000 32) (e : FVec Ideal S1600000x16 .f32)
    (We : FVec Ideal S16x128 .f32) (be : FVec Ideal S128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (dstIdx ei)
    (maximumf
      (addf
        (extf .f32 (Host.gather gather_S100000x128_S1600000x1_S1600000x128_1_0_n_n_0_1_1128 (truncf .bf16 x bitsLt_bf16_f32) (srcIdx ei)) bitsLt_bf16_f32)
        (addf
          (Host.dotGeneral dot_S1600000x16_S16x128_S1600000x128_1_0_0_1_n_n none (truncf .bf16 e bitsLt_bf16_f32) (truncf .bf16 We bitsLt_bf16_f32))
          (broadcastInDim S1600000x128 ![0, 1] bcast_S1x128_S1600000x128_0_1 (broadcastInDim S1x128 ![1] bcast_S128_S1x128_1 be))))
      (broadcastInDim S1600000x128 ![] bcast_S_S1600000x128 (constant (F := Ideal) S_ .f32 0x00000000#32)))

/-- Per-tile column statistics to the column totals, as one row. -/
def total (T : FVec Ideal S25x8x128 .f32) : FVec Ideal S1x128 .f32 :=
  broadcastInDim S1x128 ![1] bcast_S128_S1x128_1
    (Host.reduceAdd
      (shapeCast S25x128 (extractStridedSlice S25x1x128 ![0, 0, 0] T slices_S25x8x128_S25x1x128_0_0_0) shapeCasts_S25x1x128_S25x128)
      (constant (F := Ideal) S_ .f32 0x00000000#32) reducesTo_S25x128_S128_d0 h_S_)

/-- The column means from the per-tile sums. -/
def meanK (T : FVec Ideal S25x8x128 .f32) : FVec Ideal S1x128 .f32 :=
  Host.divf (total T) (broadcastInDim S1x128 ![] bcast_S_S1x128 (constant (F := Ideal) S_ .f32 0x47C35000#32))

/-- The reciprocal root of (mean of squares − squared mean + ε), from the per-tile sums and sums of squares. -/
def rstdK (T Q : FVec Ideal S25x8x128 .f32) : FVec Ideal S1x128 .f32 :=
  Host.rsqrt
    (addf
      (subf (Host.divf (total Q) (broadcastInDim S1x128 ![] bcast_S_S1x128 (constant (F := Ideal) S_ .f32 0x47C35000#32)))
        (mulf (meanK T) (meanK T)))
      (broadcastInDim S1x128 ![] bcast_S_S1x128 (constant (F := Ideal) S_ .f32 0x3727C5AC#32)))

/-- The normalisation's multiplier: γ · rstd. -/
def scaleK (T Q : FVec Ideal S25x8x128 .f32) (γ : FVec Ideal S128 .f32) : FVec Ideal S1x128 .f32 :=
  mulf (shapeCast S1x128 γ shapeCasts_S128_S1x128) (rstdK T Q)

/-- The normalisation's offset: β − (mean · γ) · rstd. -/
def shiftK (T Q : FVec Ideal S25x8x128 .f32) (γ β : FVec Ideal S128 .f32) : FVec Ideal S1x128 .f32 :=
  subf (shapeCast S1x128 β shapeCasts_S128_S1x128)
    (mulf (mulf (meanK T) (shapeCast S1x128 γ shapeCasts_S128_S1x128)) (rstdK T Q))

end Cert.KHost

end
-- ==== Proof.KSpec.lean ====
/-
  The network's four dense stages, each as ONE index-by-index function of whole arrays over the extended reals.
  A node is a row `r` of 100000; the rows are processed in 25 tiles of 4000 consecutive rows.
  * `mlp`: entry (r, j) of relu((x + agg) · W1 + b1) · W2 + b2, the biases given as one-row matrices.
  * `tileSum`, `tileSumSq`: entry (t, s, j) is the sum over the 4000 rows of tile `t` of column `j`
    (of its squares), whatever the middle coordinate `s`.
  * `bnRelu`: entry (r, j) of max(h · scale + shift, 0), scale and shift one-row matrices read at column `j`.
  * `head`: entry (r, 0) of logistic(relu(bnRelu(h) · W1 + b1) · W2 + b2).
-/
import Idealize.ShloMosaic.PureOps.Ideal
import Idealize.ShloMosaic.Lib.ValueIdx

noncomputable section

namespace Cert.KSpec

open Idealize.ShloMosaic Idealize.ShloMosaic.ValueIdx
open scoped BigOperators

/-- The row coordinate of an index of a two-axis array, at its literal extent. -/
abbrev row {R C : Nat} (i : (⟨2, ![R, C]⟩ : Shape).Idx) : Fin R := ⟨(i 0).val, (i 0).isLt⟩
/-- The column coordinate of an index of a two-axis array, at its literal extent. -/
abbrev col {R C : Nat} (i : (⟨2, ![R, C]⟩ : Shape).Idx) : Fin C := ⟨(i 1).val, (i 1).isLt⟩

/-- Row `y` of tile `t` is row `4000 t + y` of the whole array. -/
def tileRow (t : Fin 25) (y : Fin 4000) : Fin 100000 :=
  ⟨4000 * t.val + y.val, by have := t.isLt; have := y.isLt; omega⟩

theorem tileRow_val (t : Fin 25) (y : Fin 4000) : (tileRow t y).val = 4000 * t.val + y.val := rfl

/-- The two-layer perceptron on the combined features: relu((x + agg) · W1 + b1) · W2 + b2 at (r, j). -/
def mlp {d : Nat} (x agg : FVec Ideal ⟨2, ![100000, d]⟩ .f32) (W1 : FVec Ideal ⟨2, ![d, 128]⟩ .f32)
    (b1 : FVec Ideal ⟨2, ![1, 128]⟩ .f32) (W2 : FVec Ideal ⟨2, ![128, 128]⟩ .f32)
    (b2 : FVec Ideal ⟨2, ![1, 128]⟩ .f32) : FVec Ideal ⟨2, ![100000, 128]⟩ .f32 := fun i =>
  (∑ k : Fin 128,
      max ((∑ l : Fin d, (x (ix2 (row i) l) + agg (ix2 (row i) l)) * W1 (ix2 l k)) + b1 (ix2 (0 : Fin 1) k)) (0 : EReal)
        * W2 (ix2 k (col i)))
    + b2 (ix2 (0 : Fin 1) (col i))

/-- Column sums over one tile of rows: entry (t, s, j) is the sum over the rows of tile `t` of h(·, j). -/
def tileSum (h : FVec Ideal ⟨2, ![100000, 128]⟩ .f32) : FVec Ideal ⟨3, ![25, 8, 128]⟩ .f32 := fun i =>
  ∑ y : Fin 4000, h (ix2 (tileRow ⟨(i 0).val, (i 0).isLt⟩ y) (⟨(i 2).val, (i 2).isLt⟩ : Fin 128))

/-- Column sums of squares over one tile of rows. -/
def tileSumSq (h : FVec Ideal ⟨2, ![100000, 128]⟩ .f32) : FVec Ideal ⟨3, ![25, 8, 128]⟩ .f32 := fun i =>
  ∑ y : Fin 4000, h (ix2 (tileRow ⟨(i 0).val, (i 0).isLt⟩ y) (⟨(i 2).val, (i 2).isLt⟩ : Fin 128))
    * h (ix2 (tileRow ⟨(i 0).val, (i 0).isLt⟩ y) (⟨(i 2).val, (i 2).isLt⟩ : Fin 128))

/-- The normalisation as one multiply-add per entry, then relu: max(h · scale + shift, 0). -/
def bnRelu (h : FVec Ideal ⟨2, ![100000, 128]⟩ .f32) (scale shift : FVec Ideal ⟨2, ![1, 128]⟩ .f32) :
    FVec Ideal ⟨2, ![100000, 128]⟩ .f32 := fun i =>
  max (h i * scale (ix2 (0 : Fin 1) (col i)) + shift (ix2 (0 : Fin 1) (col i))) (0 : EReal)

/-- The head: logistic(relu(bnRelu(h) · W1 + b1) · W2 + b2), one column. -/
def head (h : FVec Ideal ⟨2, ![100000, 128]⟩ .f32) (scale shift : FVec Ideal ⟨2, ![1, 128]⟩ .f32)
    (W1 : FVec Ideal ⟨2, ![128, 128]⟩ .f32) (b1 : FVec Ideal ⟨2, ![1, 128]⟩ .f32)
    (W2 : FVec Ideal ⟨2, ![128, 1]⟩ .f32) (b2 : FVec Ideal ⟨2, ![1, 1]⟩ .f32) :
    FVec Ideal ⟨2, ![100000, 1]⟩ .f32 := fun i =>
  Ideal.logistic
    ((∑ k : Fin 128,
        max ((∑ l : Fin 128,
                max (h (ix2 (row i) l) * scale (ix2 (0 : Fin 1) l) + shift (ix2 (0 : Fin 1) l)) (0 : EReal)
                  * W1 (ix2 l k)) + b1 (ix2 (0 : Fin 1) k)) (0 : EReal)
          * W2 (ix2 k (0 : Fin 1)))
      + b2 (ix2 (0 : Fin 1) (0 : Fin 1)))

end Cert.KSpec

end
-- ==== Proof.KPure.lean ====
/-
  The kernel program as one composition of pure functions of its argument arrays over the extended reals:
  * `h0K`: the first perceptron on x and its aggregation;
  * `y0K`: its normalisation as a multiply-add (scale and shift from the per-tile sums and sums of squares), relu;
  * `h1K`: the second perceptron on y and its aggregation;
  * `outK`: the second normalisation fused with the head.
-/
import proofs.«116086_j16767552323790_2_alg».proof.Proof.KSpec
import proofs.«116086_j16767552323790_2_alg».proof.Proof.KHost

noncomputable section

namespace Cert.Pure

open Idealize.ShloMosaic Cert.KernelIdeal

variable [Cert.KernelIdeal.Facts]
open Cert.KernelIdeal.Facts₀ Cert.KernelIdeal.Facts

/-- The first perceptron's output before normalisation. -/
def h0K (x : FVec Ideal S100000x32 .f32) (ei : IVec S2x1600000 32) (e : FVec Ideal S1600000x16 .f32) (We0 : FVec Ideal S16x32 .f32) (be0 : FVec Ideal S32 .f32) (W10 : FVec Ideal S32x128 .f32) (b10 : FVec Ideal S128 .f32) (W20 : FVec Ideal S128x128 .f32) (b20 : FVec Ideal S128 .f32) : FVec Ideal S100000x128 .f32 :=
  KSpec.mlp (d := 32) x (KHost.aggK0 x ei e We0 be0) W10 (shapeCast S1x128 b10 shapeCasts_S128_S1x128) W20
    (shapeCast S1x128 b20 shapeCasts_S128_S1x128)

/-- The first block's output: normalise as one multiply-add per entry, relu. -/
def y0K (x : FVec Ideal S100000x32 .f32) (ei : IVec S2x1600000 32) (e : FVec Ideal S1600000x16 .f32) (We0 : FVec Ideal S16x32 .f32) (be0 : FVec Ideal S32 .f32) (W10 : FVec Ideal S32x128 .f32) (b10 : FVec Ideal S128 .f32) (W20 : FVec Ideal S128x128 .f32) (b20 : FVec Ideal S128 .f32) (γ0 : FVec Ideal S128 .f32) (β0 : FVec Ideal S128 .f32) : FVec Ideal S100000x128 .f32 :=
  KSpec.bnRelu (h0K x ei e We0 be0 W10 b10 W20 b20)
    (KHost.scaleK (KSpec.tileSum (h0K x ei e We0 be0 W10 b10 W20 b20)) (KSpec.tileSumSq (h0K x ei e We0 be0 W10 b10 W20 b20)) γ0)
    (KHost.shiftK (KSpec.tileSum (h0K x ei e We0 be0 W10 b10 W20 b20)) (KSpec.tileSumSq (h0K x ei e We0 be0 W10 b10 W20 b20)) γ0 β0)

/-- The second perceptron's output before normalisation, from the first block's output y. -/
def h1K (y : FVec Ideal S100000x128 .f32) (ei : IVec S2x1600000 32) (e : FVec Ideal S1600000x16 .f32) (We1 : FVec Ideal S16x128 .f32) (be1 : FVec Ideal S128 .f32) (W11 : FVec Ideal S128x128 .f32) (b11 : FVec Ideal S128 .f32) (W21 : FVec Ideal S128x128 .f32) (b21 : FVec Ideal S128 .f32) : FVec Ideal S100000x128 .f32 :=
  KSpec.mlp (d := 128) y (KHost.aggK1 y ei e We1 be1) W11 (shapeCast S1x128 b11 shapeCasts_S128_S1x128) W21
    (shapeCast S1x128 b21 shapeCasts_S128_S1x128)

/-- The head applied to the second perceptron's output h, its normalisation fused in. -/
def headK (h : FVec Ideal S100000x128 .f32) (γ1 : FVec Ideal S128 .f32) (β1 : FVec Ideal S128 .f32) (hW1 : FVec Ideal S128x128 .f32) (hb1 : FVec Ideal S128 .f32) (hW2 : FVec Ideal S128x1 .f32) (hb2 : FVec Ideal S1 .f32) : FVec Ideal S100000x1 .f32 :=
  KSpec.head h (KHost.scaleK (KSpec.tileSum h) (KSpec.tileSumSq h) γ1)
    (KHost.shiftK (KSpec.tileSum h) (KSpec.tileSumSq h) γ1 β1) hW1 (shapeCast S1x128 hb1 shapeCasts_S128_S1x128) hW2
    (shapeCast S1x1 hb2 shapeCasts_S1_S1x1)

/-- The whole kernel program. -/
def outK (x : FVec Ideal S100000x32 .f32) (ei : IVec S2x1600000 32) (e : FVec Ideal S1600000x16 .f32) (We0 : FVec Ideal S16x32 .f32) (be0 : FVec Ideal S32 .f32) (W10 : FVec Ideal S32x128 .f32) (b10 : FVec Ideal S128 .f32) (W20 : FVec Ideal S128x128 .f32) (b20 : FVec Ideal S128 .f32) (γ0 : FVec Ideal S128 .f32) (β0 : FVec Ideal S128 .f32) (We1 : FVec Ideal S16x128 .f32) (be1 : FVec Ideal S128 .f32) (W11 : FVec Ideal S128x128 .f32) (b11 : FVec Ideal S128 .f32) (W21 : FVec Ideal S128x128 .f32) (b21 : FVec Ideal S128 .f32) (γ1 : FVec Ideal S128 .f32) (β1 : FVec Ideal S128 .f32) (hW1 : FVec Ideal S128x128 .f32) (hb1 : FVec Ideal S128 .f32) (hW2 : FVec Ideal S128x1 .f32) (hb2 : FVec Ideal S1 .f32) : FVec Ideal S100000x1 .f32 :=
  headK (h1K (y0K x ei e We0 be0 W10 b10 W20 b20 γ0 β0) ei e We1 be1 W11 b11 W21 b21) γ1 β1 hW1 hb1 hW2 hb2

end Cert.Pure

end
-- ==== Proof.LibVec.lean ====
/-
  Reads of vector operations at an index, at the ideal values (floats are extended reals), for
  arrays of `a` rows: general in the row count and program-free.

  * a length-`a` vector cast to a column `[a, 1]`, and a column broadcast along the rows to `[a, b]`
    (the two keepdims forms a row statistic goes through): `colCast_apply`, `colBroadcast_apply`;
  * a length-`b` vector cast to `[1, b]` and broadcast down the rows: `rowBroadcast_apply`;
  * the sum along the lanes of an `[a, b]` array at row `r` is `∑ k, x (r, k)`: `laneSum_apply`;
  * a matrix product into a zero accumulator at `(r, j)` is `∑ k, X (r, k) * Y (k, j)`, for any
    dimension-numbers record whose operand indices are the plain ones: `matmul_rowcol`;
  * `rsqrt_apply`, the pointwise read the library does not state.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibVec

open Idealize.ShloMosaic Idealize.ShloMosaic.ValueIdx

variable {α : Type}

/-- A length-`a` vector cast to the column `[a, 1]` reads, at `(r, u)`, the vector at `r`. -/
theorem colCast_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at `r`. -/
theorem colBroadcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A length-`b` vector cast to `[1, b]` and broadcast down `a` rows reads, at `(r, c)`, the vector at `c`. -/
theorem rowBroadcast_apply {a b : ℕ} (g : (⟨1, ![b]⟩ : Shape).Idx → α) (h1 : (⟨1, ![b]⟩ : Shape).ShapeCasts ⟨2, ![1, b]⟩)
    (h2 : (⟨2, ![1, b]⟩ : Shape).Broadcasts ⟨2, ![a, b]⟩) (r : Fin a) (c : Fin b) :
    broadcastTo ⟨2, ![a, b]⟩ (shapeCast ⟨2, ![1, b]⟩ g h1) h2 (ix2 r c) = g (ix1 c) := by
  rw [broadcastTo_1b_ab_apply, shapeCast_a_1a_apply]

/-- The sum along the lanes of an `[a, b]` array, at row `r`, is the sum of that row's entries. -/
theorem laneSum_apply {a b : ℕ} {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ x acc h hφ hacc (ix1 r) = ∑ k : Fin b, x (ix2 r k) := by
  rw [Ideal.multiReduction_add_single]
  refine Finset.sum_congr rfl fun k _ => congrArg x (funext fun ax => Fin.ext ?_)
  match ax with
  | ⟨0, _⟩ => rfl
  | ⟨1, _⟩ => rfl

/-- The same for an f32 array summed from the zero word, with the neutrality proof spelt as a printed program spells it. -/
theorem laneSum_f32_apply {a b : ℕ} (x : FVec Ideal ⟨2, ![a, b]⟩ .f32)
    (h : (⟨2, ![a, b]⟩ : Shape).Reduces [1] ⟨1, ![a]⟩) (hacc : (0x00000000#32 : BitVec 32) = 0x00000000#32) (r : Fin a) :
    multiReduction .add [1] ⟨1, ![a]⟩ x 0x00000000#32 h (.inl rfl) hacc (ix1 r) = ∑ k : Fin b, x (ix2 r k) :=
  laneSum_apply x _ h (.inl rfl) hacc r

/-- `rsqrt` of an array reads entry by entry. -/
theorem rsqrt_apply {s : Shape} {φ : FTy} (x : FVec Ideal s φ) (i : s.Idx) : rsqrt x i = Ideal.rsqrt (x i) := rfl

/-- A matrix product `X · Y` into a zero accumulator, at `(r, j)`, is `∑ k, X (r, k) * Y (k, j)`, for a
    dimension-numbers record with one contracted axis of extent `K` whose operand indices are the plain
    ones (row of the output and contraction index on the left; contraction index and column on the right). -/
theorem matmul_rowcol {n K m : ℕ} {φ₁ φ₂ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (X : FVec Ideal ⟨2, ![n, K]⟩ φ₁) (Y : FVec Ideal ⟨2, ![K, m]⟩ φ₂) (r : Fin n) (j : Fin m) :
    matmul d prec X Y (constant ⟨2, ![n, m]⟩ .f32 0x00000000#32) (ix2 r j) = ∑ k : Fin K, X (ix2 r k) * Y (ix2 k j) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 r j) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r j) ((contrEquiv1 d K hr hs).symm k) = ix2 k j := funext fun ax => Fin.ext (by
    match ax with
    | ⟨0, _⟩ => exact (hr0 _ _).trans hk
    | ⟨1, _⟩ => exact hr1 _ _)
  rw [el, er]

end Cert.LibVec

end
-- ==== Proof.RegTile.lean ====
/-
  Reads at an index, at the ideal values (floats are extended reals), shared by the two regions that apply the
  two-layer perceptron to a tile of rows and take the tile's column statistics. Program-free.

  * the sum down the rows of an [a, b] array at column q is ∑ y, x (y, q): colSum_apply, colSum_f32_apply;
  * a length-b vector viewed as [1, b], then as [1, 1, b], and repeated over n sublanes reads, at (u, s, q),
    the vector at q: statRows_apply (and its last step alone, sublanes_apply);
  * a dense layer — a matrix product into a zero accumulator plus a one-row bias repeated down the rows — at (r, j)
    is (∑ k, X (r, k) * W (k, j)) + b (0, j): dense_apply;
  * two dense layers with a relu between them at (p, q): mlpTile_apply;
  * that value, when the row operands are tile t of whole arrays and the small operands are whole, is the
    perceptron of the whole arrays at row 4000 t + p: mlp_of_blocks;
  * the tile statistics of a whole array read at an index whose tile and column are known: tileSum_at, tileSumSq_at.
-/
import Idealize.ShloMosaic.PureOps.Ideal.Laws
import Idealize.ShloMosaic.Lib.ValueIdx
import Idealize.ShloMosaic.Lib.ValueLayout
import Idealize.ShloMosaic.Lib.Pipeline.Value
import proofs.«116086_j16767552323790_2_alg».proof.Proof.LibVec
import proofs.«116086_j16767552323790_2_alg».proof.Proof.KSpec

noncomputable section

namespace Cert.RegTile

open Idealize.ShloMosaic Idealize.ShloMosaic.ValueIdx
open scoped BigOperators

/-- The zero offsets of a two-axis rectangle, however they are spelt. -/
theorem zero2 : (![0, 0] : Fin 2 → Nat) = fun _ => 0 := funext fun a => by fin_cases a <;> rfl
/-- The zero offsets of a three-axis rectangle. -/
theorem zero3 : (![0, 0, 0] : Fin 3 → Nat) = fun _ => 0 := funext fun a => by fin_cases a <;> rfl

/-- The sum down the rows of an [a, b] array, at column q, is the sum of that column's entries. -/
theorem colSum_apply {a b : ℕ} {φ : FTy} (x : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ x acc h hφ hacc (ix1 q) = ∑ y : Fin a, x (ix2 y q) := by
  rw [Ideal.multiReduction_add_single]
  refine Finset.sum_congr rfl fun k _ => congrArg x (funext fun ax => Fin.ext ?_)
  match ax with
  | ⟨0, _⟩ => rfl
  | ⟨1, _⟩ => rfl

/-- The same for an f32 array summed from the zero word, the neutrality proof typed as an equation of words. -/
theorem colSum_f32_apply {a b : ℕ} (x : FVec Ideal ⟨2, ![a, b]⟩ .f32)
    (h : (⟨2, ![a, b]⟩ : Shape).Reduces [0] ⟨1, ![b]⟩) (hacc : (0x00000000#32 : BitVec 32) = 0x00000000#32) (q : Fin b) :
    multiReduction .add [0] ⟨1, ![b]⟩ x 0x00000000#32 h (.inl rfl) hacc (ix1 q) = ∑ y : Fin a, x (ix2 y q) :=
  colSum_apply x _ h (.inl rfl) hacc q

/-- A [1, 1, b] array repeated over n sublanes reads, at (u, s, q), its entry (0, 0, q). -/
theorem sublanes_apply {α : Type} {n b : ℕ} (v : (⟨3, ![1, 1, b]⟩ : Shape).Idx → α)
    (h : (⟨3, ![1, 1, b]⟩ : Shape).Broadcasts ⟨3, ![1, n, b]⟩) (u : Fin 1) (s : Fin n) (q : Fin b) :
    broadcastTo ⟨3, ![1, n, b]⟩ v h (ix3 u s q) = v (ix3 (0 : Fin 1) (0 : Fin 1) q) := by
  refine broadcastTo_apply v h (ix3 u s q) (ix3 (0 : Fin 1) (0 : Fin 1) q) fun ax => ?_
  match ax with
  | ⟨0, _⟩ => rfl
  | ⟨1, _⟩ => rfl
  | ⟨2, _⟩ =>
    show q.val = if b = 1 then 0 else q.val
    split
    · have := q.isLt; omega
    · rfl

/-- A length-b vector viewed as [1, b], then as [1, 1, b], and repeated over n sublanes reads, at (u, s, q),
    the vector at q. -/
theorem statRows_apply {α : Type} {n b : ℕ} (v : (⟨1, ![b]⟩ : Shape).Idx → α)
    (h1 : (⟨1, ![b]⟩ : Shape).ShapeCasts ⟨2, ![1, b]⟩) (h2 : (⟨2, ![1, b]⟩ : Shape).ShapeCasts ⟨3, ![1, 1, b]⟩)
    (h3 : (⟨3, ![1, 1, b]⟩ : Shape).ShapeCasts ⟨3, ![1, 1, b]⟩) (h4 : (⟨3, ![1, 1, b]⟩ : Shape).Broadcasts ⟨3, ![1, n, b]⟩)
    (u : Fin 1) (s : Fin n) (q : Fin b) :
    broadcastTo ⟨3, ![1, n, b]⟩
        (shapeCast ⟨3, ![1, 1, b]⟩ (shapeCast ⟨3, ![1, 1, b]⟩ (shapeCast ⟨2, ![1, b]⟩ v h1) h2) h3) h4 (ix3 u s q)
      = v (ix1 q) := by
  rw [sublanes_apply, shapeCast_self, shapeCast_ab_1ab_apply, shapeCast_a_1a_apply]

/-- A dense layer at (r, j): the matrix product into a zero accumulator plus the one-row bias repeated down the
    rows is (∑ k, X (r, k) * W (k, j)) + b (0, j), for any dimension-numbers record with the plain operand indices. -/
theorem dense_apply {n K m : ℕ} {φ₁ φ₂ : FTy} (D : DotDims ⟨2, ![n, K]⟩ ⟨2, ![K, m]⟩ ⟨2, ![n, m]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (X : FVec Ideal ⟨2, ![n, K]⟩ φ₁) (W : FVec Ideal ⟨2, ![K, m]⟩ φ₂) (b : FVec Ideal ⟨2, ![1, m]⟩ .f32)
    (hc : (⟨2, ![1, m]⟩ : Shape).ShapeCasts ⟨2, ![1, m]⟩) (hb : (⟨2, ![1, m]⟩ : Shape).Broadcasts ⟨2, ![n, m]⟩)
    (r : Fin n) (j : Fin m) :
    addf (matmul D none X W (constant ⟨2, ![n, m]⟩ .f32 0x00000000#32))
        (broadcastTo ⟨2, ![n, m]⟩ (shapeCast ⟨2, ![1, m]⟩ b hc) hb) (ix2 r j)
      = (∑ k : Fin K, X (ix2 r k) * W (ix2 k j)) + b (ix2 (0 : Fin 1) j) := by
  rw [addf_apply, Cert.LibVec.matmul_rowcol D hr hs hl0 hl1 hr0 hr1, broadcastTo_1b_ab_apply, shapeCast_self]

/-- Two dense layers with a relu between them, the operands narrowed on the way into each product (the identity on
    extended reals), at (p, q). -/
theorem mlpTile_apply {n d : ℕ} (D1 : DotDims ⟨2, ![n, d]⟩ ⟨2, ![d, 128]⟩ ⟨2, ![n, 128]⟩)
    (D2 : DotDims ⟨2, ![n, 128]⟩ ⟨2, ![128, 128]⟩ ⟨2, ![n, 128]⟩)
    (hr : D1.contr.rank = 1) (hs : D1.contr.size ⟨0, by omega⟩ = d)
    (hl0 : ∀ i q, (D1.lhsIdx i q 0).val = (i 0).val) (hl1 : ∀ i q, (D1.lhsIdx i q 1).val = (q ⟨0, by omega⟩).val)
    (hr0 : ∀ i q, (D1.rhsIdx i q 0).val = (q ⟨0, by omega⟩).val) (hr1 : ∀ i q, (D1.rhsIdx i q 1).val = (i 1).val)
    (gr : D2.contr.rank = 1) (gs : D2.contr.size ⟨0, by omega⟩ = 128)
    (gl0 : ∀ i q, (D2.lhsIdx i q 0).val = (i 0).val) (gl1 : ∀ i q, (D2.lhsIdx i q 1).val = (q ⟨0, by omega⟩).val)
    (gr0 : ∀ i q, (D2.rhsIdx i q 0).val = (q ⟨0, by omega⟩).val) (gr1 : ∀ i q, (D2.rhsIdx i q 1).val = (i 1).val)
    (hlt : FTy.bits .bf16 < FTy.bits .f32)
    (hc : (⟨2, ![1, 128]⟩ : Shape).ShapeCasts ⟨2, ![1, 128]⟩) (hb : (⟨2, ![1, 128]⟩ : Shape).Broadcasts ⟨2, ![n, 128]⟩)
    (xs : FVec Ideal ⟨2, ![n, d]⟩ .f32) (W1 : FVec Ideal ⟨2, ![d, 128]⟩ .f32) (b1 : FVec Ideal ⟨2, ![1, 128]⟩ .f32)
    (W2 : FVec Ideal ⟨2, ![128, 128]⟩ .f32) (b2 : FVec Ideal ⟨2, ![1, 128]⟩ .f32) (p : Fin n) (q : Fin 128) :
    addf (matmul D2 none
          (truncf .bf16
            (maximumf
              (addf (matmul D1 none (truncf .bf16 xs hlt) (truncf .bf16 W1 hlt) (constant ⟨2, ![n, 128]⟩ .f32 0x00000000#32))
                (broadcastTo ⟨2, ![n, 128]⟩ (shapeCast ⟨2, ![1, 128]⟩ b1 hc) hb))
              (broadcast ⟨2, ![n, 128]⟩ (Scalar.ofBits (F := Ideal) .f32 0x00000000#32))) hlt)
          (truncf .bf16 W2 hlt) (constant ⟨2, ![n, 128]⟩ .f32 0x00000000#32))
        (broadcastTo ⟨2, ![n, 128]⟩ (shapeCast ⟨2, ![1, 128]⟩ b2 hc) hb) (ix2 p q)
      = (∑ k : Fin 128, max ((∑ l : Fin d, xs (ix2 p l) * W1 (ix2 l k)) + b1 (ix2 (0 : Fin 1) k)) (0 : EReal) * W2 (ix2 k q))
          + b2 (ix2 (0 : Fin 1) q) := by
  rw [dense_apply D2 gr gs gl0 gl1 gr0 gr1]
  refine congrArg (· + b2 (ix2 (0 : Fin 1) q)) (Finset.sum_congr rfl fun k _ => ?_)
  refine congrArg (· * W2 (ix2 k q)) ?_
  show max (addf (matmul D1 none (truncf .bf16 xs hlt) (truncf .bf16 W1 hlt) (constant ⟨2, ![n, 128]⟩ .f32 0x00000000#32))
      (broadcastTo ⟨2, ![n, 128]⟩ (shapeCast ⟨2, ![1, 128]⟩ b1 hc) hb) (ix2 p k)) (Ideal.ofBits .f32 0x00000000#32) = _
  rw [Ideal.ofBits_zero_f32, dense_apply D1 hr hs hl0 hl1 hr0 hr1]
  rfl

/-- The perceptron of a tile is the perceptron of the whole arrays on the tile's rows: when the two row operands
    are rows 4000 t … 4000 t + 3999 of X and A and the small operands are whole, the two-layer value at (y, q) is
    the whole-array function at row 4000 t + y. -/
theorem mlp_of_blocks {d : ℕ} (X A : FVec Ideal ⟨2, ![100000, d]⟩ .f32) (W1 : FVec Ideal ⟨2, ![d, 128]⟩ .f32)
    (b1 : FVec Ideal ⟨2, ![1, 128]⟩ .f32) (W2 : FVec Ideal ⟨2, ![128, 128]⟩ .f32) (b2 : FVec Ideal ⟨2, ![1, 128]⟩ .f32)
    (x0 x1 : FVec Ideal ⟨2, ![4000, d]⟩ .f32) (x2 : FVec Ideal ⟨2, ![d, 128]⟩ .f32) (x3 : FVec Ideal ⟨2, ![1, 128]⟩ .f32)
    (x4 : FVec Ideal ⟨2, ![128, 128]⟩ .f32) (x5 : FVec Ideal ⟨2, ![1, 128]⟩ .f32) (t : Fin 25)
    (h0 : ∀ y l, x0 (ix2 y l) = X (ix2 (KSpec.tileRow t y) l)) (h1 : ∀ y l, x1 (ix2 y l) = A (ix2 (KSpec.tileRow t y) l))
    (h2 : x2 = W1) (h3 : x3 = b1) (h4 : x4 = W2) (h5 : x5 = b2) (y : Fin 4000) (q : Fin 128) :
    (∑ k : Fin 128, max ((∑ l : Fin d, (x0 (ix2 y l) + x1 (ix2 y l)) * x2 (ix2 l k)) + x3 (ix2 (0 : Fin 1) k)) (0 : EReal) * x4 (ix2 k q))
        + x5 (ix2 (0 : Fin 1) q)
      = KSpec.mlp X A W1 b1 W2 b2 (ix2 (KSpec.tileRow t y) q) := by
  subst h2 h3 h4 h5
  simp only [h0, h1]
  rfl

/-- The tile sums read at an index whose tile is T and whose column is Q. -/
theorem tileSum_at (h : FVec Ideal ⟨2, ![100000, 128]⟩ .f32) (i : (⟨3, ![25, 8, 128]⟩ : Shape).Idx) (T : Fin 25) (Q : Fin 128)
    (h0 : (i 0).val = T.val) (h2 : (i 2).val = Q.val) :
    KSpec.tileSum h i = ∑ y : Fin 4000, h (ix2 (KSpec.tileRow T y) Q) := by
  have eT : (⟨(i 0).val, (i 0).isLt⟩ : Fin 25) = T := Fin.ext h0
  have eQ : (⟨(i 2).val, (i 2).isLt⟩ : Fin 128) = Q := Fin.ext h2
  unfold KSpec.tileSum
  rw [eT, eQ]

/-- The tile sums of squares read at an index whose tile is T and whose column is Q. -/
theorem tileSumSq_at (h : FVec Ideal ⟨2, ![100000, 128]⟩ .f32) (i : (⟨3, ![25, 8, 128]⟩ : Shape).Idx) (T : Fin 25) (Q : Fin 128)
    (h0 : (i 0).val = T.val) (h2 : (i 2).val = Q.val) :
    KSpec.tileSumSq h i = ∑ y : Fin 4000, h (ix2 (KSpec.tileRow T y) Q) * h (ix2 (KSpec.tileRow T y) Q) := by
  have eT : (⟨(i 0).val, (i 0).isLt⟩ : Fin 25) = T := Fin.ext h0
  have eQ : (⟨(i 2).val, (i 2).isLt⟩ : Fin 128) = Q := Fin.ext h2
  unfold KSpec.tileSumSq
  rw [eT, eQ]

end Cert.RegTile

end
-- ==== Proof.Reg0.lean ====
/-
  What the first perceptron-with-statistics region writes, as whole arrays.

  The region runs over 25 tiles of 4000 consecutive rows. At tile t it reads rows 4000 t … 4000 t + 3999 of the
  node features x and of the aggregated messages agg (32 columns each) and the whole of W1, b1, W2, b2, and writes
  * rows 4000 t … 4000 t + 3999 of h = relu((x + agg) · W1 + b1) · W2 + b2,
  * slab t of the tile sums: for every sublane s and column q, ∑ over the tile's rows y of h (4000 t + y, q),
  * slab t of the tile sums of squares, likewise.
  Each tile's block is that block of ONE whole-array function of the arrays the region finds, and the 25 blocks
  tile the arrays, so after the region the three arrays hold those functions: final0_6, final0_7, final0_8.
-/
import proofs.«116086_j16767552323790_2_alg».proof.Proof.Gen.KernelIdeal.Frame
import proofs.«116086_j16767552323790_2_alg».proof.Proof.KSpec
import proofs.«116086_j16767552323790_2_alg».proof.Proof.RegTile
import Idealize.ShloMosaic.Lib.Pipeline.Value

set_option maxRecDepth 16384

noncomputable section

namespace Cert.KernelIdeal.RegVal

open Idealize.ShloMosaic Idealize.ShloMosaic.TcCoe Idealize.ShloMosaic.ValueIdx
open Idealize.ShloMosaic.Pipeline (Dat)
open Cert.KernelIdeal Cert.KernelIdeal.Gen
open scoped BigOperators

/-! ## The two matrix products' operand indices -/

theorem dot32_l0 (i : S4000x128.Idx) (q : dot_S4000x32_S32x128_S4000x128_1_0_0_1_n_n.contr.Idx) :
    (dot_S4000x32_S32x128_S4000x128_1_0_0_1_n_n.lhsIdx i q 0).val = (i 0).val := by
  unfold DotDims.lhsIdx
  rw [dif_neg (show ¬(0 : Fin S4000x32.rank) ∈ dot_S4000x32_S32x128_S4000x128_1_0_0_1_n_n.lhsBatch by decide),
    dif_pos (show (0 : Fin S4000x32.rank) ∈ dot_S4000x32_S32x128_S4000x128_1_0_0_1_n_n.lhsNonContracting by decide)]
  rfl
theorem dot32_l1 (i : S4000x128.Idx) (q : dot_S4000x32_S32x128_S4000x128_1_0_0_1_n_n.contr.Idx) :
    (dot_S4000x32_S32x128_S4000x128_1_0_0_1_n_n.lhsIdx i q 1).val = (q ⟨0, by decide⟩).val :=
  dot_S4000x32_S32x128_S4000x128_1_0_0_1_n_n.lhsIdx_val_of_single rfl i q
theorem dot32_r0 (i : S4000x128.Idx) (q : dot_S4000x32_S32x128_S4000x128_1_0_0_1_n_n.contr.Idx) :
    (dot_S4000x32_S32x128_S4000x128_1_0_0_1_n_n.rhsIdx i q 0).val = (q ⟨0, by decide⟩).val :=
  dot_S4000x32_S32x128_S4000x128_1_0_0_1_n_n.rhsIdx_val_of_single rfl i q
theorem dot32_r1 (i : S4000x128.Idx) (q : dot_S4000x32_S32x128_S4000x128_1_0_0_1_n_n.contr.Idx) :
    (dot_S4000x32_S32x128_S4000x128_1_0_0_1_n_n.rhsIdx i q 1).val = (i 1).val := by
  unfold DotDims.rhsIdx
  rw [dif_neg (show ¬(1 : Fin S32x128.rank) ∈ dot_S4000x32_S32x128_S4000x128_1_0_0_1_n_n.rhsBatch by decide),
    dif_pos (show (1 : Fin S32x128.rank) ∈ dot_S4000x32_S32x128_S4000x128_1_0_0_1_n_n.rhsNonContracting by decide)]
  rfl

theorem dot128_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dot128_l1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dot128_r0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dot128_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-! ## The body's three stored values at an index, over the blocks it loads -/

/-- The stored block of h at (p, q): the two dense layers of the loaded blocks. -/
theorem pay0_h (x0 x1 : Vec Ideal S4000x32 .f32) (x2 : Vec Ideal S32x128 .f32) (x3 : Vec Ideal S1x128 .f32)
    (x4 : Vec Ideal S128x128 .f32) (x5 : Vec Ideal S1x128 .f32) (p : Fin 4000) (q : Fin 128) :
    k0_pay1 (F := Ideal) x0 x1 x2 x3 x4 x5 (ix2 p q)
      = (∑ k : Fin 128, max ((∑ l : Fin 32, (x0 (ix2 p l) + x1 (ix2 p l)) * x2 (ix2 l k)) + x3 (ix2 (0 : Fin 1) k)) (0 : EReal)
            * x4 (ix2 k q)) + x5 (ix2 (0 : Fin 1) q) := by
  unfold k0_pay1
  refine (Cert.RegTile.mlpTile_apply dot_S4000x32_S32x128_S4000x128_1_0_0_1_n_n dot_S4000x128_S128x128_S4000x128_1_0_0_1_n_n
    rfl rfl dot32_l0 dot32_l1 dot32_r0 dot32_r1 rfl rfl dot128_l0 dot128_l1 dot128_r0 dot128_r1
    bitsLt_bf16_f32 shapeCasts_S1x128_S1x128 broadcasts_S1x128_S4000x128
    (addf x0 (shapeCast S4000x32 x1 shapeCasts_S4000x32_S4000x32)) x2 x3 x4 x5 p q).trans ?_
  rw [shapeCast_self]
  rfl

/-- The stored slab of tile sums at (u, s, q): the sum down the rows of the stored block of h, at column q. -/
theorem pay0_sum (x0 x1 : Vec Ideal S4000x32 .f32) (x2 : Vec Ideal S32x128 .f32) (x3 : Vec Ideal S1x128 .f32)
    (x4 : Vec Ideal S128x128 .f32) (x5 : Vec Ideal S1x128 .f32) (u : Fin 1) (s : Fin 8) (q : Fin 128) :
    k0_pay2 (F := Ideal) x0 x1 x2 x3 x4 x5 (ix3 u s q) = ∑ y : Fin 4000, k0_pay1 (F := Ideal) x0 x1 x2 x3 x4 x5 (ix2 y q) := by
  unfold k0_pay2
  refine (Cert.RegTile.statRows_apply _ _ _ _ _ u s q).trans ?_
  exact Cert.RegTile.colSum_f32_apply _ _ _ q

/-- The stored slab of tile sums of squares at (u, s, q). -/
theorem pay0_sumsq (x0 x1 : Vec Ideal S4000x32 .f32) (x2 : Vec Ideal S32x128 .f32) (x3 : Vec Ideal S1x128 .f32)
    (x4 : Vec Ideal S128x128 .f32) (x5 : Vec Ideal S1x128 .f32) (u : Fin 1) (s : Fin 8) (q : Fin 128) :
    k0_pay3 (F := Ideal) x0 x1 x2 x3 x4 x5 (ix3 u s q)
      = ∑ y : Fin 4000, k0_pay1 (F := Ideal) x0 x1 x2 x3 x4 x5 (ix2 y q) * k0_pay1 (F := Ideal) x0 x1 x2 x3 x4 x5 (ix2 y q) := by
  unfold k0_pay3
  refine (Cert.RegTile.statRows_apply _ _ _ _ _ u s q).trans ?_
  refine (Cert.RegTile.colSum_f32_apply _ _ _ q).trans ?_
  exact Finset.sum_congr rfl fun y _ => rfl

/-! ## The blocks the region loads, as parts of the arrays it finds -/

variable (V : (c : Dev nD) → (b : Ref sig .tc) → Buf (Elt Ideal) ((c : Thread nD τ).loc b))

/-- A grid point as a tile number. -/
def tile0 (t : Fin cfg0.N) : Fin 25 := ⟨t.val, by have h := t.isLt; have hN : cfg0.N = 25 := N_0; omega⟩

theorem tile0_val (t : Fin cfg0.N) : (tile0 t).val = t.val := rfl

/-- The printed block index maps, decided once over the grid: the row-blocked windows sit at block (t, 0) (the
    statistics at (t, 0, 0)), the small operands at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- Block t of x is rows 4000 t … 4000 t + 3999 of x. -/
theorem rows0_0 (c : Dev nD) (t : Fin cfg0.N) (y : Fin 4000) (l : Fin 32) :
    (iblk0 V c 0 t : Vec Ideal S4000x32 .f32) (ix2 y l)
      = (V c (Pipeline.arrRef spec0 0) : FVec Ideal ⟨2, ![100000, 32]⟩ .f32) (ix2 (KSpec.tileRow (tile0 t) y) l) := by
  obtain ⟨⟨e0, e1⟩, -⟩ := idx0 t
  unfold iblk0
  show V c (Pipeline.arrRef spec0 0) (((cfg0.win 0).blk t).view.emb (ix2 y l)) = _
  refine congrArg _ (funext fun a => Fin.ext ?_)
  match a with
  | ⟨0, _⟩ => show win0_0.index t (0 : Fin 2) * 4000 + 1 * y.val = 4000 * t.val + y.val; rw [e0]; omega
  | ⟨1, _⟩ => show win0_0.index t (1 : Fin 2) * 32 + 1 * l.val = l.val; rw [e1]; omega

/-- Block t of agg is rows 4000 t … 4000 t + 3999 of agg. -/
theorem rows0_1 (c : Dev nD) (t : Fin cfg0.N) (y : Fin 4000) (l : Fin 32) :
    (iblk0 V c 1 t : Vec Ideal S4000x32 .f32) (ix2 y l)
      = (V c (Pipeline.arrRef spec0 1) : FVec Ideal ⟨2, ![100000, 32]⟩ .f32) (ix2 (KSpec.tileRow (tile0 t) y) l) := by
  obtain ⟨-, ⟨e0, e1⟩, -⟩ := idx0 t
  unfold iblk0
  show V c (Pipeline.arrRef spec0 1) (((cfg0.win 1).blk t).view.emb (ix2 y l)) = _
  refine congrArg _ (funext fun a => Fin.ext ?_)
  match a with
  | ⟨0, _⟩ => show win0_1.index t (0 : Fin 2) * 4000 + 1 * y.val = 4000 * t.val + y.val; rw [e0]; omega
  | ⟨1, _⟩ => show win0_1.index t (1 : Fin 2) * 32 + 1 * l.val = l.val; rw [e1]; omega

/-- The one block of W1 is W1. -/
theorem whole0_2 (c : Dev nD) (t : Fin cfg0.N) :
    (iblk0 V c 2 t : Vec Ideal S32x128 .f32) = (V c (Pipeline.arrRef spec0 2) : FVec Ideal ⟨2, ![32, 128]⟩ .f32) := by
  obtain ⟨-, -, ⟨e0, e1⟩, -⟩ := idx0 t
  funext j
  unfold iblk0
  show V c (Pipeline.arrRef spec0 2) (((cfg0.win 2).blk t).view.emb j) = V c (Pipeline.arrRef spec0 2) j
  refine congrArg _ (funext fun a => Fin.ext ?_)
  match a with
  | ⟨0, _⟩ => show win0_2.index t (0 : Fin 2) * 32 + 1 * (j 0).val = (j 0).val; rw [e0]; omega
  | ⟨1, _⟩ => show win0_2.index t (1 : Fin 2) * 128 + 1 * (j 1).val = (j 1).val; rw [e1]; omega

/-- The one block of b1 is b1. -/
theorem whole0_3 (c : Dev nD) (t : Fin cfg0.N) :
    (iblk0 V c 3 t : Vec Ideal S1x128 .f32) = (V c (Pipeline.arrRef spec0 3) : FVec Ideal ⟨2, ![1, 128]⟩ .f32) := by
  obtain ⟨-, -, -, ⟨e0, e1⟩, -⟩ := idx0 t
  funext j
  unfold iblk0
  show V c (Pipeline.arrRef spec0 3) (((cfg0.win 3).blk t).view.emb j) = V c (Pipeline.arrRef spec0 3) j
  refine congrArg _ (funext fun a => Fin.ext ?_)
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- The one block of W2 is W2. -/
theorem whole0_4 (c : Dev nD) (t : Fin cfg0.N) :
    (iblk0 V c 4 t : Vec Ideal S128x128 .f32) = (V c (Pipeline.arrRef spec0 4) : FVec Ideal ⟨2, ![128, 128]⟩ .f32) := by
  obtain ⟨-, -, -, -, ⟨e0, e1⟩, -⟩ := idx0 t
  funext j
  unfold iblk0
  show V c (Pipeline.arrRef spec0 4) (((cfg0.win 4).blk t).view.emb j) = V c (Pipeline.arrRef spec0 4) j
  refine congrArg _ (funext fun a => Fin.ext ?_)
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

/-- The one block of b2 is b2. -/
theorem whole0_5 (c : Dev nD) (t : Fin cfg0.N) :
    (iblk0 V c 5 t : Vec Ideal S1x128 .f32) = (V c (Pipeline.arrRef spec0 5) : FVec Ideal ⟨2, ![1, 128]⟩ .f32) := by
  obtain ⟨-, -, -, -, -, ⟨e0, e1⟩, -⟩ := idx0 t
  funext j
  unfold iblk0
  show V c (Pipeline.arrRef spec0 5) (((cfg0.win 5).blk t).view.emb j) = V c (Pipeline.arrRef spec0 5) j
  refine congrArg _ (funext fun a => Fin.ext ?_)
  match a with
  | ⟨0, _⟩ => show win0_5.index t (0 : Fin 2) * 1 + 1 * (j 0).val = (j 0).val; rw [e0]; omega
  | ⟨1, _⟩ => show win0_5.index t (1 : Fin 2) * 128 + 1 * (j 1).val = (j 1).val; rw [e1]; omega

/-- The whole-array function the region computes: the perceptron of the arrays it finds. -/
abbrev H0 (c : Dev nD) : FVec Ideal ⟨2, ![100000, 128]⟩ .f32 :=
  KSpec.mlp (d := 32) (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))

/-- The body's block of h at tile t is the perceptron of the whole arrays on the tile's rows. -/
theorem tile0_h (c : Dev nD) (t : Fin cfg0.N) (y : Fin 4000) (q : Fin 128) :
    k0_pay1 (F := Ideal) (iblk0 V c 0 t) (iblk0 V c 1 t) (iblk0 V c 2 t) (iblk0 V c 3 t) (iblk0 V c 4 t) (iblk0 V c 5 t) (ix2 y q)
      = H0 V c (ix2 (KSpec.tileRow (tile0 t) y) q) :=
  (pay0_h (iblk0 V c 0 t) (iblk0 V c 1 t) (iblk0 V c 2 t) (iblk0 V c 3 t) (iblk0 V c 4 t) (iblk0 V c 5 t) y q).trans
    (Cert.RegTile.mlp_of_blocks (d := 32) (V c (Pipeline.arrRef spec0 0)) (V c (Pipeline.arrRef spec0 1)) (V c (Pipeline.arrRef spec0 2))
      (V c (Pipeline.arrRef spec0 3)) (V c (Pipeline.arrRef spec0 4)) (V c (Pipeline.arrRef spec0 5))
      (iblk0 V c 0 t) (iblk0 V c 1 t) (iblk0 V c 2 t) (iblk0 V c 3 t) (iblk0 V c 4 t) (iblk0 V c 5 t) (tile0 t)
      (rows0_0 V c t) (rows0_1 V c t) (whole0_2 V c t) (whole0_3 V c t) (whole0_4 V c t) (whole0_5 V c t) y q)

/-! ## Window 6: the array h -/

/-- An index of h is in tile t's block iff each coordinate is in the block's range on its axis. -/
theorem mem_blk0_6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v26_0).slice (win0_6.rect t)).set ↔ _
  rw [View.set_slice_whole, Rect.mem_set_unit]
  exact Iff.rfl

/-- What tile t writes back to h is block t of the perceptron of the whole arrays. -/
theorem flushed0_6 (c : Dev nD) (t : Fin cfg0.N) :
    (dat0 (F := Ideal) V c).flushed 6 t = ((cfg0.win 6).blk t).view.read (Elt Ideal) (H0 V c) := by
  show (cfg0.win 6).cut (grid0.coords t) ((dat0 (F := Ideal) V c).after 6 t) = _
  rw [after0_6]
  unfold out0_6
  rw [View.canon_unit_zero Cert.RegTile.zero2]
  simp only [View.ld_unit_zero (S := S4000x32) Cert.RegTile.zero2, View.ld_unit_zero (S := S32x128) Cert.RegTile.zero2,
    View.ld_unit_zero (S := S1x128) Cert.RegTile.zero2, View.ld_unit_zero (S := S128x128) Cert.RegTile.zero2]
  obtain ⟨-, -, -, -, -, -, ⟨e0, e1⟩, -⟩ := idx0 t
  funext j
  obtain ⟨y, q, rfl⟩ : ∃ (y : Fin 4000) (q : Fin 128), j = ix2 y q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 y q)
    = H0 V c (((cfg0.win 6).blk t).view.emb (ix2 y q))
  refine (tile0_h V c t y q).trans (congrArg (H0 V c) (funext fun a => Fin.ext ?_))
  match a with
  | ⟨0, _⟩ => show 4000 * t.val + y.val = win0_6.index t (0 : Fin 2) * 4000 + 1 * y.val; rw [e0]; omega
  | ⟨1, _⟩ => show q.val = win0_6.index t (1 : Fin 2) * 128 + 1 * q.val; rw [e1]; omega

/-- Every row of h is in the block of the tile that holds it. -/
theorem cover0_6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, ⟨e0, e1⟩, -⟩ := idx0 t
  refine ⟨t, flush0_6 t, ?_⟩
  rw [mem_blk0_6]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 128 ≤ (i 1).val ∧ (i 1).val < win0_6.index t (1 : Fin 2) * 128 + 128; rw [e1]; omega

/-- After the region the array h holds the perceptron of the arrays the region found. -/
theorem final0_6 (c : Dev nD) :
    (dat0 (F := Ideal) V c).arrAt 6 cfg0.N
      = KSpec.mlp (d := 32) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 (F := Ideal) V c).arrAt_eq_of_cover 6 (H0 V c) (fun t _ => flushed0_6 V c t) cover0_6

/-! ## Windows 7 and 8: the tile sums and the tile sums of squares -/

/-- An index of a statistics array is in tile t's slab iff each coordinate is in the slab's range on its axis. -/
theorem mem_blk0_7 (t : Fin cfg0.N) (i : S25x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v26_1).slice (win0_7.rect t)).set ↔ _
  rw [View.set_slice_whole, Rect.mem_set_unit]
  exact Iff.rfl

theorem mem_blk0_8 (t : Fin cfg0.N) (i : S25x8x128.Idx) :
    i ∈ ((cfg0.win 8).blk t).view.set ↔ ∀ a : Fin 3, win0_8.index t a * S1x8x128.size a ≤ (i a).val ∧ (i a).val < win0_8.index t a * S1x8x128.size a + S1x8x128.size a := by
  show i ∈ ((View.whole main_v26_2).slice (win0_8.rect t)).set ↔ _
  rw [View.set_slice_whole, Rect.mem_set_unit]
  exact Iff.rfl

/-- What tile t writes back to the tile sums is slab t of the tile sums of the whole-array perceptron. -/
theorem flushed0_7 (c : Dev nD) (t : Fin cfg0.N) :
    (dat0 (F := Ideal) V c).flushed 7 t = ((cfg0.win 7).blk t).view.read (Elt Ideal) (KSpec.tileSum (H0 V c)) := by
  show (cfg0.win 7).cut (grid0.coords t) ((dat0 (F := Ideal) V c).after 7 t) = _
  rw [after0_7]
  unfold out0_7
  rw [View.canon_unit_zero Cert.RegTile.zero3]
  simp only [View.ld_unit_zero (S := S4000x32) Cert.RegTile.zero2, View.ld_unit_zero (S := S32x128) Cert.RegTile.zero2,
    View.ld_unit_zero (S := S1x128) Cert.RegTile.zero2, View.ld_unit_zero (S := S128x128) Cert.RegTile.zero2]
  obtain ⟨-, -, -, -, -, -, -, ⟨e0, e1, e2⟩, -⟩ := idx0 t
  funext j
  obtain ⟨u, s, q, rfl⟩ : ∃ (u : Fin 1) (s : Fin 8) (q : Fin 128), j = ix3 u s q := ⟨j 0, j 1, j 2, eq_ix3 j⟩
  show k0_pay2 (F := Ideal) (iblk0 V c 0 t) (iblk0 V c 1 t) (iblk0 V c 2 t) (iblk0 V c 3 t) (iblk0 V c 4 t) (iblk0 V c 5 t) (ix3 u s q)
    = KSpec.tileSum (H0 V c) (((cfg0.win 7).blk t).view.emb (ix3 u s q))
  refine (pay0_sum (iblk0 V c 0 t) (iblk0 V c 1 t) (iblk0 V c 2 t) (iblk0 V c 3 t) (iblk0 V c 4 t) (iblk0 V c 5 t) u s q).trans ?_
  refine (Finset.sum_congr rfl fun y _ => tile0_h V c t y q).trans ?_
  refine (Cert.RegTile.tileSum_at (H0 V c) _ (tile0 t) q ?_ ?_).symm
  · show win0_7.index t (0 : Fin 3) * 1 + 1 * u.val = t.val; rw [e0]; omega
  · show win0_7.index t (2 : Fin 3) * 128 + 1 * q.val = q.val; rw [e2]; omega

/-- What tile t writes back to the tile sums of squares is slab t of those of the whole-array perceptron. -/
theorem flushed0_8 (c : Dev nD) (t : Fin cfg0.N) :
    (dat0 (F := Ideal) V c).flushed 8 t = ((cfg0.win 8).blk t).view.read (Elt Ideal) (KSpec.tileSumSq (H0 V c)) := by
  show (cfg0.win 8).cut (grid0.coords t) ((dat0 (F := Ideal) V c).after 8 t) = _
  rw [after0_8]
  unfold out0_8
  rw [View.canon_unit_zero Cert.RegTile.zero3]
  simp only [View.ld_unit_zero (S := S4000x32) Cert.RegTile.zero2, View.ld_unit_zero (S := S32x128) Cert.RegTile.zero2,
    View.ld_unit_zero (S := S1x128) Cert.RegTile.zero2, View.ld_unit_zero (S := S128x128) Cert.RegTile.zero2]
  obtain ⟨-, -, -, -, -, -, -, -, ⟨e0, e1, e2⟩⟩ := idx0 t
  funext j
  obtain ⟨u, s, q, rfl⟩ : ∃ (u : Fin 1) (s : Fin 8) (q : Fin 128), j = ix3 u s q := ⟨j 0, j 1, j 2, eq_ix3 j⟩
  show k0_pay3 (F := Ideal) (iblk0 V c 0 t) (iblk0 V c 1 t) (iblk0 V c 2 t) (iblk0 V c 3 t) (iblk0 V c 4 t) (iblk0 V c 5 t) (ix3 u s q)
    = KSpec.tileSumSq (H0 V c) (((cfg0.win 8).blk t).view.emb (ix3 u s q))
  refine (pay0_sumsq (iblk0 V c 0 t) (iblk0 V c 1 t) (iblk0 V c 2 t) (iblk0 V c 3 t) (iblk0 V c 4 t) (iblk0 V c 5 t) u s q).trans ?_
  refine (Finset.sum_congr rfl fun y _ => by rw [tile0_h V c t y q]).trans ?_
  refine (Cert.RegTile.tileSumSq_at (H0 V c) _ (tile0 t) q ?_ ?_).symm
  · show win0_8.index t (0 : Fin 3) * 1 + 1 * u.val = t.val; rw [e0]; omega
  · show win0_8.index t (2 : Fin 3) * 128 + 1 * q.val = q.val; rw [e2]; omega

/-- Every entry of the tile sums is in the slab of its tile. -/
theorem cover0_7 (i : S25x8x128.Idx) :
    ∃ t : Fin cfg0.N, (cfg0.win 7).flush t = true ∧ i ∈ ((cfg0.win 7).blk t).view.set := by
  have hi0 : (i 0).val < 25 := (i 0).isLt
  have hi1 : (i 1).val < 8 := (i 1).isLt
  have hi2 : (i 2).val < 128 := (i 2).isLt
  have hN : cfg0.N = 25 := N_0
  obtain ⟨t, ht⟩ : ∃ t : Fin cfg0.N, t.val = (i 0).val := ⟨⟨(i 0).val, by rw [hN]; omega⟩, rfl⟩
  obtain ⟨-, -, -, -, -, -, -, ⟨e0, e1, e2⟩, -⟩ := idx0 t
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; rw [e0, ht]; omega
  | ⟨1, _⟩ => show win0_7.index t (1 : Fin 3) * 8 ≤ (i 1).val ∧ (i 1).val < win0_7.index t (1 : Fin 3) * 8 + 8; rw [e1]; omega
  | ⟨2, _⟩ => show win0_7.index t (2 : Fin 3) * 128 ≤ (i 2).val ∧ (i 2).val < win0_7.index t (2 : Fin 3) * 128 + 128; rw [e2]; omega

/-- Every entry of the tile sums of squares is in the slab of its tile. -/
theorem cover0_8 (i : S25x8x128.Idx) :
    ∃ t : Fin cfg0.N, (cfg0.win 8).flush t = true ∧ i ∈ ((cfg0.win 8).blk t).view.set := by
  have hi0 : (i 0).val < 25 := (i 0).isLt
  have hi1 : (i 1).val < 8 := (i 1).isLt
  have hi2 : (i 2).val < 128 := (i 2).isLt
  have hN : cfg0.N = 25 := N_0
  obtain ⟨t, ht⟩ : ∃ t : Fin cfg0.N, t.val = (i 0).val := ⟨⟨(i 0).val, by rw [hN]; omega⟩, rfl⟩
  obtain ⟨-, -, -, -, -, -, -, -, ⟨e0, e1, e2⟩⟩ := idx0 t
  refine ⟨t, flush0_8 t, ?_⟩
  rw [mem_blk0_8]
  intro a
  match a with
  | ⟨0, _⟩ => show win0_8.index t (0 : Fin 3) * 1 ≤ (i 0).val ∧ (i 0).val < win0_8.index t (0 : Fin 3) * 1 + 1; rw [e0, ht]; omega
  | ⟨1, _⟩ => show win0_8.index t (1 : Fin 3) * 8 ≤ (i 1).val ∧ (i 1).val < win0_8.index t (1 : Fin 3) * 8 + 8; rw [e1]; omega
  | ⟨2, _⟩ => show win0_8.index t (2 : Fin 3) * 128 ≤ (i 2).val ∧ (i 2).val < win0_8.index t (2 : Fin 3) * 128 + 128; rw [e2]; omega

/-- After the region the tile sums hold, at (t, s, q), the sum over tile t's rows of column q of the perceptron. -/
theorem final0_7 (c : Dev nD) :
    (dat0 (F := Ideal) V c).arrAt 7 cfg0.N
      = KSpec.tileSum (KSpec.mlp (d := 32) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))) :=
  (dat0 (F := Ideal) V c).arrAt_eq_of_cover 7 (KSpec.tileSum (H0 V c)) (fun t _ => flushed0_7 V c t) cover0_7

/-- After the region the tile sums of squares hold, at (t, s, q), the sum over tile t's rows of the squares of column q. -/
theorem final0_8 (c : Dev nD) :
    (dat0 (F := Ideal) V c).arrAt 8 cfg0.N
      = KSpec.tileSumSq (KSpec.mlp (d := 32) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))) :=
  (dat0 (F := Ideal) V c).arrAt_eq_of_cover 8 (KSpec.tileSumSq (H0 V c)) (fun t _ => flushed0_8 V c t) cover0_8

end Cert.KernelIdeal.RegVal

end
-- ==== Proof.Reg1.lean ====
/-
  What the normalise-and-clamp region writes, as one array.

  The region walks the 100000 rows in 25 tiles of 4000 consecutive rows. At tile `t` it holds rows
  4000 t … 4000 t + 3999 of `h` and the two one-row operands `scale` and `shift` whole, and it stores
  max(h · scale + shift, 0), entry by entry, into the same rows of the result. Row `r` lies in tile `r / 4000`,
  so the tiles cover the result, and the result is max(h · scale + shift, 0) at every entry.

  * `clampAffine_at`: the value stored at row `p`, column `q` of a tile, from the tile's three operands.
  * `tile_index`: which block of each operand a tile holds (block `t` of the row-tiled ones, block 0 of the whole ones).
  * `tile_rows`, `scale_whole`, `shift_whole`: each operand's block in terms of the whole operand.
  * `clampAffine_tile`: the stored value is the whole-array function at the row the tile's row stands for.
  * `tile_written`: what tile `t` writes back is block `t` of the whole-array function.
  * `mem_tile`, `rows_covered`: every entry of the result lies in some tile's block.
  * `final1_3`: the result array.
-/
import proofs.«116086_j16767552323790_2_alg».proof.Proof.Gen.KernelIdeal.Frame
import proofs.«116086_j16767552323790_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

namespace BnRelu

/-- The zero offsets of a two-axis block, as the constant function. -/
theorem zeroOff : (![0, 0] : Fin 2 → Nat) = fun _ => 0 := funext fun a => by fin_cases a <;> rfl

/-- The value stored at row `p`, column `q` of a tile: the tile's entry times the scale of its column, plus the
    shift of its column, clamped below at zero. -/
theorem clampAffine_at (x0 : FVec Ideal S4000x128 .f32) (x1 x2 : FVec Ideal S1x128 .f32) (p : Fin 4000) (q : Fin 128) :
    k1_pay1 (F := Ideal) x0 x1 x2 (ix2 p q)
      = max (x0 (ix2 p q) * x1 (ix2 (0 : Fin 1) q) + x2 (ix2 (0 : Fin 1) q)) (0 : EReal) := by
  unfold k1_pay1
  simp only [shapeCast_self, maximumf_apply, addf_apply, mulf_apply, broadcast_apply, broadcastTo_1b_ab_apply]
  show max _ (Ideal.ofBits .f32 0x00000000#32) = _
  rw [Ideal.ofBits_zero_f32]

/-- Which block each operand's tile is: the row-tiled operands (the input `h` and the result) hold block `t` of the
    rows and the one block of columns; the one-row operands hold their one block. Decided over the 25 tiles. -/
theorem tile_index : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Row `y` of tile `t` of `h` is row `4000 t + y` of `h`, column by column. -/
theorem tile_rows (c : Dev nD) (t : Fin cfg1.N) (y : S4000x128.Idx) (i : S100000x128.Idx)
    (h0 : (i 0).val = 4000 * t.val + (y 0).val) (h1 : (i 1).val = (y 1).val) :
    (iblk1 (F := Ideal) V c 0 t : FVec Ideal S4000x128 .f32) y
      = (V c (Pipeline.arrRef spec1 0) : FVec Ideal S100000x128 .f32) i := by
  obtain ⟨e0, e1, -⟩ := tile_index t
  unfold iblk1
  rw [View.read_apply]
  show (V c (Pipeline.arrRef spec1 0) : FVec Ideal S100000x128 .f32) (((cfg1.win 0).blk t).view.emb y) = _
  refine congrArg (V c (Pipeline.arrRef spec1 0) : FVec Ideal S100000x128 .f32) (funext fun a => Fin.ext ?_)
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

/-- The scale's tile is the whole one-row scale. -/
theorem scale_whole (c : Dev nD) (t : Fin cfg1.N) :
    (iblk1 (F := Ideal) V c 1 t : FVec Ideal S1x128 .f32) = (V c (Pipeline.arrRef spec1 1) : FVec Ideal S1x128 .f32) := by
  obtain ⟨-, -, e2, e3, -⟩ := tile_index t
  funext y
  unfold iblk1
  rw [View.read_apply]
  show (V c (Pipeline.arrRef spec1 1) : FVec Ideal S1x128 .f32) (((cfg1.win 1).blk t).view.emb y) = _
  refine congrArg (V c (Pipeline.arrRef spec1 1) : FVec Ideal S1x128 .f32) (funext fun a => Fin.ext ?_)
  match a with
  | ⟨0, _⟩ => show win1_1.index t (0 : Fin 2) * 1 + 1 * (y 0).val = (y 0).val; rw [e2]; omega
  | ⟨1, _⟩ => show win1_1.index t (1 : Fin 2) * 128 + 1 * (y 1).val = (y 1).val; rw [e3]; omega

/-- The shift's tile is the whole one-row shift. -/
theorem shift_whole (c : Dev nD) (t : Fin cfg1.N) :
    (iblk1 (F := Ideal) V c 2 t : FVec Ideal S1x128 .f32) = (V c (Pipeline.arrRef spec1 2) : FVec Ideal S1x128 .f32) := by
  obtain ⟨-, -, -, -, e4, e5, -⟩ := tile_index t
  funext y
  unfold iblk1
  rw [View.read_apply]
  show (V c (Pipeline.arrRef spec1 2) : FVec Ideal S1x128 .f32) (((cfg1.win 2).blk t).view.emb y) = _
  refine congrArg (V c (Pipeline.arrRef spec1 2) : FVec Ideal S1x128 .f32) (funext fun a => Fin.ext ?_)
  match a with
  | ⟨0, _⟩ => show win1_2.index t (0 : Fin 2) * 1 + 1 * (y 0).val = (y 0).val; rw [e4]; omega
  | ⟨1, _⟩ => show win1_2.index t (1 : Fin 2) * 128 + 1 * (y 1).val = (y 1).val; rw [e5]; omega

/-- The stored value at a tile's index `y` is the whole-array function at the array index `i` that `y` stands for:
    the tile's entry at `y` is `h` at `i`, the one-row operands are whole, and `i` has `y`'s column. -/
theorem clampAffine_tile (A0 : FVec Ideal S100000x128 .f32) (A1 A2 : FVec Ideal S1x128 .f32)
    (x0 : FVec Ideal S4000x128 .f32) (x1 x2 : FVec Ideal S1x128 .f32) (y : S4000x128.Idx) (i : S100000x128.Idx)
    (h0 : x0 y = A0 i) (h1 : x1 = A1) (h2 : x2 = A2) (hc : (i 1).val = (y 1).val) :
    k1_pay1 (F := Ideal) x0 x1 x2 y = KSpec.bnRelu A0 A1 A2 i := by
  subst h1 h2
  obtain ⟨p, q, rfl⟩ : ∃ (p : Fin 4000) (q : Fin 128), y = ix2 p q := ⟨y 0, y 1, eq_ix2 y⟩
  have hq : KSpec.col i = q := Fin.ext hc
  rw [clampAffine_at, h0]
  unfold KSpec.bnRelu
  rw [hq]

/-- What tile `t` writes back is block `t` of max(h · scale + shift, 0) of the operands as the region finds them. -/
theorem tile_written (c : Dev nD) (t : Fin cfg1.N) :
    (dat1 (F := Ideal) V c).flushed 3 t
      = ((cfg1.win 3).blk t).view.read (Elt Ideal)
          (KSpec.bnRelu (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zeroOff]
  simp only [View.ld_unit_zero (S := S4000x128) zeroOff, View.ld_unit_zero (S := S1x128) zeroOff]
  obtain ⟨-, -, -, -, -, -, e6, e7⟩ := tile_index t
  funext j
  rw [View.read_apply]
  show k1_pay1 (F := Ideal) (iblk1 V c 0 t) (iblk1 V c 1 t) (iblk1 V c 2 t) ((cfg1.win 3).xinj (grid1.coords t) j)
      = KSpec.bnRelu (V c (Pipeline.arrRef spec1 0)) (V c (Pipeline.arrRef spec1 1)) (V c (Pipeline.arrRef spec1 2))
          (((cfg1.win 3).blk t).view.emb j)
  refine clampAffine_tile (V c (Pipeline.arrRef spec1 0)) (V c (Pipeline.arrRef spec1 1)) (V c (Pipeline.arrRef spec1 2))
    (iblk1 V c 0 t) (iblk1 V c 1 t) (iblk1 V c 2 t) ((cfg1.win 3).xinj (grid1.coords t) j) (((cfg1.win 3).blk t).view.emb j)
    ?_ (scale_whole V c t) (shift_whole V c t) ?_
  · refine tile_rows V c t ((cfg1.win 3).xinj (grid1.coords t) j) (((cfg1.win 3).blk t).view.emb j) ?_ ?_
    · show win1_3.index t (0 : Fin 2) * 4000 + 1 * (j 0).val = 4000 * t.val + (j 0).val
      rw [e6]; omega
    · show win1_3.index t (1 : Fin 2) * 128 + 1 * (j 1).val = (j 1).val
      rw [e7]; omega
  · show win1_3.index t (1 : Fin 2) * 128 + 1 * (j 1).val = (j 1).val
    rw [e7]; omega

/-- An entry of the result lies in tile `t`'s block iff each of its coordinates lies in the block's range on its axis. -/
theorem mem_tile (t : Fin cfg1.N) (i : S100000x128.Idx) :
    i ∈ ((cfg1.win 3).blk t).view.set
      ↔ ∀ a : Fin 2, win1_3.index t a * S4000x128.size a ≤ (i a).val
          ∧ (i a).val < win1_3.index t a * S4000x128.size a + S4000x128.size a := by
  show i ∈ ((View.whole main_v50).slice (win1_3.rect t)).set ↔ _
  rw [View.set_slice_whole, Rect.mem_set_unit]
  exact Iff.rfl

/-- Every entry of the result lies in the block of the tile its row falls in: row `r` is in tile `r / 4000`. -/
theorem rows_covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hlt : (i 0).val / 4000 < cfg1.N := by rw [show cfg1.N = 25 from N_1]; omega
  obtain ⟨-, -, -, -, -, -, e6, e7⟩ := tile_index ⟨(i 0).val / 4000, hlt⟩
  have e6' : win1_3.index ⟨(i 0).val / 4000, hlt⟩ (0 : Fin 2) = (i 0).val / 4000 := e6
  refine ⟨⟨(i 0).val / 4000, hlt⟩, flush1_3 _, ?_⟩
  rw [mem_tile]
  intro a
  match a with
  | ⟨0, _⟩ =>
    show win1_3.index ⟨(i 0).val / 4000, hlt⟩ (0 : Fin 2) * 4000 ≤ (i 0).val
      ∧ (i 0).val < win1_3.index ⟨(i 0).val / 4000, hlt⟩ (0 : Fin 2) * 4000 + 4000
    rw [e6']; omega
  | ⟨1, _⟩ =>
    show win1_3.index ⟨(i 0).val / 4000, hlt⟩ (1 : Fin 2) * 128 ≤ (i 1).val
      ∧ (i 1).val < win1_3.index ⟨(i 0).val / 4000, hlt⟩ (1 : Fin 2) * 128 + 128
    rw [e7]; omega

end BnRelu

/-- THE RESULT of the normalise-and-clamp region: max(h · scale + shift, 0) of its three operands as the region
    finds them, at every entry. -/
theorem final1_3 (V : (c : Dev nD) → (b : Ref sig .tc) → Buf (Elt Ideal) ((c : Thread nD τ).loc b)) (c : Dev nD) :
    (Gen.dat1 (F := Ideal) V c).arrAt 3 cfg1.N
      = KSpec.bnRelu (V c (Pipeline.arrRef spec1 0)) (V c (Pipeline.arrRef spec1 1)) (V c (Pipeline.arrRef spec1 2)) :=
  (Gen.dat1 (F := Ideal) V c).arrAt_eq_of_cover 3 _ (fun t _ => BnRelu.tile_written V c t) BnRelu.rows_covered

end Cert.KernelIdeal.RegVal

end
-- ==== Proof.KValA.lean ====
/-
  The kernel program's values up to the end of its first block, as functions of the argument arrays.

  The program is a chain of host stretches and regions; the buffer contents at each boundary are a fold from the
  launch memory. Read along that fold:
  * at the first region's entry the aggregated messages are the host's gather – edge product – relu – scatter-add of
    the arguments, the two biases are the argument vectors viewed as one-row matrices, and the features and the two
    weight matrices are the arguments themselves;
  * so at the first region's exit the three arrays it writes are the perceptron h0 of the arguments and its per-tile
    sums and sums of squares;
  * at the second region's entry the scale and the shift are the host's functions of those statistics and of the
    normalisation's two argument vectors, and h0 is still in place;
  * so at the second region's exit the array it writes is the first block's output: max(h0 · scale + shift, 0).
-/
import proofs.«116086_j16767552323790_2_alg».proof.Proof.Gen.KernelIdeal.Frame
import proofs.«116086_j16767552323790_2_alg».proof.Proof.KHost
import proofs.«116086_j16767552323790_2_alg».proof.Proof.KSpec
import proofs.«116086_j16767552323790_2_alg».proof.Proof.KPure
import proofs.«116086_j16767552323790_2_alg».proof.Proof.Reg0
import proofs.«116086_j16767552323790_2_alg».proof.Proof.Reg1
import Idealize.ShloMosaic.Lib.StableHlo.Run

set_option maxRecDepth 16384

noncomputable section

namespace Cert.KernelIdeal.KVal

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-! ## The first region's entry -/

set_option maxHeartbeats 4000000 in
/-- The aggregated messages of the first block. -/
theorem V3_v23 : V3 m ρ c main_v23 = KHost.aggK0 (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [V3, W3, W2, W1]
  after_results_simp
  rfl

set_option maxHeartbeats 4000000 in
/-- The first layer's bias as a one-row matrix. -/
theorem V3_v24 : V3 m ρ c main_v24 = shapeCast S1x128 (m ((c : Thread nD τ).loc main_arg6)) shapeCasts_S128_S1x128 := by
  dsimp only [V3, W3, W2, W1]
  after_results_simp
  rfl

set_option maxHeartbeats 4000000 in
/-- The second layer's bias as a one-row matrix. -/
theorem V3_v25 : V3 m ρ c main_v25 = shapeCast S1x128 (m ((c : Thread nD τ).loc main_arg8)) shapeCasts_S128_S1x128 := by
  dsimp only [V3, W3, W2, W1]
  after_results_simp
  rfl

set_option maxHeartbeats 4000000 in
/-- The node features are as launched. -/
theorem V3_arg0 : V3 m ρ c main_arg0 = (m ((c : Thread nD τ).loc main_arg0)) := by
  dsimp only [V3, W3, W2, W1]
  after_results_simp

set_option maxHeartbeats 4000000 in
/-- The first weight matrix is as launched. -/
theorem V3_arg5 : V3 m ρ c main_arg5 = (m ((c : Thread nD τ).loc main_arg5)) := by
  dsimp only [V3, W3, W2, W1]
  after_results_simp

set_option maxHeartbeats 4000000 in
/-- The second weight matrix is as launched. -/
theorem V3_arg7 : V3 m ρ c main_arg7 = (m ((c : Thread nD τ).loc main_arg7)) := by
  dsimp only [V3, W3, W2, W1]
  after_results_simp

/-! The same six facts at the first region's input windows. -/

theorem in0_0 : V3 m ρ c (Pipeline.arrRef spec0 0) = (m ((c : Thread nD τ).loc main_arg0)) := V3_arg0 m ρ c
theorem in0_1 : V3 m ρ c (Pipeline.arrRef spec0 1) = KHost.aggK0 (m ((c : Thread nD τ).loc main_arg0)) (m ((c : Thread nD τ).loc main_arg1)) (m ((c : Thread nD τ).loc main_arg2)) (m ((c : Thread nD τ).loc main_arg3)) (m ((c : Thread nD τ).loc main_arg4)) := V3_v23 m ρ c
theorem in0_2 : V3 m ρ c (Pipeline.arrRef spec0 2) = (m ((c : Thread nD τ).loc main_arg5)) := V3_arg5 m ρ c
theorem in0_3 : V3 m ρ c (Pipeline.arrRef spec0 3) = shapeCast S1x128 (m ((c : Thread nD τ).loc main_arg6)) shapeCasts_S128_S1x128 := V3_v24 m ρ c
theorem in0_4 : V3 m ρ c (Pipeline.arrRef spec0 4) = (m ((c : Thread nD τ).loc main_arg7)) := V3_arg7 m ρ c
theorem in0_5 : V3 m ρ c (Pipeline.arrRef spec0 5) = shapeCast S1x128 (m ((c : Thread nD τ).loc main_arg8)) shapeCasts_S128_S1x128 := V3_v25 m ρ c

/-- The first region's perceptron of the arrays it finds is the perceptron h0 of the arguments. -/
theorem mlp0_eq :
    KSpec.mlp (d := 32) (V3 m ρ c (Pipeline.arrRef spec0 0)) (V3 m ρ c (Pipeline.arrRef spec0 1)) (V3 m ρ c (Pipeline.arrRef spec0 2))
        (V3 m ρ c (Pipeline.arrRef spec0 3)) (V3 m ρ c (Pipeline.arrRef spec0 4)) (V3 m ρ c (Pipeline.arrRef spec0 5))
      = Pure.h0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pure.h0K
  rw [in0_0 m ρ c, in0_1 m ρ c, in0_2 m ρ c, in0_3 m ρ c, in0_4 m ρ c, in0_5 m ρ c]

/-! ## The first region's exit -/

/-- The array h0. -/
theorem W4_v26_0 : W4 m ρ c (Proc.devRef .tc main_v26_0) = Pure.h0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W4_arr m ρ c 6).trans ((RegVal.final0_6 (V3 m ρ) c).trans (mlp0_eq m ρ c))

/-- Its per-tile column sums. -/
theorem W4_v26_1 : W4 m ρ c (Proc.devRef .tc main_v26_1) = KSpec.tileSum (Pure.h0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W4_arr m ρ c 7).trans ((RegVal.final0_7 (V3 m ρ) c).trans (congrArg KSpec.tileSum (mlp0_eq m ρ c)))

/-- Its per-tile column sums of squares. -/
theorem W4_v26_2 : W4 m ρ c (Proc.devRef .tc main_v26_2) = KSpec.tileSumSq (Pure.h0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W4_arr m ρ c 8).trans ((RegVal.final0_8 (V3 m ρ) c).trans (congrArg KSpec.tileSumSq (mlp0_eq m ρ c)))

set_option maxHeartbeats 4000000 in
/-- The normalisation's weight vector is as launched. -/
theorem W4_arg9 : W4 m ρ c (Proc.devRef .tc main_arg9) = (m ((c : Thread nD τ).loc main_arg9)) := by
  rw [W4_of_ne m ρ c main_arg9 (by decide)]
  dsimp only [W3, W2, W1]
  after_results_simp

set_option maxHeartbeats 4000000 in
/-- The normalisation's offset vector is as launched. -/
theorem W4_arg10 : W4 m ρ c (Proc.devRef .tc main_arg10) = (m ((c : Thread nD τ).loc main_arg10)) := by
  rw [W4_of_ne m ρ c main_arg10 (by decide)]
  dsimp only [W3, W2, W1]
  after_results_simp

/-! ## The second region's entry -/

set_option maxHeartbeats 4000000 in
/-- The scale: the host's function of the two statistics arrays and the weight vector. -/
theorem V5_v46 : V5 m ρ c main_v46
    = KHost.scaleK (W4 m ρ c (Proc.devRef .tc main_v26_1)) (W4 m ρ c (Proc.devRef .tc main_v26_2)) (m ((c : Thread nD τ).loc main_arg9)) := by
  dsimp only [V5, W5]
  after_results_simp
  rw [W4_arg9 m ρ c]
  rfl

set_option maxHeartbeats 4000000 in
/-- The shift: the host's function of the two statistics arrays, the weight vector and the offset vector. -/
theorem V5_v49 : V5 m ρ c main_v49
    = KHost.shiftK (W4 m ρ c (Proc.devRef .tc main_v26_1)) (W4 m ρ c (Proc.devRef .tc main_v26_2)) (m ((c : Thread nD τ).loc main_arg9)) (m ((c : Thread nD τ).loc main_arg10)) := by
  dsimp only [V5, W5]
  after_results_simp
  rw [W4_arg9 m ρ c, W4_arg10 m ρ c]
  rfl

set_option maxHeartbeats 4000000 in
/-- The array h0 is untouched by the stretch. -/
theorem V5_v26_0 : V5 m ρ c main_v26_0 = W4 m ρ c (Proc.devRef .tc main_v26_0) := by
  dsimp only [V5, W5]
  after_results_simp

/-! The same three facts at the second region's input windows, in the arguments. -/

theorem in1_0 : V5 m ρ c (Pipeline.arrRef spec1 0) = Pure.h0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (V5_v26_0 m ρ c).trans (W4_v26_0 m ρ c)
theorem in1_1 : V5 m ρ c (Pipeline.arrRef spec1 1)
    = KHost.scaleK (KSpec.tileSum (Pure.h0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (KSpec.tileSumSq (Pure.h0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (m ((c : Thread nD τ).loc main_arg9)) := by
  refine (V5_v46 m ρ c).trans ?_
  rw [W4_v26_1 m ρ c, W4_v26_2 m ρ c]
theorem in1_2 : V5 m ρ c (Pipeline.arrRef spec1 2)
    = KHost.shiftK (KSpec.tileSum (Pure.h0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (KSpec.tileSumSq (Pure.h0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (m ((c : Thread nD τ).loc main_arg9)) (m ((c : Thread nD τ).loc main_arg10)) := by
  refine (V5_v49 m ρ c).trans ?_
  rw [W4_v26_1 m ρ c, W4_v26_2 m ρ c]

/-! ## The second region's exit -/

/-- The first block's output, as one function of the argument arrays. -/
theorem y0 : W6 m ρ c (Proc.devRef .tc main_v50) = Pure.y0K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 3).trans ((RegVal.final1_3 (V5 m ρ) c).trans ?_)
  unfold Pure.y0K
  rw [in1_0 m ρ c, in1_1 m ρ c, in1_2 m ρ c]

end Cert.KernelIdeal.KVal

end
-- ==== Proof.KValBWalk.lean ====
/-
  The second half of the kernel program's value chain, part one: what is carried unchanged.

  An array that no host operation and no region writes after it was last written keeps its contents. The two rows
  of the edge list are computed once, before the first region; the argument arrays are never written. Here each
  of those the second half of the program reads is followed from the launch to the second region's exit: through
  a stretch of host operations by reading off every operation's result array (none is the array followed), through
  a region because the array is none of the region's windows.
-/
import proofs.«116086_j16767552323790_2_alg».proof.Proof.Gen.KernelIdeal.Frame
import proofs.«116086_j16767552323790_2_alg».proof.Proof.KHost
import Idealize.ShloMosaic.Lib.StableHlo.Run

set_option maxRecDepth 16384

noncomputable section

namespace Cert.KernelIdeal.KVal.B

open Idealize.ShloMosaic Idealize.ShloMosaic.TcCoe Idealize.SL.Sem Cert.KernelIdeal Cert.KernelIdeal.Gen
open Idealize.ShloMosaic.StableHlo (after_cons after_nil)

variable (m : (ℓ : Loc nD τ sig) → Buf (Elt Ideal) ℓ) (ρ : Dev nD → PrngReg) (c : Dev nD)

/-! ## Arrays written once at the start, or never: their contents up to the second region's exit -/

set_option maxHeartbeats 4000000 in
theorem W3_v1 : W3 m ρ c (no_index (Proc.devRef .tc main_v1)) = KHost.row0 (m ((c : Thread nD τ).loc main_arg1)) := by
  dsimp only [W3, W2, W1]
  after_results_simp <;> rfl
theorem W4_v1 : W4 m ρ c (no_index (Proc.devRef .tc main_v1)) = KHost.row0 (m ((c : Thread nD τ).loc main_arg1)) :=
  (W4_of_ne m ρ c main_v1 (by decide)).trans (W3_v1 m ρ c)
set_option maxHeartbeats 4000000 in
theorem W5_v1 : W5 m ρ c (no_index (Proc.devRef .tc main_v1)) = KHost.row0 (m ((c : Thread nD τ).loc main_arg1)) :=
  (show W5 m ρ c (Proc.devRef .tc main_v1) = W4 m ρ c (Proc.devRef .tc main_v1) by
    dsimp only [W5]
    after_results_simp).trans (W4_v1 m ρ c)
theorem W6_v1 : W6 m ρ c (no_index (Proc.devRef .tc main_v1)) = KHost.row0 (m ((c : Thread nD τ).loc main_arg1)) :=
  (W6_of_ne m ρ c main_v1 (by decide)).trans (W5_v1 m ρ c)

set_option maxHeartbeats 4000000 in
theorem W3_v3 : W3 m ρ c (no_index (Proc.devRef .tc main_v3)) = KHost.row1 (m ((c : Thread nD τ).loc main_arg1)) := by
  dsimp only [W3, W2, W1]
  after_results_simp <;> rfl
theorem W4_v3 : W4 m ρ c (no_index (Proc.devRef .tc main_v3)) = KHost.row1 (m ((c : Thread nD τ).loc main_arg1)) :=
  (W4_of_ne m ρ c main_v3 (by decide)).trans (W3_v3 m ρ c)
set_option maxHeartbeats 4000000 in
theorem W5_v3 : W5 m ρ c (no_index (Proc.devRef .tc main_v3)) = KHost.row1 (m ((c : Thread nD τ).loc main_arg1)) :=
  (show W5 m ρ c (Proc.devRef .tc main_v3) = W4 m ρ c (Proc.devRef .tc main_v3) by
    dsimp only [W5]
    after_results_simp).trans (W4_v3 m ρ c)
theorem W6_v3 : W6 m ρ c (no_index (Proc.devRef .tc main_v3)) = KHost.row1 (m ((c : Thread nD τ).loc main_arg1)) :=
  (W6_of_ne m ρ c main_v3 (by decide)).trans (W5_v3 m ρ c)

set_option maxHeartbeats 4000000 in
theorem W3_arg2 : W3 m ρ c (no_index (Proc.devRef .tc main_arg2)) = m ((c : Thread nD τ).loc main_arg2) := by
  dsimp only [W3, W2, W1]
  after_results_simp <;> rfl
theorem W4_arg2 : W4 m ρ c (no_index (Proc.devRef .tc main_arg2)) = m ((c : Thread nD τ).loc main_arg2) :=
  (W4_of_ne m ρ c main_arg2 (by decide)).trans (W3_arg2 m ρ c)
set_option maxHeartbeats 4000000 in
theorem W5_arg2 : W5 m ρ c (no_index (Proc.devRef .tc main_arg2)) = m ((c : Thread nD τ).loc main_arg2) :=
  (show W5 m ρ c (Proc.devRef .tc main_arg2) = W4 m ρ c (Proc.devRef .tc main_arg2) by
    dsimp only [W5]
    after_results_simp).trans (W4_arg2 m ρ c)
theorem W6_arg2 : W6 m ρ c (no_index (Proc.devRef .tc main_arg2)) = m ((c : Thread nD τ).loc main_arg2) :=
  (W6_of_ne m ρ c main_arg2 (by decide)).trans (W5_arg2 m ρ c)

set_option maxHeartbeats 4000000 in
theorem W3_arg11 : W3 m ρ c (no_index (Proc.devRef .tc main_arg11)) = m ((c : Thread nD τ).loc main_arg11) := by
  dsimp only [W3, W2, W1]
  after_results_simp <;> rfl
theorem W4_arg11 : W4 m ρ c (no_index (Proc.devRef .tc main_arg11)) = m ((c : Thread nD τ).loc main_arg11) :=
  (W4_of_ne m ρ c main_arg11 (by decide)).trans (W3_arg11 m ρ c)
set_option maxHeartbeats 4000000 in
theorem W5_arg11 : W5 m ρ c (no_index (Proc.devRef .tc main_arg11)) = m ((c : Thread nD τ).loc main_arg11) :=
  (show W5 m ρ c (Proc.devRef .tc main_arg11) = W4 m ρ c (Proc.devRef .tc main_arg11) by
    dsimp only [W5]
    after_results_simp).trans (W4_arg11 m ρ c)
theorem W6_arg11 : W6 m ρ c (no_index (Proc.devRef .tc main_arg11)) = m ((c : Thread nD τ).loc main_arg11) :=
  (W6_of_ne m ρ c main_arg11 (by decide)).trans (W5_arg11 m ρ c)

set_option maxHeartbeats 4000000 in
theorem W3_arg12 : W3 m ρ c (no_index (Proc.devRef .tc main_arg12)) = m ((c : Thread nD τ).loc main_arg12) := by
  dsimp only [W3, W2, W1]
  after_results_simp <;> rfl
theorem W4_arg12 : W4 m ρ c (no_index (Proc.devRef .tc main_arg12)) = m ((c : Thread nD τ).loc main_arg12) :=
  (W4_of_ne m ρ c main_arg12 (by decide)).trans (W3_arg12 m ρ c)
set_option maxHeartbeats 4000000 in
theorem W5_arg12 : W5 m ρ c (no_index (Proc.devRef .tc main_arg12)) = m ((c : Thread nD τ).loc main_arg12) :=
  (show W5 m ρ c (Proc.devRef .tc main_arg12) = W4 m ρ c (Proc.devRef .tc main_arg12) by
    dsimp only [W5]
    after_results_simp).trans (W4_arg12 m ρ c)
theorem W6_arg12 : W6 m ρ c (no_index (Proc.devRef .tc main_arg12)) = m ((c : Thread nD τ).loc main_arg12) :=
  (W6_of_ne m ρ c main_arg12 (by decide)).trans (W5_arg12 m ρ c)

set_option maxHeartbeats 4000000 in
theorem W3_arg13 : W3 m ρ c (no_index (Proc.devRef .tc main_arg13)) = m ((c : Thread nD τ).loc main_arg13) := by
  dsimp only [W3, W2, W1]
  after_results_simp <;> rfl
theorem W4_arg13 : W4 m ρ c (no_index (Proc.devRef .tc main_arg13)) = m ((c : Thread nD τ).loc main_arg13) :=
  (W4_of_ne m ρ c main_arg13 (by decide)).trans (W3_arg13 m ρ c)
set_option maxHeartbeats 4000000 in
theorem W5_arg13 : W5 m ρ c (no_index (Proc.devRef .tc main_arg13)) = m ((c : Thread nD τ).loc main_arg13) :=
  (show W5 m ρ c (Proc.devRef .tc main_arg13) = W4 m ρ c (Proc.devRef .tc main_arg13) by
    dsimp only [W5]
    after_results_simp).trans (W4_arg13 m ρ c)
theorem W6_arg13 : W6 m ρ c (no_index (Proc.devRef .tc main_arg13)) = m ((c : Thread nD τ).loc main_arg13) :=
  (W6_of_ne m ρ c main_arg13 (by decide)).trans (W5_arg13 m ρ c)

set_option maxHeartbeats 4000000 in
theorem W3_arg14 : W3 m ρ c (no_index (Proc.devRef .tc main_arg14)) = m ((c : Thread nD τ).loc main_arg14) := by
  dsimp only [W3, W2, W1]
  after_results_simp <;> rfl
theorem W4_arg14 : W4 m ρ c (no_index (Proc.devRef .tc main_arg14)) = m ((c : Thread nD τ).loc main_arg14) :=
  (W4_of_ne m ρ c main_arg14 (by decide)).trans (W3_arg14 m ρ c)
set_option maxHeartbeats 4000000 in
theorem W5_arg14 : W5 m ρ c (no_index (Proc.devRef .tc main_arg14)) = m ((c : Thread nD τ).loc main_arg14) :=
  (show W5 m ρ c (Proc.devRef .tc main_arg14) = W4 m ρ c (Proc.devRef .tc main_arg14) by
    dsimp only [W5]
    after_results_simp).trans (W4_arg14 m ρ c)
theorem W6_arg14 : W6 m ρ c (no_index (Proc.devRef .tc main_arg14)) = m ((c : Thread nD τ).loc main_arg14) :=
  (W6_of_ne m ρ c main_arg14 (by decide)).trans (W5_arg14 m ρ c)

set_option maxHeartbeats 4000000 in
theorem W3_arg15 : W3 m ρ c (no_index (Proc.devRef .tc main_arg15)) = m ((c : Thread nD τ).loc main_arg15) := by
  dsimp only [W3, W2, W1]
  after_results_simp <;> rfl
theorem W4_arg15 : W4 m ρ c (no_index (Proc.devRef .tc main_arg15)) = m ((c : Thread nD τ).loc main_arg15) :=
  (W4_of_ne m ρ c main_arg15 (by decide)).trans (W3_arg15 m ρ c)
set_option maxHeartbeats 4000000 in
theorem W5_arg15 : W5 m ρ c (no_index (Proc.devRef .tc main_arg15)) = m ((c : Thread nD τ).loc main_arg15) :=
  (show W5 m ρ c (Proc.devRef .tc main_arg15) = W4 m ρ c (Proc.devRef .tc main_arg15) by
    dsimp only [W5]
    after_results_simp).trans (W4_arg15 m ρ c)
theorem W6_arg15 : W6 m ρ c (no_index (Proc.devRef .tc main_arg15)) = m ((c : Thread nD τ).loc main_arg15) :=
  (W6_of_ne m ρ c main_arg15 (by decide)).trans (W5_arg15 m ρ c)

set_option maxHeartbeats 4000000 in
theorem W3_arg16 : W3 m ρ c (no_index (Proc.devRef .tc main_arg16)) = m ((c : Thread nD τ).loc main_arg16) := by
  dsimp only [W3, W2, W1]
  after_results_simp <;> rfl
theorem W4_arg16 : W4 m ρ c (no_index (Proc.devRef .tc main_arg16)) = m ((c : Thread nD τ).loc main_arg16) :=
  (W4_of_ne m ρ c main_arg16 (by decide)).trans (W3_arg16 m ρ c)
set_option maxHeartbeats 4000000 in
theorem W5_arg16 : W5 m ρ c (no_index (Proc.devRef .tc main_arg16)) = m ((c : Thread nD τ).loc main_arg16) :=
  (show W5 m ρ c (Proc.devRef .tc main_arg16) = W4 m ρ c (Proc.devRef .tc main_arg16) by
    dsimp only [W5]
    after_results_simp).trans (W4_arg16 m ρ c)
theorem W6_arg16 : W6 m ρ c (no_index (Proc.devRef .tc main_arg16)) = m ((c : Thread nD τ).loc main_arg16) :=
  (W6_of_ne m ρ c main_arg16 (by decide)).trans (W5_arg16 m ρ c)

set_option maxHeartbeats 4000000 in
theorem W3_arg17 : W3 m ρ c (no_index (Proc.devRef .tc main_arg17)) = m ((c : Thread nD τ).loc main_arg17) := by
  dsimp only [W3, W2, W1]
  after_results_simp <;> rfl
theorem W4_arg17 : W4 m ρ c (no_index (Proc.devRef .tc main_arg17)) = m ((c : Thread nD τ).loc main_arg17) :=
  (W4_of_ne m ρ c main_arg17 (by decide)).trans (W3_arg17 m ρ c)
set_option maxHeartbeats 4000000 in
theorem W5_arg17 : W5 m ρ c (no_index (Proc.devRef .tc main_arg17)) = m ((c : Thread nD τ).loc main_arg17) :=
  (show W5 m ρ c (Proc.devRef .tc main_arg17) = W4 m ρ c (Proc.devRef .tc main_arg17) by
    dsimp only [W5]
    after_results_simp).trans (W4_arg17 m ρ c)
theorem W6_arg17 : W6 m ρ c (no_index (Proc.devRef .tc main_arg17)) = m ((c : Thread nD τ).loc main_arg17) :=
  (W6_of_ne m ρ c main_arg17 (by decide)).trans (W5_arg17 m ρ c)

set_option maxHeartbeats 4000000 in
theorem W3_arg18 : W3 m ρ c (no_index (Proc.devRef .tc main_arg18)) = m ((c : Thread nD τ).loc main_arg18) := by
  dsimp only [W3, W2, W1]
  after_results_simp <;> rfl
theorem W4_arg18 : W4 m ρ c (no_index (Proc.devRef .tc main_arg18)) = m ((c : Thread nD τ).loc main_arg18) :=
  (W4_of_ne m ρ c main_arg18 (by decide)).trans (W3_arg18 m ρ c)
set_option maxHeartbeats 4000000 in
theorem W5_arg18 : W5 m ρ c (no_index (Proc.devRef .tc main_arg18)) = m ((c : Thread nD τ).loc main_arg18) :=
  (show W5 m ρ c (Proc.devRef .tc main_arg18) = W4 m ρ c (Proc.devRef .tc main_arg18) by
    dsimp only [W5]
    after_results_simp).trans (W4_arg18 m ρ c)
theorem W6_arg18 : W6 m ρ c (no_index (Proc.devRef .tc main_arg18)) = m ((c : Thread nD τ).loc main_arg18) :=
  (W6_of_ne m ρ c main_arg18 (by decide)).trans (W5_arg18 m ρ c)

set_option maxHeartbeats 4000000 in
theorem W3_arg19 : W3 m ρ c (no_index (Proc.devRef .tc main_arg19)) = m ((c : Thread nD τ).loc main_arg19) := by
  dsimp only [W3, W2, W1]
  after_results_simp <;> rfl
theorem W4_arg19 : W4 m ρ c (no_index (Proc.devRef .tc main_arg19)) = m ((c : Thread nD τ).loc main_arg19) :=
  (W4_of_ne m ρ c main_arg19 (by decide)).trans (W3_arg19 m ρ c)
set_option maxHeartbeats 4000000 in
theorem W5_arg19 : W5 m ρ c (no_index (Proc.devRef .tc main_arg19)) = m ((c : Thread nD τ).loc main_arg19) :=
  (show W5 m ρ c (Proc.devRef .tc main_arg19) = W4 m ρ c (Proc.devRef .tc main_arg19) by
    dsimp only [W5]
    after_results_simp).trans (W4_arg19 m ρ c)
theorem W6_arg19 : W6 m ρ c (no_index (Proc.devRef .tc main_arg19)) = m ((c : Thread nD τ).loc main_arg19) :=
  (W6_of_ne m ρ c main_arg19 (by decide)).trans (W5_arg19 m ρ c)

set_option maxHeartbeats 4000000 in
theorem W3_arg20 : W3 m ρ c (no_index (Proc.devRef .tc main_arg20)) = m ((c : Thread nD τ).loc main_arg20) := by
  dsimp only [W3, W2, W1]
  after_results_simp <;> rfl
theorem W4_arg20 : W4 m ρ c (no_index (Proc.devRef .tc main_arg20)) = m ((c : Thread nD τ).loc main_arg20) :=
  (W4_of_ne m ρ c main_arg20 (by decide)).trans (W3_arg20 m ρ c)
set_option maxHeartbeats 4000000 in
theorem W5_arg20 : W5 m ρ c (no_index (Proc.devRef .tc main_arg20)) = m ((c : Thread nD τ).loc main_arg20) :=
  (show W5 m ρ c (Proc.devRef .tc main_arg20) = W4 m ρ c (Proc.devRef .tc main_arg20) by
    dsimp only [W5]
    after_results_simp).trans (W4_arg20 m ρ c)
theorem W6_arg20 : W6 m ρ c (no_index (Proc.devRef .tc main_arg20)) = m ((c : Thread nD τ).loc main_arg20) :=
  (W6_of_ne m ρ c main_arg20 (by decide)).trans (W5_arg20 m ρ c)

set_option maxHeartbeats 4000000 in
theorem W3_arg21 : W3 m ρ c (no_index (Proc.devRef .tc main_arg21)) = m ((c : Thread nD τ).loc main_arg21) := by
  dsimp only [W3, W2, W1]
  after_results_simp <;> rfl
theorem W4_arg21 : W4 m ρ c (no_index (Proc.devRef .tc main_arg21)) = m ((c : Thread nD τ).loc main_arg21) :=
  (W4_of_ne m ρ c main_arg21 (by decide)).trans (W3_arg21 m ρ c)
set_option maxHeartbeats 4000000 in
theorem W5_arg21 : W5 m ρ c (no_index (Proc.devRef .tc main_arg21)) = m ((c : Thread nD τ).loc main_arg21) :=
  (show W5 m ρ c (Proc.devRef .tc main_arg21) = W4 m ρ c (Proc.devRef .tc main_arg21) by
    dsimp only [W5]
    after_results_simp).trans (W4_arg21 m ρ c)
theorem W6_arg21 : W6 m ρ c (no_index (Proc.devRef .tc main_arg21)) = m ((c : Thread nD τ).loc main_arg21) :=
  (W6_of_ne m ρ c main_arg21 (by decide)).trans (W5_arg21 m ρ c)

set_option maxHeartbeats 4000000 in
theorem W3_arg22 : W3 m ρ c (no_index (Proc.devRef .tc main_arg22)) = m ((c : Thread nD τ).loc main_arg22) := by
  dsimp only [W3, W2, W1]
  after_results_simp <;> rfl
theorem W4_arg22 : W4 m ρ c (no_index (Proc.devRef .tc main_arg22)) = m ((c : Thread nD τ).loc main_arg22) :=
  (W4_of_ne m ρ c main_arg22 (by decide)).trans (W3_arg22 m ρ c)
set_option maxHeartbeats 4000000 in
theorem W5_arg22 : W5 m ρ c (no_index (Proc.devRef .tc main_arg22)) = m ((c : Thread nD τ).loc main_arg22) :=
  (show W5 m ρ c (Proc.devRef .tc main_arg22) = W4 m ρ c (Proc.devRef .tc main_arg22) by
    dsimp only [W5]
    after_results_simp).trans (W4_arg22 m ρ c)
theorem W6_arg22 : W6 m ρ c (no_index (Proc.devRef .tc main_arg22)) = m ((c : Thread nD τ).loc main_arg22) :=
  (W6_of_ne m ρ c main_arg22 (by decide)).trans (W5_arg22 m ρ c)

end Cert.KernelIdeal.KVal.B

end
-- ==== Proof.Reg2.lean ====
/-
  What the second perceptron-with-statistics region writes, as whole arrays.

  The same computation as the first such region, on inputs of 128 columns: at tile t it reads rows
  4000 t … 4000 t + 3999 of the normalised features x and of the aggregated messages agg and the whole of W1, b1,
  W2, b2, and writes the tile's rows of h = relu((x + agg) · W1 + b1) · W2 + b2 and slab t of the tile sums and
  of the tile sums of squares of h. Each tile's block is that block of one whole-array function of the arrays
  the region finds, and the 25 blocks tile the arrays: final2_6, final2_7, final2_8.
-/
import proofs.«116086_j16767552323790_2_alg».proof.Proof.Gen.KernelIdeal.Frame
import proofs.«116086_j16767552323790_2_alg».proof.Proof.KSpec
import proofs.«116086_j16767552323790_2_alg».proof.Proof.RegTile
import proofs.«116086_j16767552323790_2_alg».proof.Proof.Reg0
import Idealize.ShloMosaic.Lib.Pipeline.Value

set_option maxRecDepth 16384

noncomputable section

namespace Cert.KernelIdeal.RegVal

open Idealize.ShloMosaic Idealize.ShloMosaic.TcCoe Idealize.ShloMosaic.ValueIdx
open Idealize.ShloMosaic.Pipeline (Dat)
open Cert.KernelIdeal Cert.KernelIdeal.Gen
open scoped BigOperators

/-! ## The body's three stored values at an index, over the blocks it loads -/

/-- The stored block of h at (p, q): the two dense layers of the loaded blocks. -/
theorem pay2_h (x0 x1 : Vec Ideal S4000x128 .f32) (x2 : Vec Ideal S128x128 .f32) (x3 : Vec Ideal S1x128 .f32)
    (x4 : Vec Ideal S128x128 .f32) (x5 : Vec Ideal S1x128 .f32) (p : Fin 4000) (q : Fin 128) :
    k2_pay2 (F := Ideal) x0 x1 x2 x3 x4 x5 (ix2 p q)
      = (∑ k : Fin 128, max ((∑ l : Fin 128, (x0 (ix2 p l) + x1 (ix2 p l)) * x2 (ix2 l k)) + x3 (ix2 (0 : Fin 1) k)) (0 : EReal)
            * x4 (ix2 k q)) + x5 (ix2 (0 : Fin 1) q) := by
  unfold k2_pay2
  refine (Cert.RegTile.mlpTile_apply dot_S4000x128_S128x128_S4000x128_1_0_0_1_n_n dot_S4000x128_S128x128_S4000x128_1_0_0_1_n_n
    rfl rfl dot128_l0 dot128_l1 dot128_r0 dot128_r1 rfl rfl dot128_l0 dot128_l1 dot128_r0 dot128_r1
    bitsLt_bf16_f32 shapeCasts_S1x128_S1x128 broadcasts_S1x128_S4000x128
    (addf (shapeCast S4000x128 x0 shapeCasts_S4000x128_S4000x128) (shapeCast S4000x128 x1 shapeCasts_S4000x128_S4000x128))
    x2 x3 x4 x5 p q).trans ?_
  rw [shapeCast_self, shapeCast_self]
  rfl

/-- The stored slab of tile sums at (u, s, q): the sum down the rows of the stored block of h, at column q. -/
theorem pay2_sum (x0 x1 : Vec Ideal S4000x128 .f32) (x2 : Vec Ideal S128x128 .f32) (x3 : Vec Ideal S1x128 .f32)
    (x4 : Vec Ideal S128x128 .f32) (x5 : Vec Ideal S1x128 .f32) (u : Fin 1) (s : Fin 8) (q : Fin 128) :
    k2_pay3 (F := Ideal) x0 x1 x2 x3 x4 x5 (ix3 u s q) = ∑ y : Fin 4000, k2_pay2 (F := Ideal) x0 x1 x2 x3 x4 x5 (ix2 y q) := by
  unfold k2_pay3
  refine (Cert.RegTile.statRows_apply _ _ _ _ _ u s q).trans ?_
  exact Cert.RegTile.colSum_f32_apply _ _ _ q

/-- The stored slab of tile sums of squares at (u, s, q). -/
theorem pay2_sumsq (x0 x1 : Vec Ideal S4000x128 .f32) (x2 : Vec Ideal S128x128 .f32) (x3 : Vec Ideal S1x128 .f32)
    (x4 : Vec Ideal S128x128 .f32) (x5 : Vec Ideal S1x128 .f32) (u : Fin 1) (s : Fin 8) (q : Fin 128) :
    k2_pay1 (F := Ideal) (k2_pay4 (F := Ideal) x0 x1 x2 x3 x4 x5) (ix3 u s q)
      = ∑ y : Fin 4000, k2_pay2 (F := Ideal) x0 x1 x2 x3 x4 x5 (ix2 y q) * k2_pay2 (F := Ideal) x0 x1 x2 x3 x4 x5 (ix2 y q) := by
  unfold k2_pay1 k2_pay4
  refine (Cert.RegTile.statRows_apply _ _ _ _ _ u s q).trans ?_
  refine (Cert.RegTile.colSum_f32_apply _ _ _ q).trans ?_
  exact Finset.sum_congr rfl fun y _ => rfl

/-! ## The blocks the region loads, as parts of the arrays it finds -/

variable (V : (c : Dev nD) → (b : Ref sig .tc) → Buf (Elt Ideal) ((c : Thread nD τ).loc b))

/-- A grid point as a tile number. -/
def tile2 (t : Fin cfg2.N) : Fin 25 := ⟨t.val, by have h := t.isLt; have hN : cfg2.N = 25 := N_2; omega⟩

theorem tile2_val (t : Fin cfg2.N) : (tile2 t).val = t.val := rfl

/-- The printed block index maps, decided once over the grid: the row-blocked windows sit at block (t, 0) (the
    statistics at (t, 0, 0)), the small operands at block (0, 0). -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 3) = t.val ∧ win2_7.index t (1 : Fin 3) = 0 ∧ win2_7.index t (2 : Fin 3) = 0)
    ∧ (win2_8.index t (0 : Fin 3) = t.val ∧ win2_8.index t (1 : Fin 3) = 0 ∧ win2_8.index t (2 : Fin 3) = 0) :=
  (by decide +kernel : ∀ t : Fin grid2.N, _)

/-- Block t of x is rows 4000 t … 4000 t + 3999 of x. -/
theorem rows2_0 (c : Dev nD) (t : Fin cfg2.N) (y : Fin 4000) (l : Fin 128) :
    (iblk2 V c 0 t : Vec Ideal S4000x128 .f32) (ix2 y l)
      = (V c (Pipeline.arrRef spec2 0) : FVec Ideal ⟨2, ![100000, 128]⟩ .f32) (ix2 (KSpec.tileRow (tile2 t) y) l) := by
  obtain ⟨⟨e0, e1⟩, -⟩ := idx2 t
  unfold iblk2
  show V c (Pipeline.arrRef spec2 0) (((cfg2.win 0).blk t).view.emb (ix2 y l)) = _
  refine congrArg _ (funext fun a => Fin.ext ?_)
  match a with
  | ⟨0, _⟩ => show win2_0.index t (0 : Fin 2) * 4000 + 1 * y.val = 4000 * t.val + y.val; rw [e0]; omega
  | ⟨1, _⟩ => show win2_0.index t (1 : Fin 2) * 128 + 1 * l.val = l.val; rw [e1]; omega

/-- Block t of agg is rows 4000 t … 4000 t + 3999 of agg. -/
theorem rows2_1 (c : Dev nD) (t : Fin cfg2.N) (y : Fin 4000) (l : Fin 128) :
    (iblk2 V c 1 t : Vec Ideal S4000x128 .f32) (ix2 y l)
      = (V c (Pipeline.arrRef spec2 1) : FVec Ideal ⟨2, ![100000, 128]⟩ .f32) (ix2 (KSpec.tileRow (tile2 t) y) l) := by
  obtain ⟨-, ⟨e0, e1⟩, -⟩ := idx2 t
  unfold iblk2
  show V c (Pipeline.arrRef spec2 1) (((cfg2.win 1).blk t).view.emb (ix2 y l)) = _
  refine congrArg _ (funext fun a => Fin.ext ?_)
  match a with
  | ⟨0, _⟩ => show win2_1.index t (0 : Fin 2) * 4000 + 1 * y.val = 4000 * t.val + y.val; rw [e0]; omega
  | ⟨1, _⟩ => show win2_1.index t (1 : Fin 2) * 128 + 1 * l.val = l.val; rw [e1]; omega

/-- The one block of W1 is W1. -/
theorem whole2_2 (c : Dev nD) (t : Fin cfg2.N) :
    (iblk2 V c 2 t : Vec Ideal S128x128 .f32) = (V c (Pipeline.arrRef spec2 2) : FVec Ideal ⟨2, ![128, 128]⟩ .f32) := by
  obtain ⟨-, -, ⟨e0, e1⟩, -⟩ := idx2 t
  funext j
  unfold iblk2
  show V c (Pipeline.arrRef spec2 2) (((cfg2.win 2).blk t).view.emb j) = V c (Pipeline.arrRef spec2 2) j
  refine congrArg _ (funext fun a => Fin.ext ?_)
  match a with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

/-- The one block of b1 is b1. -/
theorem whole2_3 (c : Dev nD) (t : Fin cfg2.N) :
    (iblk2 V c 3 t : Vec Ideal S1x128 .f32) = (V c (Pipeline.arrRef spec2 3) : FVec Ideal ⟨2, ![1, 128]⟩ .f32) := by
  obtain ⟨-, -, -, ⟨e0, e1⟩, -⟩ := idx2 t
  funext j
  unfold iblk2
  show V c (Pipeline.arrRef spec2 3) (((cfg2.win 3).blk t).view.emb j) = V c (Pipeline.arrRef spec2 3) j
  refine congrArg _ (funext fun a => Fin.ext ?_)
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

/-- The one block of W2 is W2. -/
theorem whole2_4 (c : Dev nD) (t : Fin cfg2.N) :
    (iblk2 V c 4 t : Vec Ideal S128x128 .f32) = (V c (Pipeline.arrRef spec2 4) : FVec Ideal ⟨2, ![128, 128]⟩ .f32) := by
  obtain ⟨-, -, -, -, ⟨e0, e1⟩, -⟩ := idx2 t
  funext j
  unfold iblk2
  show V c (Pipeline.arrRef spec2 4) (((cfg2.win 4).blk t).view.emb j) = V c (Pipeline.arrRef spec2 4) j
  refine congrArg _ (funext fun a => Fin.ext ?_)
  match a with
  | ⟨0, _⟩ => show win2_4.index t (0 : Fin 2) * 128 + 1 * (j 0).val = (j 0).val; rw [e0]; omega
  | ⟨1, _⟩ => show win2_4.index t (1 : Fin 2) * 128 + 1 * (j 1).val = (j 1).val; rw [e1]; omega

/-- The one block of b2 is b2. -/
theorem whole2_5 (c : Dev nD) (t : Fin cfg2.N) :
    (iblk2 V c 5 t : Vec Ideal S1x128 .f32) = (V c (Pipeline.arrRef spec2 5) : FVec Ideal ⟨2, ![1, 128]⟩ .f32) := by
  obtain ⟨-, -, -, -, -, ⟨e0, e1⟩, -⟩ := idx2 t
  funext j
  unfold iblk2
  show V c (Pipeline.arrRef spec2 5) (((cfg2.win 5).blk t).view.emb j) = V c (Pipeline.arrRef spec2 5) j
  refine congrArg _ (funext fun a => Fin.ext ?_)
  match a with
  | ⟨0, _⟩ => show win2_5.index t (0 : Fin 2) * 1 + 1 * (j 0).val = (j 0).val; rw [e0]; omega
  | ⟨1, _⟩ => show win2_5.index t (1 : Fin 2) * 128 + 1 * (j 1).val = (j 1).val; rw [e1]; omega

/-- The whole-array function the region computes: the perceptron of the arrays it finds. -/
abbrev H2 (c : Dev nD) : FVec Ideal ⟨2, ![100000, 128]⟩ .f32 :=
  KSpec.mlp (d := 128) (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))

/-- The body's block of h at tile t is the perceptron of the whole arrays on the tile's rows. -/
theorem tile2_h (c : Dev nD) (t : Fin cfg2.N) (y : Fin 4000) (q : Fin 128) :
    k2_pay2 (F := Ideal) (iblk2 V c 0 t) (iblk2 V c 1 t) (iblk2 V c 2 t) (iblk2 V c 3 t) (iblk2 V c 4 t) (iblk2 V c 5 t) (ix2 y q)
      = H2 V c (ix2 (KSpec.tileRow (tile2 t) y) q) :=
  (pay2_h (iblk2 V c 0 t) (iblk2 V c 1 t) (iblk2 V c 2 t) (iblk2 V c 3 t) (iblk2 V c 4 t) (iblk2 V c 5 t) y q).trans
    (Cert.RegTile.mlp_of_blocks (d := 128) (V c (Pipeline.arrRef spec2 0)) (V c (Pipeline.arrRef spec2 1)) (V c (Pipeline.arrRef spec2 2))
      (V c (Pipeline.arrRef spec2 3)) (V c (Pipeline.arrRef spec2 4)) (V c (Pipeline.arrRef spec2 5))
      (iblk2 V c 0 t) (iblk2 V c 1 t) (iblk2 V c 2 t) (iblk2 V c 3 t) (iblk2 V c 4 t) (iblk2 V c 5 t) (tile2 t)
      (rows2_0 V c t) (rows2_1 V c t) (whole2_2 V c t) (whole2_3 V c t) (whole2_4 V c t) (whole2_5 V c t) y q)

/-! ## Window 6: the array h -/

/-- An index of h is in tile t's block iff each coordinate is in the block's range on its axis. -/
theorem mem_blk2_6 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v73_0).slice (win2_6.rect t)).set ↔ _
  rw [View.set_slice_whole, Rect.mem_set_unit]
  exact Iff.rfl

/-- What tile t writes back to h is block t of the perceptron of the whole arrays. -/
theorem flushed2_6 (c : Dev nD) (t : Fin cfg2.N) :
    (dat2 (F := Ideal) V c).flushed 6 t = ((cfg2.win 6).blk t).view.read (Elt Ideal) (H2 V c) := by
  show (cfg2.win 6).cut (grid2.coords t) ((dat2 (F := Ideal) V c).after 6 t) = _
  rw [after2_6]
  unfold out2_6
  rw [View.canon_unit_zero Cert.RegTile.zero2]
  simp only [View.ld_unit_zero (S := S4000x128) Cert.RegTile.zero2, View.ld_unit_zero (S := S128x128) Cert.RegTile.zero2,
    View.ld_unit_zero (S := S1x128) Cert.RegTile.zero2]
  obtain ⟨-, -, -, -, -, -, ⟨e0, e1⟩, -⟩ := idx2 t
  funext j
  obtain ⟨y, q, rfl⟩ : ∃ (y : Fin 4000) (q : Fin 128), j = ix2 y q := ⟨j 0, j 1, eq_ix2 j⟩
  show k2_pay2 (F := Ideal) (iblk2 V c 0 t) (iblk2 V c 1 t) (iblk2 V c 2 t) (iblk2 V c 3 t) (iblk2 V c 4 t) (iblk2 V c 5 t) (ix2 y q)
    = H2 V c (((cfg2.win 6).blk t).view.emb (ix2 y q))
  refine (tile2_h V c t y q).trans (congrArg (H2 V c) (funext fun a => Fin.ext ?_))
  match a with
  | ⟨0, _⟩ => show 4000 * t.val + y.val = win2_6.index t (0 : Fin 2) * 4000 + 1 * y.val; rw [e0]; omega
  | ⟨1, _⟩ => show q.val = win2_6.index t (1 : Fin 2) * 128 + 1 * q.val; rw [e1]; omega

/-- Every row of h is in the block of the tile that holds it. -/
theorem cover2_6 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, -, ⟨e0, e1⟩, -⟩ := idx2 t
  refine ⟨t, flush2_6 t, ?_⟩
  rw [mem_blk2_6]
  intro a
  match a with
  | ⟨0, _⟩ => show win2_6.index t (0 : Fin 2) * 4000 ≤ (i 0).val ∧ (i 0).val < win2_6.index t (0 : Fin 2) * 4000 + 4000; rw [e0, ht]; omega
  | ⟨1, _⟩ => show win2_6.index t (1 : Fin 2) * 128 ≤ (i 1).val ∧ (i 1).val < win2_6.index t (1 : Fin 2) * 128 + 128; rw [e1]; omega

/-- After the region the array h holds the perceptron of the arrays the region found. -/
theorem final2_6 (c : Dev nD) :
    (dat2 (F := Ideal) V c).arrAt 6 cfg2.N
      = KSpec.mlp (d := 128) (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 (F := Ideal) V c).arrAt_eq_of_cover 6 (H2 V c) (fun t _ => flushed2_6 V c t) cover2_6

/-! ## Windows 7 and 8: the tile sums and the tile sums of squares -/

/-- An index of a statistics array is in tile t's slab iff each coordinate is in the slab's range on its axis. -/
theorem mem_blk2_7 (t : Fin cfg2.N) (i : S25x8x128.Idx) :
    i ∈ ((cfg2.win 7).blk t).view.set ↔ ∀ a : Fin 3, win2_7.index t a * S1x8x128.size a ≤ (i a).val ∧ (i a).val < win2_7.index t a * S1x8x128.size a + S1x8x128.size a := by
  show i ∈ ((View.whole main_v73_1).slice (win2_7.rect t)).set ↔ _
  rw [View.set_slice_whole, Rect.mem_set_unit]
  exact Iff.rfl

theorem mem_blk2_8 (t : Fin cfg2.N) (i : S25x8x128.Idx) :
    i ∈ ((cfg2.win 8).blk t).view.set ↔ ∀ a : Fin 3, win2_8.index t a * S1x8x128.size a ≤ (i a).val ∧ (i a).val < win2_8.index t a * S1x8x128.size a + S1x8x128.size a := by
  show i ∈ ((View.whole main_v73_2).slice (win2_8.rect t)).set ↔ _
  rw [View.set_slice_whole, Rect.mem_set_unit]
  exact Iff.rfl

/-- What tile t writes back to the tile sums is slab t of the tile sums of the whole-array perceptron. -/
theorem flushed2_7 (c : Dev nD) (t : Fin cfg2.N) :
    (dat2 (F := Ideal) V c).flushed 7 t = ((cfg2.win 7).blk t).view.read (Elt Ideal) (KSpec.tileSum (H2 V c)) := by
  show (cfg2.win 7).cut (grid2.coords t) ((dat2 (F := Ideal) V c).after 7 t) = _
  rw [after2_7]
  unfold out2_7
  rw [View.canon_unit_zero Cert.RegTile.zero3]
  simp only [View.ld_unit_zero (S := S4000x128) Cert.RegTile.zero2, View.ld_unit_zero (S := S128x128) Cert.RegTile.zero2,
    View.ld_unit_zero (S := S1x128) Cert.RegTile.zero2]
  obtain ⟨-, -, -, -, -, -, -, ⟨e0, e1, e2⟩, -⟩ := idx2 t
  funext j
  obtain ⟨u, s, q, rfl⟩ : ∃ (u : Fin 1) (s : Fin 8) (q : Fin 128), j = ix3 u s q := ⟨j 0, j 1, j 2, eq_ix3 j⟩
  show k2_pay3 (F := Ideal) (iblk2 V c 0 t) (iblk2 V c 1 t) (iblk2 V c 2 t) (iblk2 V c 3 t) (iblk2 V c 4 t) (iblk2 V c 5 t) (ix3 u s q)
    = KSpec.tileSum (H2 V c) (((cfg2.win 7).blk t).view.emb (ix3 u s q))
  refine (pay2_sum (iblk2 V c 0 t) (iblk2 V c 1 t) (iblk2 V c 2 t) (iblk2 V c 3 t) (iblk2 V c 4 t) (iblk2 V c 5 t) u s q).trans ?_
  refine (Finset.sum_congr rfl fun y _ => tile2_h V c t y q).trans ?_
  refine (Cert.RegTile.tileSum_at (H2 V c) _ (tile2 t) q ?_ ?_).symm
  · show win2_7.index t (0 : Fin 3) * 1 + 1 * u.val = t.val; rw [e0]; omega
  · show win2_7.index t (2 : Fin 3) * 128 + 1 * q.val = q.val; rw [e2]; omega

/-- What tile t writes back to the tile sums of squares is slab t of those of the whole-array perceptron. -/
theorem flushed2_8 (c : Dev nD) (t : Fin cfg2.N) :
    (dat2 (F := Ideal) V c).flushed 8 t = ((cfg2.win 8).blk t).view.read (Elt Ideal) (KSpec.tileSumSq (H2 V c)) := by
  show (cfg2.win 8).cut (grid2.coords t) ((dat2 (F := Ideal) V c).after 8 t) = _
  rw [after2_8]
  unfold out2_8
  rw [View.canon_unit_zero Cert.RegTile.zero3]
  simp only [View.ld_unit_zero (S := S4000x128) Cert.RegTile.zero2, View.ld_unit_zero (S := S128x128) Cert.RegTile.zero2,
    View.ld_unit_zero (S := S1x128) Cert.RegTile.zero2]
  obtain ⟨-, -, -, -, -, -, -, -, ⟨e0, e1, e2⟩⟩ := idx2 t
  funext j
  obtain ⟨u, s, q, rfl⟩ : ∃ (u : Fin 1) (s : Fin 8) (q : Fin 128), j = ix3 u s q := ⟨j 0, j 1, j 2, eq_ix3 j⟩
  show k2_pay1 (F := Ideal) (k2_pay4 (F := Ideal) (iblk2 V c 0 t) (iblk2 V c 1 t) (iblk2 V c 2 t) (iblk2 V c 3 t) (iblk2 V c 4 t) (iblk2 V c 5 t)) (ix3 u s q)
    = KSpec.tileSumSq (H2 V c) (((cfg2.win 8).blk t).view.emb (ix3 u s q))
  refine (pay2_sumsq (iblk2 V c 0 t) (iblk2 V c 1 t) (iblk2 V c 2 t) (iblk2 V c 3 t) (iblk2 V c 4 t) (iblk2 V c 5 t) u s q).trans ?_
  refine (Finset.sum_congr rfl fun y _ => by rw [tile2_h V c t y q]).trans ?_
  refine (Cert.RegTile.tileSumSq_at (H2 V c) _ (tile2 t) q ?_ ?_).symm
  · show win2_8.index t (0 : Fin 3) * 1 + 1 * u.val = t.val; rw [e0]; omega
  · show win2_8.index t (2 : Fin 3) * 128 + 1 * q.val = q.val; rw [e2]; omega

/-- Every entry of the tile sums is in the slab of its tile. -/
theorem cover2_7 (i : S25x8x128.Idx) :
    ∃ t : Fin cfg2.N, (cfg2.win 7).flush t = true ∧ i ∈ ((cfg2.win 7).blk t).view.set := by
  have hi0 : (i 0).val < 25 := (i 0).isLt
  have hi1 : (i 1).val < 8 := (i 1).isLt
  have hi2 : (i 2).val < 128 := (i 2).isLt
  have hN : cfg2.N = 25 := N_2
  obtain ⟨t, ht⟩ : ∃ t : Fin cfg2.N, t.val = (i 0).val := ⟨⟨(i 0).val, by rw [hN]; omega⟩, rfl⟩
  obtain ⟨-, -, -, -, -, -, -, ⟨e0, e1, e2⟩, -⟩ := idx2 t
  refine ⟨t, flush2_7 t, ?_⟩
  rw [mem_blk2_7]
  intro a
  match a with
  | ⟨0, _⟩ => show win2_7.index t (0 : Fin 3) * 1 ≤ (i 0).val ∧ (i 0).val < win2_7.index t (0 : Fin 3) * 1 + 1; rw [e0, ht]; omega
  | ⟨1, _⟩ => show win2_7.index t (1 : Fin 3) * 8 ≤ (i 1).val ∧ (i 1).val < win2_7.index t (1 : Fin 3) * 8 + 8; rw [e1]; omega
  | ⟨2, _⟩ => show win2_7.index t (2 : Fin 3) * 128 ≤ (i 2).val ∧ (i 2).val < win2_7.index t (2 : Fin 3) * 128 + 128; rw [e2]; omega

/-- Every entry of the tile sums of squares is in the slab of its tile. -/
theorem cover2_8 (i : S25x8x128.Idx) :
    ∃ t : Fin cfg2.N, (cfg2.win 8).flush t = true ∧ i ∈ ((cfg2.win 8).blk t).view.set := by
  have hi0 : (i 0).val < 25 := (i 0).isLt
  have hi1 : (i 1).val < 8 := (i 1).isLt
  have hi2 : (i 2).val < 128 := (i 2).isLt
  have hN : cfg2.N = 25 := N_2
  obtain ⟨t, ht⟩ : ∃ t : Fin cfg2.N, t.val = (i 0).val := ⟨⟨(i 0).val, by rw [hN]; omega⟩, rfl⟩
  obtain ⟨-, -, -, -, -, -, -, -, ⟨e0, e1, e2⟩⟩ := idx2 t
  refine ⟨t, flush2_8 t, ?_⟩
  rw [mem_blk2_8]
  intro a
  match a with
  | ⟨0, _⟩ => show win2_8.index t (0 : Fin 3) * 1 ≤ (i 0).val ∧ (i 0).val < win2_8.index t (0 : Fin 3) * 1 + 1; rw [e0, ht]; omega
  | ⟨1, _⟩ => show win2_8.index t (1 : Fin 3) * 8 ≤ (i 1).val ∧ (i 1).val < win2_8.index t (1 : Fin 3) * 8 + 8; rw [e1]; omega
  | ⟨2, _⟩ => show win2_8.index t (2 : Fin 3) * 128 ≤ (i 2).val ∧ (i 2).val < win2_8.index t (2 : Fin 3) * 128 + 128; rw [e2]; omega

/-- After the region the tile sums hold, at (t, s, q), the sum over tile t's rows of column q of the perceptron. -/
theorem final2_7 (c : Dev nD) :
    (dat2 (F := Ideal) V c).arrAt 7 cfg2.N
      = KSpec.tileSum (KSpec.mlp (d := 128) (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))) :=
  (dat2 (F := Ideal) V c).arrAt_eq_of_cover 7 (KSpec.tileSum (H2 V c)) (fun t _ => flushed2_7 V c t) cover2_7

/-- After the region the tile sums of squares hold, at (t, s, q), the sum over tile t's rows of the squares of column q. -/
theorem final2_8 (c : Dev nD) :
    (dat2 (F := Ideal) V c).arrAt 8 cfg2.N
      = KSpec.tileSumSq (KSpec.mlp (d := 128) (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))) :=
  (dat2 (F := Ideal) V c).arrAt_eq_of_cover 8 (KSpec.tileSumSq (H2 V c)) (fun t _ => flushed2_8 V c t) cover2_8

end Cert.KernelIdeal.RegVal

end
-- ==== Proof.Reg3.lean ====
/-
  What the head region writes, as one array.

  The region walks the 100000 rows in 25 tiles of 4000 consecutive rows. At tile `t` it holds rows
  4000 t … 4000 t + 3999 of `h` and six small operands whole: the one-row `scale` and `shift`, a 128 × 128 weight
  matrix `W1` with its one-row bias `b1`, a 128 × 1 weight column `W2` with its one-entry bias `b2`. For each row it
  normalises and clamps the row, a = max(h · scale + shift, 0); applies the first layer, z = max(a · W1 + b1, 0);
  applies the second layer and the logistic function, logistic(z · W2 + b2); and stores that one number in the
  same row of the result. Row `r` lies in tile `r / 4000`, so the tiles cover the result.

  * `hidden_product`, `output_product`: each matrix product into a zero accumulator, at an entry, as a sum over
    the contracted index.
  * `head_at`: the value stored at row `p` of a tile, from the tile's seven operands.
  * `tile_index`: which block of each operand a tile holds (block `t` of the row-tiled ones, block 0 of the whole ones).
  * `tile_rows`, `scale_whole` … `bias2_whole`: each operand's block in terms of the whole operand.
  * `head_tile`: the stored value is the whole-array function at the row the tile's row stands for.
  * `tile_written`: what tile `t` writes back is block `t` of the whole-array function.
  * `mem_tile`, `rows_covered`: every entry of the result lies in some tile's block.
  * `final3_7`: the result array.
-/
import proofs.«116086_j16767552323790_2_alg».proof.Proof.Gen.KernelIdeal.Frame
import proofs.«116086_j16767552323790_2_alg».proof.Proof.KSpec
import proofs.«116086_j16767552323790_2_alg».proof.Proof.LibVec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

namespace Head

/-- The zero offsets of a two-axis block, as the constant function. -/
theorem zeroOff : (![0, 0] : Fin 2 → Nat) = fun _ => 0 := funext fun a => by fin_cases a <;> rfl

/-- The logistic function of an array reads entry by entry. -/
theorem logistic_at {s : Shape} {φ : FTy} (v : FVec Ideal s φ) (i : s.Idx) : logistic v i = Ideal.logistic (v i) := rfl

/-- The zero word is the number zero. -/
theorem zeroWord : Scalar.ofBits (F := Ideal) .f32 0x00000000#32 = (0 : EReal) := Ideal.ofBits_zero_f32

/-- The first layer's product into a zero accumulator: entry (r, j) is the sum over k of X (r, k) · Y (k, j). -/
theorem hidden_product (X : FVec Ideal S4000x128 .bf16) (Y : FVec Ideal S128x128 .bf16) (r : Fin 4000) (j : Fin 128) :
    matmul dot_S4000x128_S128x128_S4000x128_1_0_0_1_n_n none X Y (constant S4000x128 .f32 0x00000000#32) (ix2 r j)
      = ∑ k : Fin 128, X (ix2 r k) * Y (ix2 k j) :=
  Cert.LibVec.matmul_rowcol dot_S4000x128_S128x128_S4000x128_1_0_0_1_n_n rfl rfl (fun _ _ => rfl)
    (fun i q => DotDims.lhsIdx_val_of_single _ rfl i q) (fun i q => DotDims.rhsIdx_val_of_single _ rfl i q)
    (fun _ _ => rfl) none X Y r j

/-- The second layer's product into a zero accumulator: entry (r, u) is the sum over k of X (r, k) · Y (k, u). -/
theorem output_product (X : FVec Ideal S4000x128 .bf16) (Y : FVec Ideal S128x1 .bf16) (r : Fin 4000) (u : Fin 1) :
    matmul dot_S4000x128_S128x1_S4000x1_1_0_0_1_n_n none X Y (constant S4000x1 .f32 0x00000000#32) (ix2 r u)
      = ∑ k : Fin 128, X (ix2 r k) * Y (ix2 k u) :=
  Cert.LibVec.matmul_rowcol dot_S4000x128_S128x1_S4000x1_1_0_0_1_n_n rfl rfl (fun _ _ => rfl)
    (fun i q => DotDims.lhsIdx_val_of_single _ rfl i q) (fun i q => DotDims.rhsIdx_val_of_single _ rfl i q)
    (fun _ _ => rfl) none X Y r u

/-- The value stored at row `p` of a tile: the row normalised and clamped, through the two layers, through the
    logistic function. -/
theorem head_at (x0 : FVec Ideal S4000x128 .f32) (x1 x2 : FVec Ideal S1x128 .f32) (x3 : FVec Ideal S128x128 .f32)
    (x4 : FVec Ideal S1x128 .f32) (x5 : FVec Ideal S128x1 .f32) (x6 : FVec Ideal S1x1 .f32) (p : Fin 4000) (u : Fin 1) :
    k3_pay1 (F := Ideal) x0 x1 x2 x3 x4 x5 x6 (ix2 p u)
      = Ideal.logistic
          ((∑ k : Fin 128,
              max ((∑ l : Fin 128,
                      max (x0 (ix2 p l) * x1 (ix2 (0 : Fin 1) l) + x2 (ix2 (0 : Fin 1) l)) (0 : EReal) * x3 (ix2 l k))
                    + x4 (ix2 (0 : Fin 1) k)) (0 : EReal)
                * x5 (ix2 k u))
            + x6 (ix2 (0 : Fin 1) u)) := by
  unfold k3_pay1
  simp only [shapeCast_self, logistic_at, addf_apply, output_product, hidden_product, truncf_apply, maximumf_apply,
    mulf_apply, broadcast_apply, broadcastTo_1b_ab_apply, zeroWord]

/-- Which block each operand's tile is: the row-tiled operands (the input `h` and the result) hold block `t` of the
    rows and the one block of columns; the six small operands hold their one block. Decided over the 25 tiles. -/
theorem tile_index : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

variable (V : (c : Dev nD) → (b : Ref sig .tc) → Buf (Elt Ideal) ((c : Thread nD τ).loc b))

/-- Row `y` of tile `t` of `h` is row `4000 t + y` of `h`, column by column. -/
theorem tile_rows (c : Dev nD) (t : Fin cfg3.N) (y : S4000x128.Idx) (i : S100000x128.Idx)
    (h0 : (i 0).val = 4000 * t.val + (y 0).val) (h1 : (i 1).val = (y 1).val) :
    (iblk3 (F := Ideal) V c 0 t : FVec Ideal S4000x128 .f32) y
      = (V c (Pipeline.arrRef spec3 0) : FVec Ideal S100000x128 .f32) i := by
  obtain ⟨e0, e1, -⟩ := tile_index t
  unfold iblk3
  rw [View.read_apply]
  show (V c (Pipeline.arrRef spec3 0) : FVec Ideal S100000x128 .f32) (((cfg3.win 0).blk t).view.emb y) = _
  refine congrArg (V c (Pipeline.arrRef spec3 0) : FVec Ideal S100000x128 .f32) (funext fun a => Fin.ext ?_)
  match a with
  | ⟨0, _⟩ => show win3_0.index t (0 : Fin 2) * 4000 + 1 * (y 0).val = (i 0).val; rw [e0, h0]; omega
  | ⟨1, _⟩ => show win3_0.index t (1 : Fin 2) * 128 + 1 * (y 1).val = (i 1).val; rw [e1, h1]; omega

/-- The scale's tile is the whole operand. -/
theorem scale_whole (c : Dev nD) (t : Fin cfg3.N) :
    (iblk3 (F := Ideal) V c 1 t : FVec Ideal S1x128 .f32) = (V c (Pipeline.arrRef spec3 1) : FVec Ideal S1x128 .f32) := by
  obtain ⟨-, -, e2, e3, -⟩ := tile_index t
  funext y
  unfold iblk3
  rw [View.read_apply]
  show (V c (Pipeline.arrRef spec3 1) : FVec Ideal S1x128 .f32) (((cfg3.win 1).blk t).view.emb y) = _
  refine congrArg (V c (Pipeline.arrRef spec3 1) : FVec Ideal S1x128 .f32) (funext fun a => Fin.ext ?_)
  match a with
  | ⟨0, _⟩ => show win3_1.index t (0 : Fin 2) * 1 + 1 * (y 0).val = (y 0).val; rw [e2]; omega
  | ⟨1, _⟩ => show win3_1.index t (1 : Fin 2) * 128 + 1 * (y 1).val = (y 1).val; rw [e3]; omega

/-- The shift's tile is the whole operand. -/
theorem shift_whole (c : Dev nD) (t : Fin cfg3.N) :
    (iblk3 (F := Ideal) V c 2 t : FVec Ideal S1x128 .f32) = (V c (Pipeline.arrRef spec3 2) : FVec Ideal S1x128 .f32) := by
  obtain ⟨-, -, -, -, e4, e5, -⟩ := tile_index t
  funext y
  unfold iblk3
  rw [View.read_apply]
  show (V c (Pipeline.arrRef spec3 2) : FVec Ideal S1x128 .f32) (((cfg3.win 2).blk t).view.emb y) = _
  refine congrArg (V c (Pipeline.arrRef spec3 2) : FVec Ideal S1x128 .f32) (funext fun a => Fin.ext ?_)
  match a with
  | ⟨0, _⟩ => show win3_2.index t (0 : Fin 2) * 1 + 1 * (y 0).val = (y 0).val; rw [e4]; omega
  | ⟨1, _⟩ => show win3_2.index t (1 : Fin 2) * 128 + 1 * (y 1).val = (y 1).val; rw [e5]; omega

/-- The first weight matrix's tile is the whole operand. -/
theorem weight1_whole (c : Dev nD) (t : Fin cfg3.N) :
    (iblk3 (F := Ideal) V c 3 t : FVec Ideal S128x128 .f32) = (V c (Pipeline.arrRef spec3 3) : FVec Ideal S128x128 .f32) := by
  obtain ⟨-, -, -, -, -, -, e6, e7, -⟩ := tile_index t
  funext y
  unfold iblk3
  rw [View.read_apply]
  show (V c (Pipeline.arrRef spec3 3) : FVec Ideal S128x128 .f32) (((cfg3.win 3).blk t).view.emb y) = _
  refine congrArg (V c (Pipeline.arrRef spec3 3) : FVec Ideal S128x128 .f32) (funext fun a => Fin.ext ?_)
  match a with
  | ⟨0, _⟩ => show win3_3.index t (0 : Fin 2) * 128 + 1 * (y 0).val = (y 0).val; rw [e6]; omega
  | ⟨1, _⟩ => show win3_3.index t (1 : Fin 2) * 128 + 1 * (y 1).val = (y 1).val; rw [e7]; omega

/-- The first bias row's tile is the whole operand. -/
theorem bias1_whole (c : Dev nD) (t : Fin cfg3.N) :
    (iblk3 (F := Ideal) V c 4 t : FVec Ideal S1x128 .f32) = (V c (Pipeline.arrRef spec3 4) : FVec Ideal S1x128 .f32) := by
  obtain ⟨-, -, -, -, -, -, -, -, e8, e9, -⟩ := tile_index t
  funext y
  unfold iblk3
  rw [View.read_apply]
  show (V c (Pipeline.arrRef spec3 4) : FVec Ideal S1x128 .f32) (((cfg3.win 4).blk t).view.emb y) = _
  refine congrArg (V c (Pipeline.arrRef spec3 4) : FVec Ideal S1x128 .f32) (funext fun a => Fin.ext ?_)
  match a with
  | ⟨0, _⟩ => show win3_4.index t (0 : Fin 2) * 1 + 1 * (y 0).val = (y 0).val; rw [e8]; omega
  | ⟨1, _⟩ => show win3_4.index t (1 : Fin 2) * 128 + 1 * (y 1).val = (y 1).val; rw [e9]; omega

/-- The second weight column's tile is the whole operand. -/
theorem weight2_whole (c : Dev nD) (t : Fin cfg3.N) :
    (iblk3 (F := Ideal) V c 5 t : FVec Ideal S128x1 .f32) = (V c (Pipeline.arrRef spec3 5) : FVec Ideal S128x1 .f32) := by
  obtain ⟨-, -, -, -, -, -, -, -, -, -, e10, e11, -⟩ := tile_index t
  funext y
  unfold iblk3
  rw [View.read_apply]
  show (V c (Pipeline.arrRef spec3 5) : FVec Ideal S128x1 .f32) (((cfg3.win 5).blk t).view.emb y) = _
  refine congrArg (V c (Pipeline.arrRef spec3 5) : FVec Ideal S128x1 .f32) (funext fun a => Fin.ext ?_)
  match a with
  | ⟨0, _⟩ => show win3_5.index t (0 : Fin 2) * 128 + 1 * (y 0).val = (y 0).val; rw [e10]; omega
  | ⟨1, _⟩ => show win3_5.index t (1 : Fin 2) * 1 + 1 * (y 1).val = (y 1).val; rw [e11]; omega

/-- The second bias entry's tile is the whole operand. -/
theorem bias2_whole (c : Dev nD) (t : Fin cfg3.N) :
    (iblk3 (F := Ideal) V c 6 t : FVec Ideal S1x1 .f32) = (V c (Pipeline.arrRef spec3 6) : FVec Ideal S1x1 .f32) := by
  obtain ⟨-, -, -, -, -, -, -, -, -, -, -, -, e12, e13, -⟩ := tile_index t
  funext y
  unfold iblk3
  rw [View.read_apply]
  show (V c (Pipeline.arrRef spec3 6) : FVec Ideal S1x1 .f32) (((cfg3.win 6).blk t).view.emb y) = _
  refine congrArg (V c (Pipeline.arrRef spec3 6) : FVec Ideal S1x1 .f32) (funext fun a => Fin.ext ?_)
  match a with
  | ⟨0, _⟩ => show win3_6.index t (0 : Fin 2) * 1 + 1 * (y 0).val = (y 0).val; rw [e12]; omega
  | ⟨1, _⟩ => show win3_6.index t (1 : Fin 2) * 1 + 1 * (y 1).val = (y 1).val; rw [e13]; omega

/-- The stored value at a tile's index `y` is the whole-array function at the array index `i` that `y` stands for:
    the tile's row of `y` is the row of `h` that `i` names, and the six small operands are whole. -/
theorem head_tile (A0 : FVec Ideal S100000x128 .f32) (A1 A2 : FVec Ideal S1x128 .f32) (A3 : FVec Ideal S128x128 .f32)
    (A4 : FVec Ideal S1x128 .f32) (A5 : FVec Ideal S128x1 .f32) (A6 : FVec Ideal S1x1 .f32)
    (x0 : FVec Ideal S4000x128 .f32) (x1 x2 : FVec Ideal S1x128 .f32) (x3 : FVec Ideal S128x128 .f32)
    (x4 : FVec Ideal S1x128 .f32) (x5 : FVec Ideal S128x1 .f32) (x6 : FVec Ideal S1x1 .f32)
    (y : S4000x1.Idx) (i : S100000x1.Idx)
    (h0 : ∀ l : Fin 128, x0 (ix2 (⟨(y 0).val, (y 0).isLt⟩ : Fin 4000) l) = A0 (ix2 (KSpec.row i) l))
    (h1 : x1 = A1) (h2 : x2 = A2) (h3 : x3 = A3) (h4 : x4 = A4) (h5 : x5 = A5) (h6 : x6 = A6) :
    k3_pay1 (F := Ideal) x0 x1 x2 x3 x4 x5 x6 y = KSpec.head A0 A1 A2 A3 A4 A5 A6 i := by
  subst h1 h2 h3 h4 h5 h6
  obtain ⟨p, u, rfl⟩ : ∃ (p : Fin 4000) (u : Fin 1), y = ix2 p u := ⟨y 0, y 1, eq_ix2 y⟩
  obtain rfl : u = 0 := Subsingleton.elim _ _
  have h0' : ∀ l : Fin 128, x0 (ix2 p l) = A0 (ix2 (KSpec.row i) l) := h0
  rw [head_at]
  unfold KSpec.head
  simp only [h0']

/-- What tile `t` writes back is block `t` of the head function of the operands as the region finds them. -/
theorem tile_written (c : Dev nD) (t : Fin cfg3.N) :
    (dat3 (F := Ideal) V c).flushed 7 t
      = ((cfg3.win 7).blk t).view.read (Elt Ideal)
          (KSpec.head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  rw [after3_7]
  unfold out3_7
  rw [View.canon_unit_zero zeroOff]
  simp only [View.ld_unit_zero (S := S4000x128) zeroOff, View.ld_unit_zero (S := S1x128) zeroOff,
    View.ld_unit_zero (S := S128x128) zeroOff, View.ld_unit_zero (S := S128x1) zeroOff,
    View.ld_unit_zero (S := S1x1) zeroOff]
  obtain ⟨-, -, -, -, -, -, -, -, -, -, -, -, -, -, e14, e15⟩ := tile_index t
  funext j
  rw [View.read_apply]
  show k3_pay1 (F := Ideal) (iblk3 V c 0 t) (iblk3 V c 1 t) (iblk3 V c 2 t) (iblk3 V c 3 t) (iblk3 V c 4 t) (iblk3 V c 5 t) (iblk3 V c 6 t)
        ((cfg3.win 7).xinj (grid3.coords t) j)
      = KSpec.head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))
          (((cfg3.win 7).blk t).view.emb j)
  refine head_tile (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))
    (iblk3 V c 0 t) (iblk3 V c 1 t) (iblk3 V c 2 t) (iblk3 V c 3 t) (iblk3 V c 4 t) (iblk3 V c 5 t) (iblk3 V c 6 t)
    ((cfg3.win 7).xinj (grid3.coords t) j) (((cfg3.win 7).blk t).view.emb j)
    (fun l => ?_) (scale_whole V c t) (shift_whole V c t) (weight1_whole V c t) (bias1_whole V c t)
    (weight2_whole V c t) (bias2_whole V c t)
  refine tile_rows V c t _ _ ?_ rfl
  show win3_7.index t (0 : Fin 2) * 4000 + 1 * (j 0).val = 4000 * t.val + (j 0).val
  rw [e14]; omega

/-- An entry of the result lies in tile `t`'s block iff each of its coordinates lies in the block's range on its axis. -/
theorem mem_tile (t : Fin cfg3.N) (i : S100000x1.Idx) :
    i ∈ ((cfg3.win 7).blk t).view.set
      ↔ ∀ a : Fin 2, win3_7.index t a * S4000x1.size a ≤ (i a).val
          ∧ (i a).val < win3_7.index t a * S4000x1.size a + S4000x1.size a := by
  show i ∈ ((View.whole main_v99).slice (win3_7.rect t)).set ↔ _
  rw [View.set_slice_whole, Rect.mem_set_unit]
  exact Iff.rfl

/-- Every entry of the result lies in the block of the tile its row falls in: row `r` is in tile `r / 4000`. -/
theorem rows_covered (i : S100000x1.Idx) :
    ∃ t : Fin cfg3.N, (cfg3.win 7).flush t = true ∧ i ∈ ((cfg3.win 7).blk t).view.set := by
  have hi0 : (i 0).val < 100000 := (i 0).isLt
  have hi1 : (i 1).val < 1 := (i 1).isLt
  have hlt : (i 0).val / 4000 < cfg3.N := by rw [show cfg3.N = 25 from N_3]; omega
  obtain ⟨-, -, -, -, -, -, -, -, -, -, -, -, -, -, e14, e15⟩ := tile_index ⟨(i 0).val / 4000, hlt⟩
  have e14' : win3_7.index ⟨(i 0).val / 4000, hlt⟩ (0 : Fin 2) = (i 0).val / 4000 := e14
  refine ⟨⟨(i 0).val / 4000, hlt⟩, flush3_7 _, ?_⟩
  rw [mem_tile]
  intro a
  match a with
  | ⟨0, _⟩ =>
    show win3_7.index ⟨(i 0).val / 4000, hlt⟩ (0 : Fin 2) * 4000 ≤ (i 0).val
      ∧ (i 0).val < win3_7.index ⟨(i 0).val / 4000, hlt⟩ (0 : Fin 2) * 4000 + 4000
    rw [e14']; omega
  | ⟨1, _⟩ =>
    show win3_7.index ⟨(i 0).val / 4000, hlt⟩ (1 : Fin 2) * 1 ≤ (i 1).val
      ∧ (i 1).val < win3_7.index ⟨(i 0).val / 4000, hlt⟩ (1 : Fin 2) * 1 + 1
    rw [e15]; omega

end Head

/-- THE RESULT of the head region: logistic(max(max(h · scale + shift, 0) · W1 + b1, 0) · W2 + b2) of its seven
    operands as the region finds them, at every row. -/
theorem final3_7 (V : (c : Dev nD) → (b : Ref sig .tc) → Buf (Elt Ideal) ((c : Thread nD τ).loc b)) (c : Dev nD) :
    (Gen.dat3 (F := Ideal) V c).arrAt 7 cfg3.N
      = KSpec.head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (Gen.dat3 (F := Ideal) V c).arrAt_eq_of_cover 7 _ (fun t _ => Head.tile_written V c t) Head.rows_covered

end Cert.KernelIdeal.RegVal

end
-- ==== Proof.KValB.lean ====
/-
  The second half of the kernel program's value chain, over the extended reals.

  From the first block's output y (held in its array when the second region ends) to the program's result:
  the host operations between regions compute the second aggregation from y and the edge list, and reshape two
  bias vectors to rows; the third region computes the second perceptron h on y plus that aggregation, with the
  per-tile column sums and sums of squares of h; the host operations after it turn those into the
  normalisation's scale and shift rows and reshape the head's biases; the last region applies the normalisation
  fused with the head. Each region's arrays on entry are read off the host operations before it, its outputs on
  exit are the region's value of those, and the composition is the second perceptron followed by the head.
-/
import proofs.«116086_j16767552323790_2_alg».proof.Proof.KValBWalk
import proofs.«116086_j16767552323790_2_alg».proof.Proof.KSpec
import proofs.«116086_j16767552323790_2_alg».proof.Proof.KPure
import proofs.«116086_j16767552323790_2_alg».proof.Proof.Reg2
import proofs.«116086_j16767552323790_2_alg».proof.Proof.Reg3

set_option maxRecDepth 16384

noncomputable section

namespace Cert.KernelIdeal.KVal

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

namespace B

/-! ## The third region's entry: the host operations after the second region -/

set_option maxHeartbeats 4000000 in
/-- The second aggregation, from y and the edge list. -/
theorem V9_v70 (Y : FVec Ideal S100000x128 .f32) (hY : W6 m ρ c (Proc.devRef .tc main_v50) = Y) : V9 m ρ c main_v70 = KHost.aggK1 Y (m ((c : Thread nD τ).loc main_arg1)) (m ((c : Thread nD τ).loc main_arg2)) (m ((c : Thread nD τ).loc main_arg11)) (m ((c : Thread nD τ).loc main_arg12)) := by
  dsimp only [V9, W9, W8, W7]
  after_results_simp
  rw [hY, W6_v1 m ρ c, W6_v3 m ρ c, W6_arg2 m ρ c, W6_arg11 m ρ c, W6_arg12 m ρ c]
  rfl

set_option maxHeartbeats 4000000 in
/-- The first bias as a row. -/
theorem V9_v71 : V9 m ρ c main_v71 = shapeCast S1x128 (m ((c : Thread nD τ).loc main_arg14)) shapeCasts_S128_S1x128 := by
  dsimp only [V9, W9, W8, W7]
  after_results_simp
  rw [W6_arg14 m ρ c]
  rfl

set_option maxHeartbeats 4000000 in
/-- The second bias as a row. -/
theorem V9_v72 : V9 m ρ c main_v72 = shapeCast S1x128 (m ((c : Thread nD τ).loc main_arg16)) shapeCasts_S128_S1x128 := by
  dsimp only [V9, W9, W8, W7]
  after_results_simp
  rw [W6_arg16 m ρ c]
  rfl

set_option maxHeartbeats 4000000 in
/-- y itself is not written. -/
theorem V9_v50 (Y : FVec Ideal S100000x128 .f32) (hY : W6 m ρ c (Proc.devRef .tc main_v50) = Y) : V9 m ρ c main_v50 = Y :=
  (show V9 m ρ c main_v50 = W6 m ρ c (Proc.devRef .tc main_v50) by
    dsimp only [V9, W9, W8, W7]
    after_results_simp).trans hY

set_option maxHeartbeats 4000000 in
theorem W9_arg13 : W9 m ρ c (Proc.devRef .tc main_arg13) = m ((c : Thread nD τ).loc main_arg13) :=
  (show W9 m ρ c (Proc.devRef .tc main_arg13) = W6 m ρ c (Proc.devRef .tc main_arg13) by
    dsimp only [W9, W8, W7]
    after_results_simp).trans (W6_arg13 m ρ c)
set_option maxHeartbeats 4000000 in
theorem W9_arg15 : W9 m ρ c (Proc.devRef .tc main_arg15) = m ((c : Thread nD τ).loc main_arg15) :=
  (show W9 m ρ c (Proc.devRef .tc main_arg15) = W6 m ρ c (Proc.devRef .tc main_arg15) by
    dsimp only [W9, W8, W7]
    after_results_simp).trans (W6_arg15 m ρ c)
set_option maxHeartbeats 4000000 in
theorem W9_arg17 : W9 m ρ c (Proc.devRef .tc main_arg17) = m ((c : Thread nD τ).loc main_arg17) :=
  (show W9 m ρ c (Proc.devRef .tc main_arg17) = W6 m ρ c (Proc.devRef .tc main_arg17) by
    dsimp only [W9, W8, W7]
    after_results_simp).trans (W6_arg17 m ρ c)
set_option maxHeartbeats 4000000 in
theorem W9_arg18 : W9 m ρ c (Proc.devRef .tc main_arg18) = m ((c : Thread nD τ).loc main_arg18) :=
  (show W9 m ρ c (Proc.devRef .tc main_arg18) = W6 m ρ c (Proc.devRef .tc main_arg18) by
    dsimp only [W9, W8, W7]
    after_results_simp).trans (W6_arg18 m ρ c)
set_option maxHeartbeats 4000000 in
theorem W9_arg19 : W9 m ρ c (Proc.devRef .tc main_arg19) = m ((c : Thread nD τ).loc main_arg19) :=
  (show W9 m ρ c (Proc.devRef .tc main_arg19) = W6 m ρ c (Proc.devRef .tc main_arg19) by
    dsimp only [W9, W8, W7]
    after_results_simp).trans (W6_arg19 m ρ c)
set_option maxHeartbeats 4000000 in
theorem W9_arg20 : W9 m ρ c (Proc.devRef .tc main_arg20) = m ((c : Thread nD τ).loc main_arg20) :=
  (show W9 m ρ c (Proc.devRef .tc main_arg20) = W6 m ρ c (Proc.devRef .tc main_arg20) by
    dsimp only [W9, W8, W7]
    after_results_simp).trans (W6_arg20 m ρ c)
set_option maxHeartbeats 4000000 in
theorem W9_arg21 : W9 m ρ c (Proc.devRef .tc main_arg21) = m ((c : Thread nD τ).loc main_arg21) :=
  (show W9 m ρ c (Proc.devRef .tc main_arg21) = W6 m ρ c (Proc.devRef .tc main_arg21) by
    dsimp only [W9, W8, W7]
    after_results_simp).trans (W6_arg21 m ρ c)
set_option maxHeartbeats 4000000 in
theorem W9_arg22 : W9 m ρ c (Proc.devRef .tc main_arg22) = m ((c : Thread nD τ).loc main_arg22) :=
  (show W9 m ρ c (Proc.devRef .tc main_arg22) = W6 m ρ c (Proc.devRef .tc main_arg22) by
    dsimp only [W9, W8, W7]
    after_results_simp).trans (W6_arg22 m ρ c)

theorem in2_0 (Y : FVec Ideal S100000x128 .f32) (hY : W6 m ρ c (Proc.devRef .tc main_v50) = Y) : V9 m ρ c (Pipeline.arrRef spec2 0) = Y := V9_v50 m ρ c Y hY
theorem in2_1 (Y : FVec Ideal S100000x128 .f32) (hY : W6 m ρ c (Proc.devRef .tc main_v50) = Y) : V9 m ρ c (Pipeline.arrRef spec2 1) = KHost.aggK1 Y (m ((c : Thread nD τ).loc main_arg1)) (m ((c : Thread nD τ).loc main_arg2)) (m ((c : Thread nD τ).loc main_arg11)) (m ((c : Thread nD τ).loc main_arg12)) := V9_v70 m ρ c Y hY
theorem in2_2 : V9 m ρ c (Pipeline.arrRef spec2 2) = m ((c : Thread nD τ).loc main_arg13) := W9_arg13 m ρ c
theorem in2_3 : V9 m ρ c (Pipeline.arrRef spec2 3) = shapeCast S1x128 (m ((c : Thread nD τ).loc main_arg14)) shapeCasts_S128_S1x128 := V9_v71 m ρ c
theorem in2_4 : V9 m ρ c (Pipeline.arrRef spec2 4) = m ((c : Thread nD τ).loc main_arg15) := W9_arg15 m ρ c
theorem in2_5 : V9 m ρ c (Pipeline.arrRef spec2 5) = shapeCast S1x128 (m ((c : Thread nD τ).loc main_arg16)) shapeCasts_S128_S1x128 := V9_v72 m ρ c

/-- The third region's perceptron of the arrays it finds is the second perceptron of y and the arguments. -/
theorem mlp1_eq (Y : FVec Ideal S100000x128 .f32) (hY : W6 m ρ c (Proc.devRef .tc main_v50) = Y) :
    KSpec.mlp (d := 128) (V9 m ρ c (Pipeline.arrRef spec2 0)) (V9 m ρ c (Pipeline.arrRef spec2 1)) (V9 m ρ c (Pipeline.arrRef spec2 2))
        (V9 m ρ c (Pipeline.arrRef spec2 3)) (V9 m ρ c (Pipeline.arrRef spec2 4)) (V9 m ρ c (Pipeline.arrRef spec2 5))
      = Pure.h1K Y (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold Pure.h1K
  rw [in2_0 m ρ c Y hY, in2_1 m ρ c Y hY, in2_2 m ρ c, in2_3 m ρ c, in2_4 m ρ c, in2_5 m ρ c]

/-! ## The third region's exit -/

/-- The array h. -/
theorem W10_v73_0 (Y : FVec Ideal S100000x128 .f32) (hY : W6 m ρ c (Proc.devRef .tc main_v50) = Y) : W10 m ρ c (Proc.devRef .tc main_v73_0) = Pure.h1K Y (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (W10_arr m ρ c 6).trans ((RegVal.final2_6 (V9 m ρ) c).trans (mlp1_eq m ρ c Y hY))

/-- Its per-tile column sums. -/
theorem W10_v73_1 (Y : FVec Ideal S100000x128 .f32) (hY : W6 m ρ c (Proc.devRef .tc main_v50) = Y) : W10 m ρ c (Proc.devRef .tc main_v73_1) = KSpec.tileSum (Pure.h1K Y (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) :=
  (W10_arr m ρ c 7).trans ((RegVal.final2_7 (V9 m ρ) c).trans (congrArg KSpec.tileSum (mlp1_eq m ρ c Y hY)))

/-- Its per-tile column sums of squares. -/
theorem W10_v73_2 (Y : FVec Ideal S100000x128 .f32) (hY : W6 m ρ c (Proc.devRef .tc main_v50) = Y) : W10 m ρ c (Proc.devRef .tc main_v73_2) = KSpec.tileSumSq (Pure.h1K Y (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) :=
  (W10_arr m ρ c 8).trans ((RegVal.final2_8 (V9 m ρ) c).trans (congrArg KSpec.tileSumSq (mlp1_eq m ρ c Y hY)))

theorem W10_arg17 : W10 m ρ c (Proc.devRef .tc main_arg17) = m ((c : Thread nD τ).loc main_arg17) :=
  (W10_of_ne m ρ c main_arg17 (by decide)).trans (W9_arg17 m ρ c)
theorem W10_arg18 : W10 m ρ c (Proc.devRef .tc main_arg18) = m ((c : Thread nD τ).loc main_arg18) :=
  (W10_of_ne m ρ c main_arg18 (by decide)).trans (W9_arg18 m ρ c)
theorem W10_arg19 : W10 m ρ c (Proc.devRef .tc main_arg19) = m ((c : Thread nD τ).loc main_arg19) :=
  (W10_of_ne m ρ c main_arg19 (by decide)).trans (W9_arg19 m ρ c)
theorem W10_arg20 : W10 m ρ c (Proc.devRef .tc main_arg20) = m ((c : Thread nD τ).loc main_arg20) :=
  (W10_of_ne m ρ c main_arg20 (by decide)).trans (W9_arg20 m ρ c)
theorem W10_arg21 : W10 m ρ c (Proc.devRef .tc main_arg21) = m ((c : Thread nD τ).loc main_arg21) :=
  (W10_of_ne m ρ c main_arg21 (by decide)).trans (W9_arg21 m ρ c)
theorem W10_arg22 : W10 m ρ c (Proc.devRef .tc main_arg22) = m ((c : Thread nD τ).loc main_arg22) :=
  (W10_of_ne m ρ c main_arg22 (by decide)).trans (W9_arg22 m ρ c)

/-! ## The last region's entry: the host operations after the third region -/

set_option maxHeartbeats 4000000 in
/-- The scale row: the host's function of the two statistics arrays and the weight vector. -/
theorem V11_v93 : V11 m ρ c main_v93
    = KHost.scaleK (W10 m ρ c (Proc.devRef .tc main_v73_1)) (W10 m ρ c (Proc.devRef .tc main_v73_2)) (m ((c : Thread nD τ).loc main_arg17)) := by
  dsimp only [V11, W11]
  after_results_simp
  rw [W10_arg17 m ρ c]
  rfl

set_option maxHeartbeats 4000000 in
/-- The shift row. -/
theorem V11_v96 : V11 m ρ c main_v96
    = KHost.shiftK (W10 m ρ c (Proc.devRef .tc main_v73_1)) (W10 m ρ c (Proc.devRef .tc main_v73_2)) (m ((c : Thread nD τ).loc main_arg17)) (m ((c : Thread nD τ).loc main_arg18)) := by
  dsimp only [V11, W11]
  after_results_simp
  rw [W10_arg17 m ρ c, W10_arg18 m ρ c]
  rfl

set_option maxHeartbeats 4000000 in
/-- The head's first bias as a row. -/
theorem V11_v97 : V11 m ρ c main_v97 = shapeCast S1x128 (m ((c : Thread nD τ).loc main_arg20)) shapeCasts_S128_S1x128 := by
  dsimp only [V11, W11]
  after_results_simp
  rw [W10_arg20 m ρ c]
  rfl

set_option maxHeartbeats 4000000 in
/-- The head's second bias as a one-entry row. -/
theorem V11_v98 : V11 m ρ c main_v98 = shapeCast S1x1 (m ((c : Thread nD τ).loc main_arg22)) shapeCasts_S1_S1x1 := by
  dsimp only [V11, W11]
  after_results_simp
  rw [W10_arg22 m ρ c]
  rfl

set_option maxHeartbeats 4000000 in
/-- h is not written. -/
theorem V11_v73_0 : V11 m ρ c main_v73_0 = W10 m ρ c (Proc.devRef .tc main_v73_0) := by
  dsimp only [V11, W11]
  after_results_simp

set_option maxHeartbeats 4000000 in
theorem W11_arg19 : W11 m ρ c (Proc.devRef .tc main_arg19) = m ((c : Thread nD τ).loc main_arg19) :=
  (show W11 m ρ c (Proc.devRef .tc main_arg19) = W10 m ρ c (Proc.devRef .tc main_arg19) by
    dsimp only [W11]
    after_results_simp).trans (W10_arg19 m ρ c)
set_option maxHeartbeats 4000000 in
theorem W11_arg21 : W11 m ρ c (Proc.devRef .tc main_arg21) = m ((c : Thread nD τ).loc main_arg21) :=
  (show W11 m ρ c (Proc.devRef .tc main_arg21) = W10 m ρ c (Proc.devRef .tc main_arg21) by
    dsimp only [W11]
    after_results_simp).trans (W10_arg21 m ρ c)

theorem in3_0 (Y : FVec Ideal S100000x128 .f32) (hY : W6 m ρ c (Proc.devRef .tc main_v50) = Y) : V11 m ρ c (Pipeline.arrRef spec3 0) = Pure.h1K Y (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (V11_v73_0 m ρ c).trans (W10_v73_0 m ρ c Y hY)
theorem in3_1 (Y : FVec Ideal S100000x128 .f32) (hY : W6 m ρ c (Proc.devRef .tc main_v50) = Y) : V11 m ρ c (Pipeline.arrRef spec3 1) = KHost.scaleK (KSpec.tileSum (Pure.h1K Y (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))) (KSpec.tileSumSq (Pure.h1K Y (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))) (m ((c : Thread nD τ).loc main_arg17)) := by
  refine (V11_v93 m ρ c).trans ?_
  rw [W10_v73_1 m ρ c Y hY, W10_v73_2 m ρ c Y hY]
theorem in3_2 (Y : FVec Ideal S100000x128 .f32) (hY : W6 m ρ c (Proc.devRef .tc main_v50) = Y) : V11 m ρ c (Pipeline.arrRef spec3 2) = KHost.shiftK (KSpec.tileSum (Pure.h1K Y (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))) (KSpec.tileSumSq (Pure.h1K Y (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))) (m ((c : Thread nD τ).loc main_arg17)) (m ((c : Thread nD τ).loc main_arg18)) := by
  refine (V11_v96 m ρ c).trans ?_
  rw [W10_v73_1 m ρ c Y hY, W10_v73_2 m ρ c Y hY]
theorem in3_3 : V11 m ρ c (Pipeline.arrRef spec3 3) = m ((c : Thread nD τ).loc main_arg19) := W11_arg19 m ρ c
theorem in3_4 : V11 m ρ c (Pipeline.arrRef spec3 4) = shapeCast S1x128 (m ((c : Thread nD τ).loc main_arg20)) shapeCasts_S128_S1x128 := V11_v97 m ρ c
theorem in3_5 : V11 m ρ c (Pipeline.arrRef spec3 5) = m ((c : Thread nD τ).loc main_arg21) := W11_arg21 m ρ c
theorem in3_6 : V11 m ρ c (Pipeline.arrRef spec3 6) = shapeCast S1x1 (m ((c : Thread nD τ).loc main_arg22)) shapeCasts_S1_S1x1 := V11_v98 m ρ c

end B

/-! ## The last region's exit: the program's result -/

/-- The program's result from the first block's output y: the second perceptron on y, then its normalisation
    fused with the head. -/
theorem out_of (Y : FVec Ideal S100000x128 .f32) (hY : W6 m ρ c (Proc.devRef .tc main_v50) = Y) :
    W12 m ρ c (Proc.devRef .tc main_v99)
      = Pure.headK (Pure.h1K Y (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W12_arr m ρ c 7).trans ((RegVal.final3_7 (V11 m ρ) c).trans ?_)
  unfold Pure.headK
  rw [B.in3_0 m ρ c Y hY, B.in3_1 m ρ c Y hY, B.in3_2 m ρ c Y hY, B.in3_3 m ρ c, B.in3_4 m ρ c, B.in3_5 m ρ c, B.in3_6 m ρ c]

end Cert.KernelIdeal.KVal

end
-- ==== Proof.Spec.lean ====
/-
  The network as ONE function of its argument arrays over the extended reals, composed of whole-array
  operations in named stages:
  * `srcIdx`, `dstIdx`: the two rows of the edge list as index columns, a negative source wrapped once by
    the number of nodes;
  * `agg0`, `agg1`: messages relu(x[src] + e · We + be), summed into their destination rows;
  * `mlp0`, `mlp1`: relu((x + agg) · W1 + b1) · W2 + b2;
  * `mean`, `var`, `bnrelu`: the column mean, the mean squared deviation from it, and
    relu((h − mean) · rsqrt(var + ε) · γ + β);
  * `head`: 1 / (1 + exp(−(relu(y · W1 + b1) · W2 + b2)));
  * `out`: two message-passing blocks, then the head.
-/
import proofs.«116086_j16767552323790_2_alg».proof.ReferenceIdeal
import Idealize.ShloMosaic.PureOps.Ideal

noncomputable section

namespace Cert.Spec

open Idealize.ShloMosaic Cert.ReferenceIdeal

variable [Cert.ReferenceIdeal.Facts]
open Cert.ReferenceIdeal.Facts₀ Cert.ReferenceIdeal.Facts

/-- Row 0 of the edge list: the source node of every edge. -/
def row0 (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of every edge. -/
def row1 (ei : IVec S2x1600000 32) : IVec S1600000 32 :=
  shapeCast S1600000 (extractStridedSlice S1x1600000 ![1, 0] ei slices_S2x1600000_S1x1600000_1_0) shapeCasts_S1x1600000_S1600000

/-- The sources as an index column; a negative index counts from the end. -/
def srcIdx (ei : IVec S2x1600000 32) : IVec S1600000x1 32 :=
  broadcastInDim S1600000x1 ![0] bcast_S1600000_S1600000x1_0
    (select (cmpi .slt (row0 ei) (broadcastInDim S1600000 ![] bcast_S_S1600000 (constantI S_ 32 0#32)))
      (addi (row0 ei) (broadcastInDim S1600000 ![] bcast_S_S1600000 (constantI S_ 32 100000#32)))
      (row0 ei))

/-- The destinations as an index column. -/
def dstIdx (ei : IVec S2x1600000 32) : IVec S1600000x1 32 :=
  broadcastInDim S1600000x1 ![0] bcast_S1600000_S1600000x1_0 (row1 ei)

/-- A length-128 vector repeated over the 100000 rows. -/
def rows (b : FVec Ideal S128 .f32) : FVec Ideal S100000x128 .f32 :=
  broadcastInDim S100000x128 ![0, 1] bcast_S1x128_S100000x128_0_1 (broadcastInDim S1x128 ![1] bcast_S128_S1x128_1 b)

/-- relu on a [100000, 128] array. -/
def reluN (x : FVec Ideal S100000x128 .f32) : FVec Ideal S100000x128 .f32 :=
  maximumf x (broadcastInDim S100000x128 ![] bcast_S_S100000x128 (constant (F := Ideal) S_ .f32 0x00000000#32))

/-- First block's aggregation: relu(x[src] + e · We + be) summed into the destination rows. -/
def agg0 (x : FVec Ideal S100000x32 .f32) (ei : IVec S2x1600000 32) (e : FVec Ideal S1600000x16 .f32)
    (We : FVec Ideal S16x32 .f32) (be : FVec Ideal S32 .f32) : FVec Ideal S100000x32 .f32 :=
  Host.scatterAdd scatter_S100000x32_S1600000x1_S1600000x32_1_0_0_1
    (broadcastInDim S100000x32 ![] bcast_S_S100000x32 (constant (F := Ideal) S_ .f32 0x00000000#32))
    (dstIdx ei)
    (maximumf
      (addf
        (addf (Host.gather gather_S100000x32_S1600000x1_S1600000x32_1_0_n_n_0_1_132 x (srcIdx ei))
          (Host.dotGeneral dot_S1600000x16_S16x32_S1600000x32_1_0_0_1_n_n none e We))
        (broadcastInDim S1600000x32 ![0, 1] bcast_S1x32_S1600000x32_0_1 (broadcastInDim S1x32 ![1] bcast_S32_S1x32_1 be)))
      (broadcastInDim S1600000x32 ![] bcast_S_S1600000x32 (constant (F := Ideal) S_ .f32 0x00000000#32)))

/-- Second block's aggregation, on 128 features. -/
def agg1 (x : FVec Ideal S100000x128 .f32) (ei : IVec S2x1600000 32) (e : FVec Ideal S1600000x16 .f32)
    (We : FVec Ideal S16x128 .f32) (be : FVec Ideal S128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (dstIdx ei)
    (maximumf
      (addf
        (addf (Host.gather gather_S100000x128_S1600000x1_S1600000x128_1_0_n_n_0_1_1128 x (srcIdx ei))
          (Host.dotGeneral dot_S1600000x16_S16x128_S1600000x128_1_0_0_1_n_n none e We))
        (broadcastInDim S1600000x128 ![0, 1] bcast_S1x128_S1600000x128_0_1 (broadcastInDim S1x128 ![1] bcast_S128_S1x128_1 be)))
      (broadcastInDim S1600000x128 ![] bcast_S_S1600000x128 (constant (F := Ideal) S_ .f32 0x00000000#32)))

/-- First block's perceptron: relu((x + agg) · W1 + b1) · W2 + b2, 32 features in. -/
def mlp0 (x agg : FVec Ideal S100000x32 .f32) (W1 : FVec Ideal S32x128 .f32) (b1 : FVec Ideal S128 .f32)
    (W2 : FVec Ideal S128x128 .f32) (b2 : FVec Ideal S128 .f32) : FVec Ideal S100000x128 .f32 :=
  addf
    (Host.dotGeneral dot_S100000x128_S128x128_S100000x128_1_0_0_1_n_n none
      (reluN (addf (Host.dotGeneral dot_S100000x32_S32x128_S100000x128_1_0_0_1_n_n none (addf x agg) W1) (rows b1)))
      W2)
    (rows b2)

/-- Second block's perceptron, 128 features in. -/
def mlp1 (x agg : FVec Ideal S100000x128 .f32) (W1 : FVec Ideal S128x128 .f32) (b1 : FVec Ideal S128 .f32)
    (W2 : FVec Ideal S128x128 .f32) (b2 : FVec Ideal S128 .f32) : FVec Ideal S100000x128 .f32 :=
  addf
    (Host.dotGeneral dot_S100000x128_S128x128_S100000x128_1_0_0_1_n_n none
      (reluN (addf (Host.dotGeneral dot_S100000x128_S128x128_S100000x128_1_0_0_1_n_n none (addf x agg) W1) (rows b1)))
      W2)
    (rows b2)

/-- The column sums over the 100000 rows. -/
def colSum (h : FVec Ideal S100000x128 .f32) : FVec Ideal S128 .f32 :=
  Host.reduceAdd h (constant (F := Ideal) S_ .f32 0x00000000#32) reducesTo_S100000x128_S128_d0 h_S_

/-- The column means: the column sums over 100000. -/
def mean (h : FVec Ideal S100000x128 .f32) : FVec Ideal S128 .f32 :=
  Host.divf (colSum h) (broadcastInDim S128 ![] bcast_S_S128 (constant (F := Ideal) S_ .f32 0x47C35000#32))

/-- The count the variance divides by: 100000 minus zero degrees of freedom. -/
def count : FVec Ideal S_ .f32 :=
  subf (constant (F := Ideal) S_ .f32 0x47C35000#32) (sitofp (F := Ideal) .f32 (constantI S_ 32 0#32))

/-- The squared deviations from the column means. -/
def sqDev (h : FVec Ideal S100000x128 .f32) : FVec Ideal S100000x128 .f32 :=
  mulf
    (subf h (broadcastInDim S100000x128 ![0, 1] bcast_S1x128_S100000x128_0_1
      (Host.divf (broadcastInDim S1x128 ![1] bcast_S128_S1x128_1 (colSum h))
        (broadcastInDim S1x128 ![] bcast_S_S1x128 (constant (F := Ideal) S_ .f32 0x47C35000#32)))))
    (subf h (broadcastInDim S100000x128 ![0, 1] bcast_S1x128_S100000x128_0_1
      (Host.divf (broadcastInDim S1x128 ![1] bcast_S128_S1x128_1 (colSum h))
        (broadcastInDim S1x128 ![] bcast_S_S1x128 (constant (F := Ideal) S_ .f32 0x47C35000#32)))))

/-- The column variances: the mean squared deviation where the count is positive, not-a-number otherwise. -/
def var (h : FVec Ideal S100000x128 .f32) : FVec Ideal S128 .f32 :=
  select (broadcastInDim S128 ![] bcast_S_S128 (cmpf .ogt count (constant (F := Ideal) S_ .f32 0x00000000#32)))
    (Host.divf (colSum (sqDev h)) (broadcastInDim S128 ![] bcast_S_S128 count))
    (broadcastInDim S128 ![] bcast_S_S128 (constant (F := Ideal) S_ .f32 0x7FC00000#32))

/-- Normalise each column to mean zero and variance one (up to ε), scale by γ, shift by β, relu. -/
def bnrelu (h : FVec Ideal S100000x128 .f32) (γ β : FVec Ideal S128 .f32) : FVec Ideal S100000x128 .f32 :=
  reluN
    (addf
      (mulf
        (mulf (subf h (rows (mean h)))
          (rows (Host.rsqrt (addf (var h) (broadcastInDim S128 ![] bcast_S_S128 (constant (F := Ideal) S_ .f32 0x3727C5AC#32))))))
        (rows γ))
      (rows β))

/-- The head: 1 / (1 + exp(−(relu(y · W1 + b1) · W2 + b2))). -/
def head (y : FVec Ideal S100000x128 .f32) (W1 : FVec Ideal S128x128 .f32) (b1 : FVec Ideal S128 .f32)
    (W2 : FVec Ideal S128x1 .f32) (b2 : FVec Ideal S1 .f32) : FVec Ideal S100000x1 .f32 :=
  Host.divf (broadcastInDim S100000x1 ![] bcast_S_S100000x1 (constant (F := Ideal) S_ .f32 0x3F800000#32))
    (addf (broadcastInDim S100000x1 ![] bcast_S_S100000x1 (constant (F := Ideal) S_ .f32 0x3F800000#32))
      (Host.exp (Host.negf
        (addf
          (Host.dotGeneral dot_S100000x128_S128x1_S100000x1_1_0_0_1_n_n none
            (reluN (addf (Host.dotGeneral dot_S100000x128_S128x128_S100000x128_1_0_0_1_n_n none y W1) (rows b1)))
            W2)
          (broadcastInDim S100000x1 ![0, 1] bcast_S1x1_S100000x1_0_1 (broadcastInDim S1x1 ![1] bcast_S1_S1x1_1 b2))))))

/-- First block's output from the arguments. -/
def block0 (x : FVec Ideal S100000x32 .f32) (ei : IVec S2x1600000 32) (e : FVec Ideal S1600000x16 .f32)
    (We : FVec Ideal S16x32 .f32) (be : FVec Ideal S32 .f32) (W1 : FVec Ideal S32x128 .f32) (b1 : FVec Ideal S128 .f32)
    (W2 : FVec Ideal S128x128 .f32) (b2 γ β : FVec Ideal S128 .f32) : FVec Ideal S100000x128 .f32 :=
  bnrelu (mlp0 x (agg0 x ei e We be) W1 b1 W2 b2) γ β

/-- Second block's output from the first's. -/
def block1 (y : FVec Ideal S100000x128 .f32) (ei : IVec S2x1600000 32) (e : FVec Ideal S1600000x16 .f32)
    (We : FVec Ideal S16x128 .f32) (be : FVec Ideal S128 .f32) (W1 : FVec Ideal S128x128 .f32) (b1 : FVec Ideal S128 .f32)
    (W2 : FVec Ideal S128x128 .f32) (b2 γ β : FVec Ideal S128 .f32) : FVec Ideal S100000x128 .f32 :=
  bnrelu (mlp1 y (agg1 y ei e We be) W1 b1 W2 b2) γ β

/-- The whole network. -/
def out (x : FVec Ideal S100000x32 .f32) (ei : IVec S2x1600000 32) (e : FVec Ideal S1600000x16 .f32)
    (We0 : FVec Ideal S16x32 .f32) (be0 : FVec Ideal S32 .f32) (W10 : FVec Ideal S32x128 .f32) (b10 : FVec Ideal S128 .f32)
    (W20 : FVec Ideal S128x128 .f32) (b20 γ0 β0 : FVec Ideal S128 .f32)
    (We1 : FVec Ideal S16x128 .f32) (be1 : FVec Ideal S128 .f32) (W11 : FVec Ideal S128x128 .f32) (b11 : FVec Ideal S128 .f32)
    (W21 : FVec Ideal S128x128 .f32) (b21 γ1 β1 : FVec Ideal S128 .f32)
    (hW1 : FVec Ideal S128x128 .f32) (hb1 : FVec Ideal S128 .f32) (hW2 : FVec Ideal S128x1 .f32) (hb2 : FVec Ideal S1 .f32) :
    FVec Ideal S100000x1 .f32 :=
  head (block1 (block0 x ei e We0 be0 W10 b10 W20 b20 γ0 β0) ei e We1 be1 W11 b11 W21 b21 γ1 β1) hW1 hb1 hW2 hb2

end Cert.Spec

end
-- ==== Proof.LibReal.lean ====
/-
  Real arithmetic on the extended reals: a program-free library.

  At the ideal instance a float is an extended real and every operation is the exact one.  When every
  value involved is a real number (neither infinity), the operations are those of the field of real
  numbers; this file states that closure, operation by operation, and proves the one algebraic fact
  needed about a batch normalisation: the mean of the squared deviations from the mean is the mean of
  the squares minus the square of the mean.
-/
import Idealize.ShloMosaic.PureOps.Ideal
import Idealize.ShloMosaic.PureOps.Ideal.Laws
import Idealize.ShloMosaic.Lib.ValueIdx

noncomputable section

namespace Cert.LibReal

open Idealize.ShloMosaic
open scoped BigOperators

/-! ## Sums of reals inside the extended reals -/

/-- The coercion of a finite sum of reals is the sum of the coercions. -/
theorem coe_sum {κ : Type} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is a given real is the coercion of the real sum. -/
theorem sum_eq_coe {κ : Type} (s : Finset κ) (x : κ → EReal) (r : κ → ℝ) (hx : ∀ i ∈ s, x i = (r i : EReal)) :
    ∑ i ∈ s, x i = ((∑ i ∈ s, r i : ℝ) : EReal) := by
  rw [coe_sum]; exact Finset.sum_congr rfl hx

/-- The ideal quotient of two reals, the divisor not zero, is the real quotient. -/
theorem div_coe_coe (x N : ℝ) (hN : N ≠ 0) : Ideal.div (x : EReal) (N : EReal) = ((x / N : ℝ) : EReal) := by
  rw [Ideal.div_coe hN, ← EReal.coe_mul, mul_one_div]

/-! ## The variance identity -/

section Variance
variable {ι : Type} [Fintype ι]

/-- The mean of the family r over a divisor N: (∑ r) / N. -/
def mean (r : ι → ℝ) (N : ℝ) : ℝ := (∑ i, r i) / N

/-- The centred second moment: (∑ (r - mean)²) / N. -/
def varCentered (r : ι → ℝ) (N : ℝ) : ℝ := (∑ i, (r i - mean r N) * (r i - mean r N)) / N

/-- The raw second moment minus the squared mean: (∑ r²) / N - mean². -/
def varMoment (r : ι → ℝ) (N : ℝ) : ℝ := (∑ i, r i * r i) / N - mean r N * mean r N

/-- Over the reals: when N is the number of terms, the mean of the squared deviations from the mean is the
    mean of the squares minus the square of the mean. -/
theorem varCentered_eq_varMoment (r : ι → ℝ) (N : ℝ) (hN : N ≠ 0) (hcard : (Fintype.card ι : ℝ) = N) :
    varCentered r N = varMoment r N := by
  unfold varCentered varMoment mean
  generalize hS : (∑ i, r i) = S
  have h1 : ∑ i, (r i - S / N) * (r i - S / N)
      = (∑ i, r i * r i) - 2 * (S / N) * S + N * ((S / N) * (S / N)) := by
    have h2 : ∀ i, (r i - S / N) * (r i - S / N) = r i * r i - 2 * (S / N) * r i + (S / N) * (S / N) :=
      fun i => by ring
    simp only [h2]
    rw [Finset.sum_add_distrib, Finset.sum_sub_distrib, ← Finset.mul_sum, hS, Finset.sum_const, Finset.card_univ,
      nsmul_eq_mul, hcard]
  rw [h1]
  field_simp
  ring

/-- The centred second moment is not negative when the divisor is positive. -/
theorem varCentered_nonneg (r : ι → ℝ) (N : ℝ) (hN : 0 < N) : 0 ≤ varCentered r N :=
  div_nonneg (Finset.sum_nonneg fun _ _ => mul_self_nonneg _) hN.le

/-- Hence so is the raw second moment minus the squared mean, when N is the number of terms. -/
theorem varMoment_nonneg (r : ι → ℝ) (N : ℝ) (hN : 0 < N) (hcard : (Fintype.card ι : ℝ) = N) : 0 ≤ varMoment r N := by
  rw [← varCentered_eq_varMoment r N hN.ne' hcard]; exact varCentered_nonneg r N hN

/-- In the extended reals, the ideal quotient by N of the sum of a real family is the mean. -/
theorem div_sum_eq_mean (x : ι → EReal) (r : ι → ℝ) (hx : ∀ i, x i = (r i : EReal)) (N : ℝ) (hN : N ≠ 0) :
    Ideal.div (∑ i, x i) (N : EReal) = ((mean r N : ℝ) : EReal) := by
  rw [sum_eq_coe _ x r fun i _ => hx i, div_coe_coe _ _ hN]; rfl

/-- In the extended reals, with m the mean: the ideal quotient by N of the sum of (x - m) * (x - m) is the
    centred second moment. -/
theorem div_sum_centered (x : ι → EReal) (r : ι → ℝ) (hx : ∀ i, x i = (r i : EReal)) (N : ℝ) (hN : N ≠ 0)
    (m : EReal) (hm : m = ((mean r N : ℝ) : EReal)) :
    Ideal.div (∑ i, (x i - m) * (x i - m)) (N : EReal) = ((varCentered r N : ℝ) : EReal) := by
  subst hm
  rw [sum_eq_coe _ _ (fun i => (r i - mean r N) * (r i - mean r N)) fun i _ => by
    rw [hx i, ← EReal.coe_sub, ← EReal.coe_mul], div_coe_coe _ _ hN]
  rfl

/-- In the extended reals, with m the mean: the ideal quotient by N of the sum of x * x, minus m * m, is the
    raw second moment minus the squared mean. -/
theorem div_sum_sq_sub (x : ι → EReal) (r : ι → ℝ) (hx : ∀ i, x i = (r i : EReal)) (N : ℝ) (hN : N ≠ 0)
    (m : EReal) (hm : m = ((mean r N : ℝ) : EReal)) :
    Ideal.div (∑ i, x i * x i) (N : EReal) - m * m = ((varMoment r N : ℝ) : EReal) := by
  subst hm
  rw [sum_eq_coe _ _ (fun i => r i * r i) fun i _ => by rw [hx i, ← EReal.coe_mul], div_coe_coe _ _ hN,
    ← EReal.coe_mul, ← EReal.coe_sub]
  rfl

/-- THE VARIANCE IDENTITY in the extended reals, for a family of reals, N the number of terms, m the mean
    (∑ x) / N:   (∑ (x - m) * (x - m)) / N  =  (∑ x * x) / N  -  m * m. -/
theorem variance_identity (x : ι → EReal) (r : ι → ℝ) (hx : ∀ i, x i = (r i : EReal)) (N : ℝ) (hN : N ≠ 0)
    (hcard : (Fintype.card ι : ℝ) = N) (m : EReal) (hm : m = Ideal.div (∑ i, x i) (N : EReal)) :
    Ideal.div (∑ i, (x i - m) * (x i - m)) (N : EReal) = Ideal.div (∑ i, x i * x i) (N : EReal) - m * m := by
  have hm' : m = ((mean r N : ℝ) : EReal) := hm.trans (div_sum_eq_mean x r hx N hN)
  rw [div_sum_centered x r hx N hN m hm', div_sum_sq_sub x r hx N hN m hm', varCentered_eq_varMoment r N hN hcard]

end Variance

/-! ## Arrays of real numbers -/

/-- Every element of the array is a real number (neither infinity). -/
def IsReal {ι : Type} (x : ι → EReal) : Prop := ∀ i, ∃ r : ℝ, x i = (r : EReal)

/-- An array of reals is the coercion of a real array. -/
theorem IsReal.exists_fun {ι : Type} {x : ι → EReal} (hx : IsReal x) : ∃ r : ι → ℝ, ∀ i, x i = (r i : EReal) :=
  ⟨fun i => (hx i).choose, fun i => (hx i).choose_spec⟩

/-- An extended real is a real number exactly when it is neither infinity. -/
theorem real_iff_ne (a : EReal) : (∃ r : ℝ, a = (r : EReal)) ↔ a ≠ ⊤ ∧ a ≠ ⊥ := by
  constructor
  · rintro ⟨r, rfl⟩; exact ⟨EReal.coe_ne_top r, EReal.coe_ne_bot r⟩
  · rintro ⟨ht, hb⟩
    induction a using EReal.rec with
    | bot => exact absurd rfl hb
    | top => exact absurd rfl ht
    | coe r => exact ⟨r, rfl⟩

/-! ### Elementwise -/

/-- The sum of two reals is a real. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb; exact ⟨p + q, (EReal.coe_add p q).symm⟩

/-- The difference of two reals is a real. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb; exact ⟨p - q, (EReal.coe_sub p q).symm⟩

/-- The product of two reals is a real. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb; exact ⟨p * q, (EReal.coe_mul p q).symm⟩

/-- The maximum of two reals is a real: the real maximum. -/
theorem coe_max' (p q : ℝ) : max (p : EReal) (q : EReal) = ((max p q : ℝ) : EReal) := by
  rcases le_total p q with h | h
  · rw [max_eq_right h, max_eq_right (EReal.coe_le_coe_iff.mpr h)]
  · rw [max_eq_left h, max_eq_left (EReal.coe_le_coe_iff.mpr h)]

/-- The maximum of two reals is a real. -/
theorem real_max {a b : EReal} (ha : ∃ r : ℝ, a = (r : EReal)) (hb : ∃ r : ℝ, b = (r : EReal)) :
    ∃ r : ℝ, max a b = (r : EReal) := by
  obtain ⟨p, rfl⟩ := ha; obtain ⟨q, rfl⟩ := hb; exact ⟨max p q, coe_max' p q⟩

/-- The maximum of a real and zero is a real that is not negative. -/
theorem real_max_zero_nonneg {a : EReal} (ha : ∃ r : ℝ, a = (r : EReal)) :
    ∃ r : ℝ, 0 ≤ r ∧ max a 0 = (r : EReal) := by
  obtain ⟨p, rfl⟩ := ha
  exact ⟨max p 0, le_max_right _ _, by rw [← EReal.coe_zero, coe_max']⟩

/-- The ideal quotient of a real by a real that is not zero is a real. -/
theorem real_div {a b : EReal} (ha : ∃ r : ℝ, a = (r : EReal)) (hb : ∃ r : ℝ, r ≠ 0 ∧ b = (r : EReal)) :
    ∃ r : ℝ, Ideal.div a b = (r : EReal) := by
  obtain ⟨p, rfl⟩ := ha; obtain ⟨q, hq, rfl⟩ := hb; exact ⟨p / q, div_coe_coe p q hq⟩

/-- The ideal reciprocal square root of a positive real is the positive real 1 / √p. -/
theorem rsqrt_coe_pos {p : ℝ} (hp : 0 < p) : Ideal.rsqrt (p : EReal) = (((Real.sqrt p)⁻¹ : ℝ) : EReal) := by
  rw [Ideal.rsqrt_coe, if_neg (not_lt.mpr hp.le), if_neg hp.ne']

/-- The ideal reciprocal square root of a positive real is a positive real. -/
theorem real_rsqrt {a : EReal} (ha : ∃ r : ℝ, 0 < r ∧ a = (r : EReal)) :
    ∃ r : ℝ, 0 < r ∧ Ideal.rsqrt a = (r : EReal) := by
  obtain ⟨p, hp, rfl⟩ := ha
  exact ⟨(Real.sqrt p)⁻¹, inv_pos.mpr (Real.sqrt_pos.mpr hp), rsqrt_coe_pos hp⟩

/-- A real that is not negative plus a positive real is a positive real. -/
theorem real_add_pos {a b : EReal} (ha : ∃ r : ℝ, 0 ≤ r ∧ a = (r : EReal)) (hb : ∃ r : ℝ, 0 < r ∧ b = (r : EReal)) :
    ∃ r : ℝ, 0 < r ∧ a + b = (r : EReal) := by
  obtain ⟨p, hp, rfl⟩ := ha; obtain ⟨q, hq, rfl⟩ := hb
  exact ⟨p + q, add_pos_of_nonneg_of_pos hp hq, (EReal.coe_add p q).symm⟩

/-- A finite sum of reals is a real. -/
theorem real_sum {κ : Type} (s : Finset κ) (x : κ → EReal) (h : ∀ i ∈ s, ∃ r : ℝ, x i = (r : EReal)) :
    ∃ r : ℝ, ∑ i ∈ s, x i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-! ### Arrays: re-indexings -/

section Arrays
variable {ι κ : Type} {s t : Shape} {φ : FTy}

/-- Reading an array of reals through any map of indices gives an array of reals: every broadcast,
    reshape, slice, transpose and gather is of this form. -/
theorem IsReal.comp {x : ι → EReal} (hx : IsReal x) (f : κ → ι) : IsReal (fun j => x (f j)) := fun j => hx (f j)

/-- A constant array whose one value is a real is an array of reals. -/
theorem IsReal.const {a : EReal} (ha : ∃ r : ℝ, a = (r : EReal)) : IsReal (fun _ : ι => a) := fun _ => ha

/-- A gather of an array of reals is an array of reals, whatever the index array. -/
theorem IsReal.gather {si : Shape} {w : Nat} (d : GatherDims s si t) {x : s.Idx → EReal} (hx : IsReal x)
    (idx : IVec si w) : IsReal (Host.gather d x idx) := fun _ => hx _

/-- A broadcast along stated axes of an array of reals is an array of reals. -/
theorem IsReal.broadcastInDim {x : s.Idx → EReal} (hx : IsReal x) (t : Shape) (dims : Fin s.rank → Fin t.rank)
    (h : s.BroadcastsInDim t dims) : IsReal (broadcastInDim t dims h x) := fun _ => hx _

/-- A trailing-axes broadcast of an array of reals is an array of reals. -/
theorem IsReal.broadcastTo {x : s.Idx → EReal} (hx : IsReal x) (t : Shape) (h : s.Broadcasts t) :
    IsReal (broadcastTo t x h) := fun _ => hx _

/-- The splat of a real is an array of reals. -/
theorem IsReal.broadcast {a : EReal} (ha : ∃ r : ℝ, a = (r : EReal)) (t : Shape) : IsReal (broadcast t a) := fun _ => ha

/-- A reshape of an array of reals is an array of reals. -/
theorem IsReal.shapeCast {x : s.Idx → EReal} (hx : IsReal x) (t : Shape) (h : s.ShapeCasts t) :
    IsReal (shapeCast t x h) := fun _ => hx _

/-- A slice of an array of reals is an array of reals. -/
theorem IsReal.extractStridedSlice {x : s.Idx → EReal} (hx : IsReal x) (t : Shape) (off : Fin s.rank → Nat)
    (h : s.Slices off t) : IsReal (extractStridedSlice t off x h) := fun _ => hx _

/-- An elementwise choice between two arrays of reals is an array of reals. -/
theorem IsReal.select (c : IVec s 1) {a b : s.Idx → EReal} (ha : IsReal a) (hb : IsReal b) : IsReal (select c a b) := by
  intro i
  show ∃ r : ℝ, (if c i = 1 then a i else b i) = (r : EReal)
  split
  · exact ha i
  · exact hb i

/-! ### Arrays: arithmetic -/

/-- The elementwise sum of two arrays of reals is an array of reals. -/
theorem IsReal.addf {x y : FVec Ideal s φ} (hx : IsReal x) (hy : IsReal y) : IsReal (addf x y) :=
  fun i => real_add (hx i) (hy i)

/-- The elementwise difference of two arrays of reals is an array of reals. -/
theorem IsReal.subf {x y : FVec Ideal s φ} (hx : IsReal x) (hy : IsReal y) : IsReal (subf x y) :=
  fun i => real_sub (hx i) (hy i)

/-- The elementwise product of two arrays of reals is an array of reals. -/
theorem IsReal.mulf {x y : FVec Ideal s φ} (hx : IsReal x) (hy : IsReal y) : IsReal (mulf x y) :=
  fun i => real_mul (hx i) (hy i)

/-- The elementwise maximum of two arrays of reals is an array of reals. -/
theorem IsReal.maximumf {x y : FVec Ideal s φ} (hx : IsReal x) (hy : IsReal y) : IsReal (maximumf x y) :=
  fun i => real_max (hx i) (hy i)

/-- An integer converted to a float is a real: the integer. -/
theorem IsReal.sitofp {w : Nat} (φ : FTy) (x : IVec s w) : IsReal (sitofp (F := Ideal) φ x) :=
  fun i => ⟨((x i).toInt : ℝ), rfl⟩

/-- The integer zero converted to a float is the real zero. -/
theorem sitofp_zero (φ : FTy) (x : IVec s 32) (hx : ∀ i, x i = 0#32) : sitofp (F := Ideal) φ x = fun _ => (0 : EReal) := by
  funext i
  show (((x i).toInt : ℝ) : EReal) = 0
  rw [hx i]; simp

/-- The host's elementwise quotient of an array of reals by an array of reals none of which is zero is an
    array of reals. -/
theorem IsReal.host_divf {x y : FVec Ideal s φ} (hx : IsReal x) (hy : ∀ i, ∃ r : ℝ, r ≠ 0 ∧ y i = (r : EReal)) :
    IsReal (Host.divf x y) := fun i => real_div (hx i) (hy i)

/-- The kernel's elementwise quotient likewise. -/
theorem IsReal.divf {x y : FVec Ideal s φ} (hx : IsReal x) (hy : ∀ i, ∃ r : ℝ, r ≠ 0 ∧ y i = (r : EReal)) :
    IsReal (divf x y) := fun i => real_div (hx i) (hy i)

/-- Every element of the array is a positive real. -/
def IsPos {ι : Type} (x : ι → EReal) : Prop := ∀ i, ∃ r : ℝ, 0 < r ∧ x i = (r : EReal)

/-- Every element of the array is a real that is not negative. -/
def IsNonneg {ι : Type} (x : ι → EReal) : Prop := ∀ i, ∃ r : ℝ, 0 ≤ r ∧ x i = (r : EReal)

/-- Positive reals are reals. -/
theorem IsPos.isReal {x : ι → EReal} (hx : IsPos x) : IsReal x := fun i => (hx i).imp fun _ h => h.2

/-- Reals that are not negative are reals. -/
theorem IsNonneg.isReal {x : ι → EReal} (hx : IsNonneg x) : IsReal x := fun i => (hx i).imp fun _ h => h.2

/-- Positive reals are not zero. -/
theorem IsPos.ne_zero {x : ι → EReal} (hx : IsPos x) : ∀ i, ∃ r : ℝ, r ≠ 0 ∧ x i = (r : EReal) :=
  fun i => (hx i).imp fun _ h => ⟨h.1.ne', h.2⟩

/-- Reading positive reals through any map of indices gives positive reals. -/
theorem IsPos.comp {x : ι → EReal} (hx : IsPos x) (f : κ → ι) : IsPos (fun j => x (f j)) := fun j => hx (f j)

/-- Reading reals that are not negative through any map of indices gives reals that are not negative. -/
theorem IsNonneg.comp {x : ι → EReal} (hx : IsNonneg x) (f : κ → ι) : IsNonneg (fun j => x (f j)) := fun j => hx (f j)

/-- An array of reals that are not negative plus an array of positive reals is an array of positive reals. -/
theorem IsPos.addf {x y : FVec Ideal s φ} (hx : IsNonneg x) (hy : IsPos y) : IsPos (addf x y) :=
  fun i => real_add_pos (hx i) (hy i)

/-- The maximum of an array of reals with the zero array is an array of reals that are not negative. -/
theorem IsNonneg.maximumf_zero {x y : FVec Ideal s φ} (hx : IsReal x) (hy : ∀ i, y i = 0) : IsNonneg (maximumf x y) := by
  intro i
  show ∃ r : ℝ, 0 ≤ r ∧ max (x i) (y i) = (r : EReal)
  rw [hy i]; exact real_max_zero_nonneg (hx i)

/-- The host's reciprocal square root of an array of positive reals is an array of positive reals. -/
theorem IsPos.host_rsqrt {x : FVec Ideal s φ} (hx : IsPos x) : IsPos (Host.rsqrt x) := fun i => real_rsqrt (hx i)

/-- The kernel's reciprocal square root of an array of positive reals is an array of positive reals. -/
theorem IsPos.rsqrt {x : FVec Ideal s φ} (hx : IsPos x) : IsPos (rsqrt x) := fun i => real_rsqrt (hx i)

/-- At the ideal values the host's reciprocal square root and the kernel's are one function. -/
theorem host_rsqrt_eq_rsqrt (x : FVec Ideal s φ) : Host.rsqrt x = rsqrt x := rfl

/-- At the ideal values the host's quotient and the kernel's are one function. -/
theorem host_divf_eq_divf (x y : FVec Ideal s φ) : Host.divf x y = divf x y := rfl

/-! ### Arrays: sums -/

/-- The host's float sum of an array of reals from a real initial value is an array of reals. -/
theorem IsReal.hostReduceAdd {axes : List (Fin s.rank)} (h : s.ReducesTo axes t) {x : s.Idx → EReal} (hx : IsReal x)
    {init : EReal} (hinit : ∃ r : ℝ, init = (r : EReal)) : IsReal (Ideal.hostReduceAdd h x init) :=
  fun _ => real_add hinit (real_sum _ _ fun i _ => hx i)

/-- The same for the host reduction as a program spells it. -/
theorem IsReal.host_reduceAdd {axes : List (Fin s.rank)} {u : Shape} {x : FVec Ideal s φ} (hx : IsReal x)
    {init : u.Idx → Ideal φ} (hinit : IsReal init) (h : s.ReducesTo axes t) (hu : 0 < u.numel) :
    IsReal (Host.reduceAdd x init h hu) :=
  fun _ => real_add (hinit _) (real_sum _ _ fun i _ => hx i)

/-- A kernel's sum reduction of an array of reals is an array of reals. -/
theorem IsReal.reduceAdd {axes : List (Fin s.rank)} (h : s.Reduces axes t) {x : s.Idx → EReal} (hx : IsReal x) :
    IsReal (Ideal.reduceAdd h x) :=
  fun _ => real_sum _ _ fun i _ => hx i

/-- The same for the reduction as a program spells it. -/
theorem IsReal.multiReduction_add {axes : List (Fin s.rank)} {x : FVec Ideal s φ} (hx : IsReal x) (acc : BitVec φ.bits)
    (h : s.Reduces axes t) (hφ : FKind.Formats φ) (hacc : acc = FKind.add.neutral φ hφ) :
    IsReal (multiReduction .add axes t x acc h hφ hacc) := by
  have e : multiReduction .add axes t x acc h hφ hacc = Ideal.reduceAdd h x := rfl
  rw [e]; exact IsReal.reduceAdd h hx

/-- The host's accumulating scatter of real updates into an array of reals is an array of reals, whatever
    the index array: each element is its old value plus a finite sum of updates. -/
theorem IsReal.hostScatterAdd {si su : Shape} (d : ScatterDims s si su) {w : Nat} {x : s.Idx → EReal} (hx : IsReal x)
    (idx : IVec si w) {upd : su.Idx → EReal} (hupd : IsReal upd) : IsReal (Ideal.hostScatterAdd d x idx upd) :=
  fun i => real_add (hx i) (real_sum _ _ fun j _ => hupd j)

/-- The same for the scatter as a program spells it. -/
theorem IsReal.host_scatterAdd {si u : Shape} {w : Nat} (d : ScatterDims s si u) {x : FVec Ideal s φ} (hx : IsReal x)
    (idx : IVec si w) {upd : FVec Ideal u φ} (hupd : IsReal upd) : IsReal (Host.scatterAdd d x idx upd) :=
  fun i => real_add (hx i) (real_sum _ _ fun j _ => hupd j)

/-- The host's matrix product of two arrays of reals is an array of reals: each element is a finite sum of
    products. -/
theorem IsReal.host_dotGeneral {sl sr so : Shape} {φ₁ φ₂ : FTy} (d : DotDims sl sr so) (prec : Option ContractPrecision)
    {l : FVec Ideal sl φ₁} {r : FVec Ideal sr φ₂} (hl : IsReal l) (hr : IsReal r) : IsReal (Host.dotGeneral d prec l r) := by
  intro j
  show ∃ p : ℝ, FloatOps.dotGeneral d prec .single l r j = (p : EReal)
  rw [Ideal.dotGeneral_apply]
  exact real_sum _ _ fun k _ => real_mul (hl _) (hr _)

/-- The kernel's matrix product of two arrays of reals onto a real accumulator is an array of reals. -/
theorem IsReal.matmul {sl sr so : Shape} {φ₁ φ₂ : FTy} (d : DotDims sl sr so) (prec : Option ContractPrecision)
    {l : FVec Ideal sl φ₁} {r : FVec Ideal sr φ₂} {acc : FVec Ideal so .f32} (hl : IsReal l) (hr : IsReal r)
    (hacc : IsReal acc) : IsReal (matmul d prec l r acc) := by
  intro j
  show ∃ p : ℝ, FloatOps.matmul d prec l r acc j = (p : EReal)
  rw [Ideal.matmul_apply]
  exact real_add (hacc j) (real_sum _ _ fun k _ => real_mul (hl _) (hr _))

end Arrays

/-! ## The float constants, as the reals their patterns denote -/

/-- The pattern of +0.0 denotes 0. -/
theorem ofBits_zero : Ideal.ofBits .f32 0x00000000#32 = 0 := by
  simp [Ideal.ofBits, Ideal.ieee]

/-- The pattern 0x47435000 denotes the real 50000. -/
theorem ofBits_50000 : Ideal.ofBits .f32 0x47435000#32 = ((50000 : ℝ) : EReal) := by
  simp [Ideal.ofBits, Ideal.ieee, -EReal.coe_mul]; norm_num

/-- The pattern 0x3727C5AC denotes the real 10995116 / 2 ^ 40 (about 1e-5). -/
theorem ofBits_eps_val : Ideal.ofBits .f32 0x3727C5AC#32 = (((10995116 : ℝ) / 2 ^ 40 : ℝ) : EReal) := by
  simp [Ideal.ofBits, Ideal.ieee, -EReal.coe_mul]; norm_num

/-- The pattern 0x3727C5AC denotes a positive real. -/
theorem ofBits_eps : ∃ ε : ℝ, 0 < ε ∧ Ideal.ofBits .f32 0x3727C5AC#32 = (ε : EReal) :=
  ⟨(10995116 : ℝ) / 2 ^ 40, by positivity, ofBits_eps_val⟩

/-- The quiet-NaN pattern denotes the bottom element. -/
theorem ofBits_nan : Ideal.ofBits .f32 0x7FC00000#32 = ⊥ := by
  simp [Ideal.ofBits, Ideal.ieee]

/-- The pattern of +∞ denotes the top element. -/
theorem ofBits_inf : Ideal.ofBits .f32 0x7F800000#32 = ⊤ := by
  simp [Ideal.ofBits, Ideal.ieee]

section Constants
variable (s : Shape)

/-- The splat of +0.0 is the zero array. -/
theorem constant_zero : (constant s .f32 0x00000000#32 : FVec Ideal s .f32) = fun _ => (0 : EReal) :=
  funext fun _ => ofBits_zero

/-- The splat of 0x47435000 is the array of the real 50000. -/
theorem constant_50000 : (constant s .f32 0x47435000#32 : FVec Ideal s .f32) = fun _ => ((50000 : ℝ) : EReal) :=
  funext fun _ => ofBits_50000

/-- The splat of 0x3727C5AC is the array of the positive real 10995116 / 2 ^ 40. -/
theorem constant_eps :
    (constant s .f32 0x3727C5AC#32 : FVec Ideal s .f32) = fun _ => (((10995116 : ℝ) / 2 ^ 40 : ℝ) : EReal) :=
  funext fun _ => ofBits_eps_val

/-- The splat of +0.0 is an array of reals. -/
theorem isReal_constant_zero : IsReal (constant s .f32 0x00000000#32 : FVec Ideal s .f32) :=
  fun _ => ⟨0, ofBits_zero⟩

/-- The splat of 0x47435000 is an array of reals. -/
theorem isReal_constant_50000 : IsReal (constant s .f32 0x47435000#32 : FVec Ideal s .f32) :=
  fun _ => ⟨50000, ofBits_50000⟩

/-- The splat of 0x47435000 is an array of positive reals. -/
theorem isPos_constant_50000 : IsPos (constant s .f32 0x47435000#32 : FVec Ideal s .f32) :=
  fun _ => ⟨50000, by norm_num, ofBits_50000⟩

/-- The splat of 0x3727C5AC is an array of positive reals. -/
theorem isPos_constant_eps : IsPos (constant s .f32 0x3727C5AC#32 : FVec Ideal s .f32) :=
  fun _ => ofBits_eps

/-- The splat of 0x3727C5AC is an array of reals. -/
theorem isReal_constant_eps : IsReal (constant s .f32 0x3727C5AC#32 : FVec Ideal s .f32) :=
  (isPos_constant_eps s).isReal

end Constants

/-- A positive real is greater than zero in the ideal comparison. -/
theorem cmp_ogt_zero_of_pos {p : ℝ} (hp : 0 < p) : Ideal.cmp .ogt (p : EReal) 0 = 1#1 := by
  have h : (0 : EReal) < (p : EReal) := by exact_mod_cast hp
  simp [Ideal.cmp, h]

/-! ## Regrouping a sum over rows by blocks

A sum over a * b rows is the sum, over a blocks, of the sums over the b rows of each block; row y of block t is
row b * t + y.  Nothing here is about the extended reals: any additive commutative monoid. -/

section Blocks
variable {M : Type} [AddCommMonoid M]

/-- Row y of block t is a row: b * t + y < a * b. -/
theorem block_lt {a b : ℕ} (t : Fin a) (y : Fin b) : b * t.val + y.val < a * b := by
  have h1 := t.isLt
  have h2 := y.isLt
  calc b * t.val + y.val < b * t.val + b := by omega
    _ = b * (t.val + 1) := by ring
    _ ≤ b * a := Nat.mul_le_mul_left _ h1
    _ = a * b := Nat.mul_comm _ _

/-- The sum over all a * b rows, regrouped by blocks, for ANY spelling g of "row y of block t" whose value is
    b * t + y. -/
theorem sum_blocks_of (a b : ℕ) (f : Fin (a * b) → M) (g : Fin a → Fin b → Fin (a * b))
    (hg : ∀ t y, (g t y).val = b * t.val + y.val) :
    ∑ t : Fin a, ∑ y : Fin b, f (g t y) = ∑ i : Fin (a * b), f i := by
  rw [← Equiv.sum_comp finProdFinEquiv f, Fintype.sum_prod_type]
  refine Finset.sum_congr rfl fun t _ => Finset.sum_congr rfl fun y _ => congrArg f (Fin.ext ?_)
  rw [hg, finProdFinEquiv_apply_val, Nat.add_comm]

/-- The same with the canonical spelling of the row. -/
theorem sum_blocks (a b : ℕ) (f : Fin (a * b) → M) :
    ∑ t : Fin a, ∑ y : Fin b, f ⟨b * t.val + y.val, block_lt t y⟩ = ∑ i : Fin (a * b), f i :=
  sum_blocks_of a b f (fun t y => ⟨b * t.val + y.val, block_lt t y⟩) fun _ _ => rfl

/-- One more block: the sum over the first n + 1 blocks is the sum over the first n plus block n. -/
theorem sum_range_step (B : ℕ → M) (n : ℕ) :
    ∑ t ∈ Finset.range (n + 1), B t = (∑ t ∈ Finset.range n, B t) + B n :=
  Finset.sum_range_succ B n

/-- A running total that starts at zero and adds block n at step n is, after n steps, the sum of the first n
    blocks (for the steps up to a bound a). -/
theorem running_total_eq_sum (W B : ℕ → M) (a : ℕ) (h0 : W 0 = 0) (hs : ∀ n, n < a → W (n + 1) = W n + B n) :
    ∀ n, n ≤ a → W n = ∑ t ∈ Finset.range n, B t := by
  intro n
  induction n with
  | zero => intro _; rw [h0, Finset.range_zero, Finset.sum_empty]
  | succ n ih => intro hn; rw [hs n hn, ih (Nat.le_of_succ_le hn), Finset.sum_range_succ]

/-- The block sums B 0, …, B (a - 1), each the sum over its block's rows, add up to the sum over all rows. -/
theorem sum_range_blocks_of (a b : ℕ) (f : Fin (a * b) → M) (g : Fin a → Fin b → Fin (a * b))
    (hg : ∀ t y, (g t y).val = b * t.val + y.val) (B : ℕ → M) (hB : ∀ t : Fin a, B t.val = ∑ y : Fin b, f (g t y)) :
    ∑ t ∈ Finset.range a, B t = ∑ i : Fin (a * b), f i := by
  rw [← Fin.sum_univ_eq_sum_range, ← sum_blocks_of a b f g hg]
  exact Finset.sum_congr rfl fun t _ => hB t

/-- Ten blocks of five thousand rows: the sum over the 50000 rows regrouped. -/
theorem sum_blocks_10_5000 (f : Fin 50000 → M) (g : Fin 10 → Fin 5000 → Fin 50000)
    (hg : ∀ t y, (g t y).val = 5000 * t.val + y.val) :
    ∑ t : Fin 10, ∑ y : Fin 5000, f (g t y) = ∑ i : Fin 50000, f i :=
  sum_blocks_of 10 5000 f g hg

/-- Ten block sums add up to the sum over the 50000 rows. -/
theorem sum_range_blocks_10_5000 (f : Fin 50000 → M) (g : Fin 10 → Fin 5000 → Fin 50000)
    (hg : ∀ t y, (g t y).val = 5000 * t.val + y.val) (B : ℕ → M)
    (hB : ∀ t : Fin 10, B t.val = ∑ y : Fin 5000, f (g t y)) :
    ∑ t ∈ Finset.range 10, B t = ∑ i : Fin 50000, f i :=
  sum_range_blocks_of 10 5000 f g hg B hB

end Blocks

end Cert.LibReal

end
-- ==== Proof.Algebra.lean ====
/-
  Real arithmetic for the normalisation stage, on the extended reals where every entry is a real number.
  * The patterns 0x47C35000 and 0x3F800000 denote 100000 and 1.
  * A sum over 100000 rows regrouped as 25 tiles of 4000 rows.
  * THE NORMALISATION BRIDGE. For a column x of N reals with mean μ = (∑ x) / N, the two spellings
        ((x i − μ) · rsqrt(v₁ + ε)) · γ + β      with v₁ = (∑ (x − μ)²) / N      (deviations first)
        x i · (γ · rsqrt(v₂ + ε)) + (β − (μ · γ) · rsqrt(v₂ + ε))   with v₂ = (∑ x²) / N − μ²   (moments first)
    agree: v₁ = v₂ (the mean of the squared deviations is the mean of the squares minus the squared mean), the
    common value is a real that is not negative, so rsqrt(v + ε) is a positive real, and the rest is
    distributivity among reals.
  * 1 / (1 + exp(−z)) with the ones as float patterns is the logistic function.
-/
import proofs.«116086_j16767552323790_2_alg».proof.Proof.LibReal

noncomputable section

namespace Cert.Algebra

open Idealize.ShloMosaic Cert.LibReal
open scoped BigOperators

/-- The pattern 0x47C35000 denotes the real 100000. -/
theorem ofBits_100000 : Ideal.ofBits .f32 0x47C35000#32 = ((100000 : ℝ) : EReal) := by
  simp [Ideal.ofBits, Ideal.ieee, -EReal.coe_mul]; norm_num

/-- The pattern 0x3F800000 denotes 1. -/
theorem ofBits_one : Ideal.ofBits .f32 0x3F800000#32 = (1 : EReal) := by
  simp [Ideal.ofBits, Ideal.ieee, -EReal.coe_mul]; norm_num

/-- Twenty-five tiles of four thousand rows: the sum over the 100000 rows regrouped. -/
theorem sum_blocks_25_4000 {M : Type} [AddCommMonoid M] (f : Fin 100000 → M) (g : Fin 25 → Fin 4000 → Fin 100000)
    (hg : ∀ t y, (g t y).val = 4000 * t.val + y.val) :
    ∑ t : Fin 25, ∑ y : Fin 4000, f (g t y) = ∑ i : Fin 100000, f i :=
  sum_blocks_of 25 4000 f g hg

/-- The normalisation bridge, one entry of one column. -/
theorem bn_bridge {ι : Type} [Fintype ι] (x : ι → EReal) (hx : IsReal x) (N : ℝ) (hN : 0 < N)
    (hcard : (Fintype.card ι : ℝ) = N) (ε : ℝ) (hε : 0 < ε) (γ β : EReal)
    (hγ : ∃ g : ℝ, γ = (g : EReal)) (hβ : ∃ b : ℝ, β = (b : EReal)) (μ : EReal)
    (hμ : μ = Ideal.div (∑ k, x k) (N : EReal)) (i : ι) :
    max (((x i - μ) * Ideal.rsqrt (Ideal.div (∑ k, (x k - μ) * (x k - μ)) (N : EReal) + (ε : EReal))) * γ + β) 0
      = max (x i * (γ * Ideal.rsqrt ((Ideal.div (∑ k, x k * x k) (N : EReal) - μ * μ) + (ε : EReal)))
          + (β - (μ * γ) * Ideal.rsqrt ((Ideal.div (∑ k, x k * x k) (N : EReal) - μ * μ) + (ε : EReal)))) 0 := by
  obtain ⟨r, hr⟩ := hx.exists_fun
  have hNne : N ≠ 0 := ne_of_gt hN
  have hμr : μ = ((mean r N : ℝ) : EReal) := hμ.trans (div_sum_eq_mean x r hr N hNne)
  rw [variance_identity x r hr N hNne hcard μ hμ]
  have hv : Ideal.div (∑ k, x k * x k) (N : EReal) - μ * μ = ((varMoment r N : ℝ) : EReal) :=
    div_sum_sq_sub x r hr N hNne μ hμr
  rw [hv]
  obtain ⟨R, _, hR⟩ := real_rsqrt (a := ((varMoment r N : ℝ) : EReal) + (ε : EReal))
    (real_add_pos ⟨_, varMoment_nonneg r N hN hcard, rfl⟩ ⟨ε, hε, rfl⟩)
  obtain ⟨g, rfl⟩ := hγ
  obtain ⟨b, rfl⟩ := hβ
  rw [hR, hμr, hr i]
  simp only [← EReal.coe_mul, ← EReal.coe_add, ← EReal.coe_sub]
  exact congrArg (fun a : ℝ => max (a : EReal) 0) (by ring)

/-- The common variance is a real that is not negative, so the reciprocal root of variance plus ε is a
    positive real. -/
theorem rstd_pos {ι : Type} [Fintype ι] (x : ι → EReal) (hx : IsReal x) (N : ℝ) (hN : 0 < N)
    (hcard : (Fintype.card ι : ℝ) = N) (ε : ℝ) (hε : 0 < ε) (μ : EReal)
    (hμ : μ = Ideal.div (∑ k, x k) (N : EReal)) :
    ∃ R : ℝ, 0 < R ∧ Ideal.rsqrt (Ideal.div (∑ k, (x k - μ) * (x k - μ)) (N : EReal) + (ε : EReal)) = (R : EReal) := by
  obtain ⟨r, hr⟩ := hx.exists_fun
  have hNne : N ≠ 0 := ne_of_gt hN
  have hμr : μ = ((mean r N : ℝ) : EReal) := hμ.trans (div_sum_eq_mean x r hr N hNne)
  rw [div_sum_centered x r hr N hNne μ hμr]
  exact real_rsqrt (real_add_pos ⟨_, varCentered_nonneg r N hN, rfl⟩ ⟨ε, hε, rfl⟩)

/-- 1 / (1 + exp(−z)), the ones given as float patterns, is the logistic function. -/
theorem logistic_bridge (z : EReal) :
    Ideal.div (Ideal.ofBits .f32 0x3F800000#32) (Ideal.ofBits .f32 0x3F800000#32 + Ideal.exp (-z)) = Ideal.logistic z := by
  rw [ofBits_one]; rfl

end Cert.Algebra

end
-- ==== Proof.LibBiasRows.lean ====
/-
  A vector as a one-row matrix: the bias of a dense layer.

  A bias vector of length C enters a dense layer as the one-row matrix [1, C], either by a reshape or by a broadcast
  that is then broadcast again over the R rows of the layer's output. Read at an entry, both are the vector at the
  entry's column.
-/
import Idealize.ShloMosaic.Lib.ValueIdx
import Idealize.ShloMosaic.Lib.Pipeline.Value

noncomputable section

namespace Cert.Lib.BiasRows

open Idealize.ShloMosaic Idealize.ShloMosaic.ValueIdx

/-- The row coordinate of an index of a two-axis array, at its literal extent. -/
abbrev rowOf {R C : Nat} (i : (⟨2, ![R, C]⟩ : Shape).Idx) : Fin R := ⟨(i 0).val, (i 0).isLt⟩
/-- The column coordinate of an index of a two-axis array, at its literal extent. -/
abbrev colOf {R C : Nat} (i : (⟨2, ![R, C]⟩ : Shape).Idx) : Fin C := ⟨(i 1).val, (i 1).isLt⟩

/-- A vector as a one-row matrix. -/
def asRow {α : Type} {C : Nat} (b : (⟨1, ![C]⟩ : Shape).Idx → α) : (⟨2, ![1, C]⟩ : Shape).Idx → α :=
  fun i => b (ix1 (colOf i))

/-- Reshaping a vector of length C to [1, C] gives that one-row matrix. -/
theorem reshape_row {α : Type} {C : Nat} (b : (⟨1, ![C]⟩ : Shape).Idx → α) (h : (⟨1, ![C]⟩ : Shape).ShapeCasts ⟨2, ![1, C]⟩) :
    shapeCast ⟨2, ![1, C]⟩ b h = asRow b :=
  funext fun i => (shapeCast_addUnit_apply ![C] b h i).trans (congrArg b (funext fun a => by
    match a with
    | ⟨0, _⟩ => rfl))

/-- A vector broadcast to one row and then over R rows, read at (p, q), is the vector at q. -/
theorem bias_rows {α : Type} {R C : Nat} (b : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 b) (ix2 p q) = asRow b (ix2 (0 : Fin 1) q) := by
  have hq : q.val < C := q.isLt
  rw [broadcastInDim_apply ![0, 1] h2 _ (ix2 p q) (ix2 (0 : Fin 1) q) (fun a => by
    match a with
    | ⟨0, _⟩ => show 0 = if (1 : Nat) = 1 then 0 else p.val; rw [if_pos rfl]
    | ⟨1, _⟩ => show q.val = if C = 1 then 0 else q.val; split_ifs <;> omega)]
  rw [broadcastInDim_apply ![1] h1 b (ix2 (0 : Fin 1) q) (ix1 q) (fun a => by
    match a with
    | ⟨0, _⟩ => show q.val = if C = 1 then 0 else q.val; split_ifs <;> omega)]
  rfl

end Cert.Lib.BiasRows

end
-- ==== Proof.BridgeLib.lean ====
/-
  Whole-array host operations read at an index, over the extended reals; program-free, general in the extents.
  * A host matrix product X · Y at (r, j) is ∑ k, X (r, k) · Y (k, j).
  * A length-b vector laid along a rows (first as one row, then down the rows), at (r, j), is the vector at j;
    the vector reshaped to one row, at (0, j), is the vector at j.
  * The host's sum of an [a, b] array over its rows, at j, is the initial value plus ∑ r, x (r, j).
-/
import proofs.«116086_j16767552323790_2_alg».proof.Proof.LibReal
import proofs.«116086_j16767552323790_2_alg».proof.Proof.LibVec
import proofs.«116086_j16767552323790_2_alg».proof.Proof.LibBiasRows
import Idealize.ShloMosaic.Lib.IdealHost
import Idealize.ShloMosaic.Lib.KernelVsHost

noncomputable section

namespace Cert.BridgeLib

open Idealize.ShloMosaic Idealize.ShloMosaic.ValueIdx Cert.LibReal
open scoped BigOperators

/-- A host matrix product at (r, j) is the sum over k of X (r, k) · Y (k, j), for a dimension-numbers record with
    one contracted axis of extent K and the plain operand indices. -/
theorem hostDot_rowcol {n K m : ℕ} {φ₁ φ₂ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (X : FVec Ideal ⟨2, ![n, K]⟩ φ₁) (Y : FVec Ideal ⟨2, ![K, m]⟩ φ₂) (r : Fin n) (j : Fin m) :
    Host.dotGeneral d prec X Y (ix2 r j) = ∑ k : Fin K, X (ix2 r k) * Y (ix2 k j) := by
  rw [← matmul_zero_eq_dotGeneral]
  exact Cert.LibVec.matmul_rowcol d hr hs hl0 hl1 hr0 hr1 prec X Y r j

/-- A vector laid along every row, at (r, j), is the vector at j. -/
theorem rows_apply {α : Type} {R C : ℕ} (b : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 b) (ix2 p q) = b (ix1 q) :=
  Cert.Lib.BiasRows.bias_rows b h1 h2 p q

/-- A vector reshaped to one row, at (0, j), is the vector at j. -/
theorem reshapeRow_apply {α : Type} {C : ℕ} (b : (⟨1, ![C]⟩ : Shape).Idx → α) (h : (⟨1, ![C]⟩ : Shape).ShapeCasts ⟨2, ![1, C]⟩)
    (q : Fin C) : shapeCast ⟨2, ![1, C]⟩ b h (ix2 (0 : Fin 1) q) = b (ix1 q) := by
  rw [Cert.Lib.BiasRows.reshape_row]; rfl

/-- The host's sum of an [a, b] array over its rows, at column j. -/
theorem colSum_apply {a b : ℕ} (x : FVec Ideal ⟨2, ![a, b]⟩ .f32) (init : (⟨0, ![]⟩ : Shape).Idx → Ideal .f32)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (j : Fin b) :
    Host.reduceAdd x init h' hu (ix1 j) = init (Shape.Idx.first hu) + ∑ r : Fin a, x (ix2 r j) := by
  rw [hostReduceAdd_apply, Ideal.hostReduceAdd_single h' h]
  congr 1
  exact Finset.sum_congr rfl fun k _ => congrArg x (by funext c; apply Fin.ext; fin_cases c <;> rfl)

end Cert.BridgeLib

end
-- ==== Proof.Reals.lean ====
/-
  The normalisation stage of the network read entry by entry, and the closure of the real numbers under every
  stage.

  * The count the variance divides by is the real 100000, so the comparison "count > 0" holds and the variance is
    the quotient of the column sums of the squared deviations by the count.
  * At column j, with N = 100000: the mean is (∑ r, h (r, j)) / N; the variance is
    (∑ r, (h (r, j) − mean j)²) / N; the normalised, scaled, shifted and rectified entry at (r, j) is
    max (((h (r, j) − mean j) · rsqrt (var j + ε)) · γ j + β j) 0.
  * Every stage maps arrays of real numbers to arrays of real numbers: sums, products and maxima of reals are
    reals, the variance of a real column is a real that is not negative, so the reciprocal root of variance plus
    the positive ε is a positive real.
-/
import proofs.«116086_j16767552323790_2_alg».proof.Proof.Spec
import proofs.«116086_j16767552323790_2_alg».proof.Proof.LibReal
import proofs.«116086_j16767552323790_2_alg».proof.Proof.Algebra
import proofs.«116086_j16767552323790_2_alg».proof.Proof.BridgeLib

noncomputable section

namespace Cert.Reals

open Idealize.ShloMosaic Idealize.ShloMosaic.ValueIdx
open Cert.ReferenceIdeal Cert.Spec Cert.LibReal
open scoped BigOperators

variable [Cert.ReferenceIdeal.Facts]
open Cert.ReferenceIdeal.Facts₀ Cert.ReferenceIdeal.Facts

/-! ## The count and the choice -/

/-- The count is the real 100000: the pattern of 100000 minus the integer zero. -/
theorem count_val : Spec.count = fun _ => ((100000 : ℝ) : EReal) := by
  funext i
  show Ideal.ofBits .f32 0x47C35000#32 - sitofp (F := Ideal) .f32 (constantI S_ 32 0#32) i = _
  rw [sitofp_zero .f32 (constantI S_ 32 0#32) (fun _ => rfl), Cert.Algebra.ofBits_100000]
  exact sub_zero _

/-- The count is positive, so the variance is the quotient branch of the choice. -/
theorem var_eq (h : FVec Ideal S100000x128 .f32) :
    Spec.var h = Host.divf (Spec.colSum (Spec.sqDev h)) (broadcastInDim S128 ![] bcast_S_S128 Spec.count) := by
  funext i
  unfold Spec.var
  rw [select_apply]
  have hc : broadcastInDim S128 ![] bcast_S_S128
      (cmpf .ogt Spec.count (constant (F := Ideal) S_ .f32 0x00000000#32)) i = 1#1 := by
    show Ideal.cmp .ogt (Spec.count _) (Ideal.ofBits .f32 0x00000000#32) = 1#1
    rw [count_val, ofBits_zero]
    exact cmp_ogt_zero_of_pos (by norm_num)
  rw [hc, select_one]

/-! ## Reads at an index -/

/-- A one-row matrix laid down R rows, at (p, q), is the row at q. -/
theorem downRows_apply {α : Type} {R C : ℕ} (z : (⟨2, ![1, C]⟩ : Shape).Idx → α)
    (h2 : (⟨2, ![1, C]⟩ : Shape).BroadcastsInDim ⟨2, ![R, C]⟩ ![0, 1]) (p : Fin R) (q : Fin C) :
    broadcastInDim ⟨2, ![R, C]⟩ ![0, 1] h2 z (ix2 p q) = z (ix2 (0 : Fin 1) q) := by
  have hq : q.val < C := q.isLt
  exact broadcastInDim_apply ![0, 1] h2 z (ix2 p q) (ix2 (0 : Fin 1) q) (fun a => by
    match a with
    | ⟨0, _⟩ => show 0 = if (1 : Nat) = 1 then 0 else p.val; rw [if_pos rfl]
    | ⟨1, _⟩ => show q.val = if C = 1 then 0 else q.val; split_ifs <;> omega)

/-- A vector as a one-row matrix, at (0, q), is the vector at q. -/
theorem oneRow_apply {α : Type} {C : ℕ} (b : (⟨1, ![C]⟩ : Shape).Idx → α)
    (h1 : (⟨1, ![C]⟩ : Shape).BroadcastsInDim ⟨2, ![1, C]⟩ ![1]) (q : Fin C) :
    broadcastInDim ⟨2, ![1, C]⟩ ![1] h1 b (ix2 (0 : Fin 1) q) = b (ix1 q) := by
  have hq : q.val < C := q.isLt
  exact broadcastInDim_apply ![1] h1 b (ix2 (0 : Fin 1) q) (ix1 q) (fun a => by
    match a with
    | ⟨0, _⟩ => show q.val = if C = 1 then 0 else q.val; split_ifs <;> omega)

/-- A length-128 vector repeated over the rows, at (r, j), is the vector at j. -/
theorem rows_apply (b : FVec Ideal S128 .f32) (r : Fin 100000) (j : Fin 128) : Spec.rows b (ix2 r j) = b (ix1 j) :=
  Cert.BridgeLib.rows_apply b bcast_S128_S1x128_1 bcast_S1x128_S100000x128_0_1 r j

/-- The column sum at j is the sum down the column: the reduction starts from zero. -/
theorem colSum_apply (h : FVec Ideal S100000x128 .f32) (j : Fin 128) :
    Spec.colSum h (ix1 j) = ∑ r : Fin 100000, h (ix2 r j) := by
  unfold Spec.colSum
  rw [Cert.BridgeLib.colSum_apply h _ reducesTo_S100000x128_S128_d0 (by decide) h_S_ j]
  show Ideal.ofBits .f32 0x00000000#32 + _ = _
  rw [ofBits_zero, zero_add]

/-- The column mean at j. -/
theorem mean_apply (h : FVec Ideal S100000x128 .f32) (j : Fin 128) :
    Spec.mean h (ix1 j) = Ideal.div (∑ r : Fin 100000, h (ix2 r j)) ((100000 : ℝ) : EReal) := by
  show Ideal.div (Spec.colSum h (ix1 j)) (Ideal.ofBits .f32 0x47C35000#32) = _
  rw [colSum_apply, Cert.Algebra.ofBits_100000]

/-- The mean as the squared deviations spell it — the one-row quotient laid down the rows — is the column mean. -/
theorem rowMean_apply (h : FVec Ideal S100000x128 .f32) (r : Fin 100000) (j : Fin 128) :
    broadcastInDim S100000x128 ![0, 1] bcast_S1x128_S100000x128_0_1
      (Host.divf (broadcastInDim S1x128 ![1] bcast_S128_S1x128_1 (Spec.colSum h))
        (broadcastInDim S1x128 ![] bcast_S_S1x128 (constant (F := Ideal) S_ .f32 0x47C35000#32))) (ix2 r j)
      = Spec.mean h (ix1 j) := by
  rw [downRows_apply]
  show Ideal.div (broadcastInDim S1x128 ![1] bcast_S128_S1x128_1 (Spec.colSum h) (ix2 (0 : Fin 1) j))
      (Ideal.ofBits .f32 0x47C35000#32) = Ideal.div (Spec.colSum h (ix1 j)) (Ideal.ofBits .f32 0x47C35000#32)
  rw [oneRow_apply]

/-- The squared deviation at (r, j). -/
theorem sqDev_apply (h : FVec Ideal S100000x128 .f32) (r : Fin 100000) (j : Fin 128) :
    Spec.sqDev h (ix2 r j) = (h (ix2 r j) - Spec.mean h (ix1 j)) * (h (ix2 r j) - Spec.mean h (ix1 j)) := by
  unfold Spec.sqDev
  show (h (ix2 r j) - _) * (h (ix2 r j) - _) = _
  rw [rowMean_apply]

/-- The column variance at j: the mean of the squared deviations from the column mean. -/
theorem var_apply (h : FVec Ideal S100000x128 .f32) (j : Fin 128) :
    Spec.var h (ix1 j) = Ideal.div
      (∑ r : Fin 100000, (h (ix2 r j) - Spec.mean h (ix1 j)) * (h (ix2 r j) - Spec.mean h (ix1 j)))
      ((100000 : ℝ) : EReal) := by
  rw [var_eq]
  show Ideal.div (Spec.colSum (Spec.sqDev h) (ix1 j)) (Spec.count _) = _
  rw [colSum_apply, count_val]
  exact congrArg (fun s => Ideal.div s ((100000 : ℝ) : EReal)) (Finset.sum_congr rfl fun r _ => sqDev_apply h r j)

/-- The normalised, scaled, shifted and rectified entry at (r, j). -/
theorem bnrelu_apply (h : FVec Ideal S100000x128 .f32) (γ β : FVec Ideal S128 .f32) (r : Fin 100000) (j : Fin 128) :
    Spec.bnrelu h γ β (ix2 r j)
      = max (((h (ix2 r j) - Spec.mean h (ix1 j))
              * Ideal.rsqrt (Spec.var h (ix1 j) + Ideal.ofBits .f32 0x3727C5AC#32)) * γ (ix1 j) + β (ix1 j)) 0 := by
  unfold Spec.bnrelu Spec.reluN
  show max (((h (ix2 r j) - Spec.rows (Spec.mean h) (ix2 r j))
      * Spec.rows (Host.rsqrt (addf (Spec.var h)
          (broadcastInDim S128 ![] bcast_S_S128 (constant (F := Ideal) S_ .f32 0x3727C5AC#32)))) (ix2 r j))
      * Spec.rows γ (ix2 r j) + Spec.rows β (ix2 r j)) (Ideal.ofBits .f32 0x00000000#32) = _
  rw [rows_apply, rows_apply, rows_apply, rows_apply, ofBits_zero]
  rfl

/-! ## Every stage keeps the reals -/

/-- The rectifier keeps the reals. -/
theorem reluN_real {x : FVec Ideal S100000x128 .f32} (hx : IsReal x) : IsReal (Spec.reluN x) :=
  IsReal.maximumf hx (IsReal.broadcastInDim (isReal_constant_zero S_) _ _ _)

/-- A real vector repeated over the rows is a real array. -/
theorem rows_real {b : FVec Ideal S128 .f32} (hb : IsReal b) : IsReal (Spec.rows b) :=
  IsReal.broadcastInDim (IsReal.broadcastInDim hb _ _ _) _ _ _

/-- First block's aggregation of real arguments is real: each entry is a finite sum of maxima of finite sums. -/
theorem agg0_real {x : FVec Ideal S100000x32 .f32} {ei : IVec S2x1600000 32} {e : FVec Ideal S1600000x16 .f32}
    {We : FVec Ideal S16x32 .f32} {be : FVec Ideal S32 .f32}
    (hx : IsReal x) (he : IsReal e) (hW : IsReal We) (hb : IsReal be) : IsReal (Spec.agg0 x ei e We be) := by
  unfold Spec.agg0
  exact IsReal.host_scatterAdd _ (IsReal.broadcastInDim (isReal_constant_zero S_) _ _ _) _
    (IsReal.maximumf
      (IsReal.addf (IsReal.addf (IsReal.gather _ hx _) (IsReal.host_dotGeneral _ _ he hW))
        (IsReal.broadcastInDim (IsReal.broadcastInDim hb _ _ _) _ _ _))
      (IsReal.broadcastInDim (isReal_constant_zero S_) _ _ _))

/-- Second block's aggregation likewise. -/
theorem agg1_real {x : FVec Ideal S100000x128 .f32} {ei : IVec S2x1600000 32} {e : FVec Ideal S1600000x16 .f32}
    {We : FVec Ideal S16x128 .f32} {be : FVec Ideal S128 .f32}
    (hx : IsReal x) (he : IsReal e) (hW : IsReal We) (hb : IsReal be) : IsReal (Spec.agg1 x ei e We be) := by
  unfold Spec.agg1
  exact IsReal.host_scatterAdd _ (IsReal.broadcastInDim (isReal_constant_zero S_) _ _ _) _
    (IsReal.maximumf
      (IsReal.addf (IsReal.addf (IsReal.gather _ hx _) (IsReal.host_dotGeneral _ _ he hW))
        (IsReal.broadcastInDim (IsReal.broadcastInDim hb _ _ _) _ _ _))
      (IsReal.broadcastInDim (isReal_constant_zero S_) _ _ _))

/-- First block's perceptron of real operands is real. -/
theorem mlp0_real {x agg : FVec Ideal S100000x32 .f32} {W1 : FVec Ideal S32x128 .f32} {b1 : FVec Ideal S128 .f32}
    {W2 : FVec Ideal S128x128 .f32} {b2 : FVec Ideal S128 .f32}
    (hx : IsReal x) (hagg : IsReal agg) (hW1 : IsReal W1) (hb1 : IsReal b1) (hW2 : IsReal W2) (hb2 : IsReal b2) :
    IsReal (Spec.mlp0 x agg W1 b1 W2 b2) := by
  unfold Spec.mlp0
  exact IsReal.addf
    (IsReal.host_dotGeneral _ _
      (reluN_real (IsReal.addf (IsReal.host_dotGeneral _ _ (IsReal.addf hx hagg) hW1) (rows_real hb1))) hW2)
    (rows_real hb2)

/-- Second block's perceptron of real operands is real. -/
theorem mlp1_real {x agg : FVec Ideal S100000x128 .f32} {W1 : FVec Ideal S128x128 .f32} {b1 : FVec Ideal S128 .f32}
    {W2 : FVec Ideal S128x128 .f32} {b2 : FVec Ideal S128 .f32}
    (hx : IsReal x) (hagg : IsReal agg) (hW1 : IsReal W1) (hb1 : IsReal b1) (hW2 : IsReal W2) (hb2 : IsReal b2) :
    IsReal (Spec.mlp1 x agg W1 b1 W2 b2) := by
  unfold Spec.mlp1
  exact IsReal.addf
    (IsReal.host_dotGeneral _ _
      (reluN_real (IsReal.addf (IsReal.host_dotGeneral _ _ (IsReal.addf hx hagg) hW1) (rows_real hb1))) hW2)
    (rows_real hb2)

/-- The column sums of a real array are real. -/
theorem colSum_real {h : FVec Ideal S100000x128 .f32} (hh : IsReal h) : IsReal (Spec.colSum h) :=
  IsReal.host_reduceAdd hh (isReal_constant_zero S_) _ _

/-- The column means of a real array are real: real sums over the real 100000, which is not zero. -/
theorem mean_real {h : FVec Ideal S100000x128 .f32} (hh : IsReal h) : IsReal (Spec.mean h) :=
  IsReal.host_divf (colSum_real hh) (fun _ => ⟨100000, by norm_num, Cert.Algebra.ofBits_100000⟩)

/-- For a real array the reciprocal root of variance plus ε is a positive real in every column: the variance of a
    real column is a real that is not negative and ε is a positive real. -/
theorem rstd_pos {h : FVec Ideal S100000x128 .f32} (hh : IsReal h) :
    IsPos (Host.rsqrt (addf (Spec.var h)
      (broadcastInDim S128 ![] bcast_S_S128 (constant (F := Ideal) S_ .f32 0x3727C5AC#32)))) := by
  intro i
  obtain ⟨j, rfl⟩ : ∃ j : Fin 128, i = ix1 j := ⟨i 0, eq_ix1 i⟩
  show ∃ R : ℝ, 0 < R ∧ Ideal.rsqrt (Spec.var h (ix1 j) + Ideal.ofBits .f32 0x3727C5AC#32) = (R : EReal)
  rw [var_apply, ofBits_eps_val]
  exact Cert.Algebra.rstd_pos (fun r : Fin 100000 => h (ix2 r j)) (fun r => hh _) 100000 (by norm_num) (by simp)
    _ (by positivity) _ (mean_apply h j)

/-- The normalisation stage of a real array with real scale and shift is real. -/
theorem bnrelu_real {h : FVec Ideal S100000x128 .f32} {γ β : FVec Ideal S128 .f32}
    (hh : IsReal h) (hγ : IsReal γ) (hβ : IsReal β) : IsReal (Spec.bnrelu h γ β) := by
  unfold Spec.bnrelu
  exact reluN_real
    (IsReal.addf
      (IsReal.mulf
        (IsReal.mulf (IsReal.subf hh (rows_real (mean_real hh))) (rows_real (rstd_pos hh).isReal))
        (rows_real hγ))
      (rows_real hβ))

/-- First block's output from real arguments is real. -/
theorem block0_real {x : FVec Ideal S100000x32 .f32} {ei : IVec S2x1600000 32} {e : FVec Ideal S1600000x16 .f32}
    {We : FVec Ideal S16x32 .f32} {be : FVec Ideal S32 .f32} {W1 : FVec Ideal S32x128 .f32} {b1 : FVec Ideal S128 .f32}
    {W2 : FVec Ideal S128x128 .f32} {b2 γ β : FVec Ideal S128 .f32}
    (hx : IsReal x) (he : IsReal e) (hWe : IsReal We) (hbe : IsReal be) (hW1 : IsReal W1) (hb1 : IsReal b1)
    (hW2 : IsReal W2) (hb2 : IsReal b2) (hγ : IsReal γ) (hβ : IsReal β) :
    IsReal (Spec.block0 x ei e We be W1 b1 W2 b2 γ β) :=
  bnrelu_real (mlp0_real hx (agg0_real hx he hWe hbe) hW1 hb1 hW2 hb2) hγ hβ

/-- Second block's output from a real input and real arguments is real. -/
theorem block1_real {y : FVec Ideal S100000x128 .f32} {ei : IVec S2x1600000 32} {e : FVec Ideal S1600000x16 .f32}
    {We : FVec Ideal S16x128 .f32} {be : FVec Ideal S128 .f32} {W1 : FVec Ideal S128x128 .f32} {b1 : FVec Ideal S128 .f32}
    {W2 : FVec Ideal S128x128 .f32} {b2 γ β : FVec Ideal S128 .f32}
    (hy : IsReal y) (he : IsReal e) (hWe : IsReal We) (hbe : IsReal be) (hW1 : IsReal W1) (hb1 : IsReal b1)
    (hW2 : IsReal W2) (hb2 : IsReal b2) (hγ : IsReal γ) (hβ : IsReal β) :
    IsReal (Spec.block1 y ei e We be W1 b1 W2 b2 γ β) :=
  bnrelu_real (mlp1_real hy (agg1_real hy he hWe hbe) hW1 hb1 hW2 hb2) hγ hβ

end Cert.Reals
-- ==== Proof.BridgeMlp.lean ====
/-
  The dense stages, whole-array spelling against index-by-index spelling, over the extended reals.

  The network's two-layer perceptron relu((x + agg) · W1 + b1) · W2 + b2 and its head
  1 / (1 + exp(−(relu(y · W1 + b1) · W2 + b2))) are written once as compositions of whole-array operations
  (matrix products, a bias vector laid along every row, an entrywise maximum with zero) and once entry by
  entry, as nested finite sums. They agree: a matrix product at (r, j) is the sum over k of the products of
  row r and column j; a vector laid along the rows reads, at (r, j), its entry j; a vector reshaped to one
  row reads the same entry at (0, j); the maximum with the zero array is the maximum with 0; and the quotient
  1 / (1 + exp(−z)), the ones given as float patterns, is the logistic function of z.
-/
import proofs.«116086_j16767552323790_2_alg».proof.Proof.Spec
import proofs.«116086_j16767552323790_2_alg».proof.Proof.KSpec
import proofs.«116086_j16767552323790_2_alg».proof.Proof.BridgeLib
import proofs.«116086_j16767552323790_2_alg».proof.Proof.Algebra

noncomputable section

namespace Cert.BridgeMlp

open Idealize.ShloMosaic Idealize.ShloMosaic.ValueIdx Cert.ReferenceIdeal
open scoped BigOperators

variable [Cert.ReferenceIdeal.Facts]
open Cert.ReferenceIdeal.Facts₀ Cert.ReferenceIdeal.Facts

/-! ## The whole-array pieces at an entry -/

/-- The maximum with the zero array, at an entry, is the maximum with 0. -/
theorem reluN_apply (x : FVec Ideal S100000x128 .f32) (i : S100000x128.Idx) : Spec.reluN x i = max (x i) (0 : EReal) := by
  unfold Spec.reluN
  rw [maximumf_apply, broadcastInDim_scalar_apply, constant_apply, Ideal.ofBits_zero_f32]

/-- A length-128 vector laid along the 100000 rows, at (r, j), is its entry j. -/
theorem rows_apply (b : FVec Ideal S128 .f32) (r : Fin 100000) (j : Fin 128) : Spec.rows b (ix2 r j) = b (ix1 j) :=
  Cert.BridgeLib.rows_apply b bcast_S128_S1x128_1 bcast_S1x128_S100000x128_0_1 r j

/-- A [100000, 32] by [32, 128] product at (r, j). -/
theorem dot32_apply (X : FVec Ideal S100000x32 .f32) (Y : FVec Ideal S32x128 .f32) (r : Fin 100000) (j : Fin 128) :
    Host.dotGeneral dot_S100000x32_S32x128_S100000x128_1_0_0_1_n_n none X Y (ix2 r j) = ∑ k : Fin 32, X (ix2 r k) * Y (ix2 k j) :=
  Cert.BridgeLib.hostDot_rowcol dot_S100000x32_S32x128_S100000x128_1_0_0_1_n_n rfl rfl (fun _ _ => rfl) (fun i q => DotDims.lhsIdx_val_of_single _ rfl i q) (fun i q => DotDims.rhsIdx_val_of_single _ rfl i q) (fun _ _ => rfl) none X Y r j

/-- A [100000, 128] by [128, 128] product at (r, j). -/
theorem dot128_apply (X : FVec Ideal S100000x128 .f32) (Y : FVec Ideal S128x128 .f32) (r : Fin 100000) (j : Fin 128) :
    Host.dotGeneral dot_S100000x128_S128x128_S100000x128_1_0_0_1_n_n none X Y (ix2 r j) = ∑ k : Fin 128, X (ix2 r k) * Y (ix2 k j) :=
  Cert.BridgeLib.hostDot_rowcol dot_S100000x128_S128x128_S100000x128_1_0_0_1_n_n rfl rfl (fun _ _ => rfl) (fun i q => DotDims.lhsIdx_val_of_single _ rfl i q) (fun i q => DotDims.rhsIdx_val_of_single _ rfl i q) (fun _ _ => rfl) none X Y r j

/-- A [100000, 128] by [128, 1] product at (r, u). -/
theorem dot1_apply (X : FVec Ideal S100000x128 .f32) (Y : FVec Ideal S128x1 .f32) (r : Fin 100000) (u : Fin 1) :
    Host.dotGeneral dot_S100000x128_S128x1_S100000x1_1_0_0_1_n_n none X Y (ix2 r u) = ∑ k : Fin 128, X (ix2 r k) * Y (ix2 k u) :=
  Cert.BridgeLib.hostDot_rowcol dot_S100000x128_S128x1_S100000x1_1_0_0_1_n_n rfl rfl (fun _ _ => rfl) (fun i q => DotDims.lhsIdx_val_of_single _ rfl i q) (fun i q => DotDims.rhsIdx_val_of_single _ rfl i q) (fun _ _ => rfl) none X Y r u

/-! ## The entry-by-entry spelling at an index given by its coordinates -/

/-- The perceptron's entry-by-entry spelling at (r, j): the row and column of that index are r and j. -/
theorem kmlp_apply {d : Nat} (x agg : FVec Ideal ⟨2, ![100000, d]⟩ .f32) (W1 : FVec Ideal ⟨2, ![d, 128]⟩ .f32)
    (b1 : FVec Ideal ⟨2, ![1, 128]⟩ .f32) (W2 : FVec Ideal ⟨2, ![128, 128]⟩ .f32) (b2 : FVec Ideal ⟨2, ![1, 128]⟩ .f32)
    (r : Fin 100000) (j : Fin 128) :
    KSpec.mlp x agg W1 b1 W2 b2 (ix2 r j)
      = (∑ k : Fin 128,
          max ((∑ l : Fin d, (x (ix2 r l) + agg (ix2 r l)) * W1 (ix2 l k)) + b1 (ix2 (0 : Fin 1) k)) (0 : EReal)
            * W2 (ix2 k j))
        + b2 (ix2 (0 : Fin 1) j) := rfl

/-- The normalisation's multiply-add and relu at (r, l). -/
theorem kbnRelu_apply (h : FVec Ideal ⟨2, ![100000, 128]⟩ .f32) (sc sh : FVec Ideal ⟨2, ![1, 128]⟩ .f32)
    (r : Fin 100000) (l : Fin 128) :
    KSpec.bnRelu h sc sh (ix2 r l) = max (h (ix2 r l) * sc (ix2 (0 : Fin 1) l) + sh (ix2 (0 : Fin 1) l)) (0 : EReal) := rfl

/-- The head's entry-by-entry spelling at (r, 0). -/
theorem khead_apply (h : FVec Ideal ⟨2, ![100000, 128]⟩ .f32) (sc sh : FVec Ideal ⟨2, ![1, 128]⟩ .f32)
    (W1 : FVec Ideal ⟨2, ![128, 128]⟩ .f32) (b1 : FVec Ideal ⟨2, ![1, 128]⟩ .f32)
    (W2 : FVec Ideal ⟨2, ![128, 1]⟩ .f32) (b2 : FVec Ideal ⟨2, ![1, 1]⟩ .f32) (r : Fin 100000) :
    KSpec.head h sc sh W1 b1 W2 b2 (ix2 r (0 : Fin 1))
      = Ideal.logistic
          ((∑ k : Fin 128,
              max ((∑ l : Fin 128,
                      max (h (ix2 r l) * sc (ix2 (0 : Fin 1) l) + sh (ix2 (0 : Fin 1) l)) (0 : EReal) * W1 (ix2 l k))
                    + b1 (ix2 (0 : Fin 1) k)) (0 : EReal)
                * W2 (ix2 k (0 : Fin 1)))
            + b2 (ix2 (0 : Fin 1) (0 : Fin 1))) := rfl

/-! ## The perceptrons -/

/-- First block's perceptron (32 features in): the two spellings agree. -/
theorem mlp0_eq (x agg : FVec Ideal S100000x32 .f32) (W1 : FVec Ideal S32x128 .f32) (b1 : FVec Ideal S128 .f32)
    (W2 : FVec Ideal S128x128 .f32) (b2 : FVec Ideal S128 .f32) (hc : S128.ShapeCasts S1x128) :
    KSpec.mlp x agg W1 (shapeCast S1x128 b1 hc) W2 (shapeCast S1x128 b2 hc) = Spec.mlp0 x agg W1 b1 W2 b2 := by
  funext i
  obtain ⟨r, j, rfl⟩ : ∃ (r : Fin 100000) (j : Fin 128), i = ix2 r j := ⟨i 0, i 1, eq_ix2 i⟩
  rw [kmlp_apply]
  unfold Spec.mlp0
  rw [addf_apply, rows_apply, dot128_apply, Cert.BridgeLib.reshapeRow_apply b2 hc j]
  refine congrArg (· + b2 (ix1 j)) (Finset.sum_congr rfl fun k _ => ?_)
  rw [reluN_apply, addf_apply, rows_apply, dot32_apply, Cert.BridgeLib.reshapeRow_apply b1 hc k]
  simp only [addf_apply]

/-- Second block's perceptron (128 features in): the two spellings agree. -/
theorem mlp1_eq (x agg : FVec Ideal S100000x128 .f32) (W1 : FVec Ideal S128x128 .f32) (b1 : FVec Ideal S128 .f32)
    (W2 : FVec Ideal S128x128 .f32) (b2 : FVec Ideal S128 .f32) (hc : S128.ShapeCasts S1x128) :
    KSpec.mlp x agg W1 (shapeCast S1x128 b1 hc) W2 (shapeCast S1x128 b2 hc) = Spec.mlp1 x agg W1 b1 W2 b2 := by
  funext i
  obtain ⟨r, j, rfl⟩ : ∃ (r : Fin 100000) (j : Fin 128), i = ix2 r j := ⟨i 0, i 1, eq_ix2 i⟩
  rw [kmlp_apply]
  unfold Spec.mlp1
  rw [addf_apply, rows_apply, dot128_apply, Cert.BridgeLib.reshapeRow_apply b2 hc j]
  refine congrArg (· + b2 (ix1 j)) (Finset.sum_congr rfl fun k _ => ?_)
  rw [reluN_apply, addf_apply, rows_apply, dot128_apply, Cert.BridgeLib.reshapeRow_apply b1 hc k]
  simp only [addf_apply]

/-! ## The head -/

/-- The head on the normalised features: the two spellings agree. -/
theorem head_eq (h : FVec Ideal S100000x128 .f32) (sc sh : FVec Ideal S1x128 .f32) (W1 : FVec Ideal S128x128 .f32)
    (b1 : FVec Ideal S128 .f32) (W2 : FVec Ideal S128x1 .f32) (b2 : FVec Ideal S1 .f32)
    (hc : S128.ShapeCasts S1x128) (hc1 : S1.ShapeCasts S1x1) :
    KSpec.head h sc sh W1 (shapeCast S1x128 b1 hc) W2 (shapeCast S1x1 b2 hc1)
      = Spec.head (KSpec.bnRelu h sc sh) W1 b1 W2 b2 := by
  funext i
  obtain ⟨r, u, rfl⟩ : ∃ (r : Fin 100000) (u : Fin 1), i = ix2 r u := ⟨i 0, i 1, eq_ix2 i⟩
  obtain rfl : u = 0 := Subsingleton.elim _ _
  rw [khead_apply]
  unfold Spec.head
  rw [hostDivf_apply, broadcastInDim_scalar_apply, constant_apply, addf_apply, broadcastInDim_scalar_apply, constant_apply]
  show _ = Ideal.div (Ideal.ofBits .f32 0x3F800000#32) (Ideal.ofBits .f32 0x3F800000#32 + Ideal.exp (-(_ : EReal)))
  rw [Cert.Algebra.logistic_bridge]
  refine congrArg Ideal.logistic ?_
  rw [addf_apply, dot1_apply, Cert.BridgeLib.rows_apply b2 bcast_S1_S1x1_1 bcast_S1x1_S100000x1_0_1 r (0 : Fin 1),
    Cert.BridgeLib.reshapeRow_apply b2 hc1 (0 : Fin 1)]
  refine congrArg (· + b2 (ix1 (0 : Fin 1))) (Finset.sum_congr rfl fun k _ => ?_)
  rw [reluN_apply, addf_apply, rows_apply, dot128_apply, Cert.BridgeLib.reshapeRow_apply b1 hc k]
  simp only [kbnRelu_apply]

end Cert.BridgeMlp

end
-- ==== Proof.BridgeAgg.lean ====
/-
  The aggregation stage, the two programs' spellings, over the extended reals.

  Both programs form, per edge, the message relu(x[src] + e · We + be) and sum the messages into their
  destination rows by the same scatter-add onto the same zero array with the same index column. They differ in
  two ways only. One narrows the gathered features and the product's operands to a shorter float format and
  widens them back: over the extended reals a change of float format is the identity. And one groups the sum as
  x[src] + (e · We + be) where the other groups it as (x[src] + e · We) + be: addition is associative. The
  gather, the matrix product and the scatter-add themselves are never opened: the two sides apply them to equal
  arguments.
-/
import proofs.«116086_j16767552323790_2_alg».proof.Proof.Spec
import proofs.«116086_j16767552323790_2_alg».proof.Proof.KHost
import Idealize.ShloMosaic.Lib.ValueIdx

noncomputable section

namespace Cert.BridgeAgg

open Idealize.ShloMosaic Idealize.ShloMosaic.ValueIdx

/-! ## Changes of float format are the identity; the regrouping -/

/-- Narrowing an array's float format does nothing over the extended reals. -/
theorem truncf_id {s : Shape} (x : FVec Ideal s .f32) (h : FTy.bf16.bits < FTy.f32.bits) :
    (truncf .bf16 x h : FVec Ideal s .bf16) = x := rfl

/-- Widening it back does nothing either. -/
theorem extf_id {s : Shape} (x : FVec Ideal s .bf16) (h : FTy.bf16.bits < FTy.f32.bits) :
    (extf .f32 x h : FVec Ideal s .f32) = x := rfl

/-- A gather of narrowed features, widened, is the gather of the features. -/
theorem extf_gather_truncf {s si t : Shape} {w : Nat} (d : GatherDims s si t) (x : FVec Ideal s .f32) (idx : IVec si w)
    (h₁ h₂ : FTy.bf16.bits < FTy.f32.bits) :
    (extf .f32 (Host.gather d (truncf .bf16 x h₁) idx) h₂ : FVec Ideal t .f32) = Host.gather d x idx := rfl

/-- A matrix product of narrowed operands is the product of the operands. -/
theorem dot_truncf {sl sr so : Shape} (d : DotDims sl sr so) (X : FVec Ideal sl .f32) (Y : FVec Ideal sr .f32)
    (h₁ h₂ : FTy.bf16.bits < FTy.f32.bits) :
    Host.dotGeneral d none (truncf .bf16 X h₁) (truncf .bf16 Y h₂) = Host.dotGeneral (φ₁ := .f32) (φ₂ := .f32) d none X Y := rfl

/-- relu(g + (p + b)) is relu((g + p) + b), entry by entry: addition is associative. -/
theorem relu_regroup {s : Shape} (g p b z : FVec Ideal s .f32) :
    maximumf (addf g (addf p b)) z = maximumf (addf (addf g p) b) z := by
  funext i
  simp only [maximumf_apply, addf_apply, add_assoc]

variable [Cert.KernelIdeal.Facts] [Cert.ReferenceIdeal.Facts]

/-! ## The index columns: the same operations on the same edge list -/

theorem srcIdx_eq (ei : IVec ⟨2, ![2, 1600000]⟩ 32) : KHost.srcIdx ei = Spec.srcIdx ei := rfl

theorem dstIdx_eq (ei : IVec ⟨2, ![2, 1600000]⟩ 32) : KHost.dstIdx ei = Spec.dstIdx ei := rfl

/-! ## The two aggregations -/

/-- First block (32 features): the two spellings of the aggregation agree. -/
theorem agg0_eq (x : FVec Ideal ⟨2, ![100000, 32]⟩ .f32) (ei : IVec ⟨2, ![2, 1600000]⟩ 32)
    (e : FVec Ideal ⟨2, ![1600000, 16]⟩ .f32) (We : FVec Ideal ⟨2, ![16, 32]⟩ .f32) (be : FVec Ideal ⟨1, ![32]⟩ .f32) :
    KHost.aggK0 x ei e We be = Spec.agg0 x ei e We be := by
  unfold KHost.aggK0 Spec.agg0
  rw [extf_gather_truncf, dot_truncf, relu_regroup, srcIdx_eq, dstIdx_eq]
  rfl

/-- Second block (128 features): the two spellings of the aggregation agree. -/
theorem agg1_eq (x : FVec Ideal ⟨2, ![100000, 128]⟩ .f32) (ei : IVec ⟨2, ![2, 1600000]⟩ 32)
    (e : FVec Ideal ⟨2, ![1600000, 16]⟩ .f32) (We : FVec Ideal ⟨2, ![16, 128]⟩ .f32) (be : FVec Ideal ⟨1, ![128]⟩ .f32) :
    KHost.aggK1 x ei e We be = Spec.agg1 x ei e We be := by
  unfold KHost.aggK1 Spec.agg1
  rw [extf_gather_truncf, dot_truncf, relu_regroup, srcIdx_eq, dstIdx_eq]
  rfl

end Cert.BridgeAgg

end
-- ==== Proof.BridgeBn.lean ====
/-
  The normalisation bridge: the moments-first multiply-add of the tiled program equals the deviations-first
  normalisation, for an array of real numbers.

  One side keeps, for each of the 25 tiles of 4000 rows, the column sums and the column sums of squares of the
  tile (the same in every one of the tile's 8 sublanes). From them it forms, per column j with N = 100000,
      total j = ∑ over the tiles of sublane 0 = ∑ r, h (r, j),      mean j = total j / N,
      rstd j = rsqrt ((total of squares j / N − mean j · mean j) + ε),
      scale j = γ j · rstd j,       shift j = β j − (mean j · γ j) · rstd j,
  and the entry max (h (r, j) · scale j + shift j, 0). The other side forms
      max (((h (r, j) − mean j) · rsqrt (var j + ε)) · γ j + β j, 0),   var j = (∑ r, (h (r, j) − mean j)²) / N.
  The two agree column by column: regrouping the 100000 rows as 25 tiles of 4000 gives the totals, and the mean of
  the squared deviations is the mean of the squares minus the squared mean, a real that is not negative, so both
  reciprocal roots are the same positive real and the rest is distributivity.

  * `oneRow_apply`, `sublane0_apply`: a vector as a one-row matrix at (0, j); sublane 0 of each tile as a [25, 128]
    array at (t, j).
  * `total_apply`, `total_tileSum`, `total_tileSumSq`: the totals at column j.
  * `meanK_at`, `rstdK_at`, `scaleK_at`, `shiftK_at`: the four one-row statistics at column j.
  * `bn_eq`: the bridge.
-/
import proofs.«116086_j16767552323790_2_alg».proof.Proof.KSpec
import proofs.«116086_j16767552323790_2_alg».proof.Proof.KHost
import proofs.«116086_j16767552323790_2_alg».proof.Proof.Spec
import proofs.«116086_j16767552323790_2_alg».proof.Proof.Reals
import proofs.«116086_j16767552323790_2_alg».proof.Proof.Algebra
import proofs.«116086_j16767552323790_2_alg».proof.Proof.BridgeLib
import proofs.«116086_j16767552323790_2_alg».proof.Proof.LibReal
import Idealize.ShloMosaic.Lib.IdealHost
import Idealize.ShloMosaic.Lib.Pipeline.Value

noncomputable section

namespace Cert.BridgeBn

open Idealize.ShloMosaic Idealize.ShloMosaic.ValueIdx Cert.LibReal
open scoped BigOperators

variable [Cert.KernelIdeal.Facts] [Cert.ReferenceIdeal.Facts]
open Cert.KernelIdeal.Facts₀ Cert.KernelIdeal.Facts

/-! ## Layout reads -/

/-- A vector as a one-row matrix, at (0, q), is the vector at q. -/
theorem oneRow_apply {α : Type} {C : ℕ} (b : (⟨1, ![C]⟩ : Shape).Idx → α)
    (h1 : (⟨1, ![C]⟩ : Shape).BroadcastsInDim ⟨2, ![1, C]⟩ ![1]) (q : Fin C) :
    broadcastInDim ⟨2, ![1, C]⟩ ![1] h1 b (ix2 (0 : Fin 1) q) = b (ix1 q) := by
  have hq : q.val < C := q.isLt
  exact broadcastInDim_apply ![1] h1 b (ix2 (0 : Fin 1) q) (ix1 q) (fun a => by
    match a with
    | ⟨0, _⟩ => show q.val = if C = 1 then 0 else q.val; split_ifs <;> omega)

/-- Sublane 0 of every tile, as a [25, 128] array: at (t, j) it is the statistics array at (t, 0, j). -/
theorem sublane0_apply (T : FVec Ideal (⟨3, ![25, 8, 128]⟩ : Shape) .f32)
    (hs : (⟨3, ![25, 8, 128]⟩ : Shape).Slices ![0, 0, 0] ⟨3, ![25, 1, 128]⟩)
    (hc : (⟨3, ![25, 1, 128]⟩ : Shape).ShapeCasts ⟨2, ![25, 128]⟩) (t : Fin 25) (j : Fin 128) :
    shapeCast ⟨2, ![25, 128]⟩ (extractStridedSlice ⟨3, ![25, 1, 128]⟩ ![0, 0, 0] T hs) hc (ix2 t j)
      = T (ix3 t (0 : Fin 8) j) := by
  rw [shapeCast_apply _ hc (ix2 t j) (ix3 t (0 : Fin 1) j) (by
    rw [Shape.rowMajor_val_three, Shape.rowMajor_val_two]
    show (t.val * 1 + 0) * 128 + j.val = t.val * 128 + j.val
    omega)]
  exact extractStridedSlice_apply ![0, 0, 0] T hs (ix3 t (0 : Fin 1) j) (ix3 t (0 : Fin 8) j) (fun a => by
    match a with
    | ⟨0, _⟩ => show t.val = 0 + t.val; omega
    | ⟨1, _⟩ => show 0 = 0 + 0; rfl
    | ⟨2, _⟩ => show j.val = 0 + j.val; omega)

/-! ## The totals -/

/-- The total at column j: sublane 0 of the statistics, summed over the 25 tiles. -/
theorem total_apply (T : FVec Ideal (⟨3, ![25, 8, 128]⟩ : Shape) .f32) (j : Fin 128) :
    KHost.total T (ix2 (0 : Fin 1) j) = ∑ t : Fin 25, T (ix3 t (0 : Fin 8) j) := by
  unfold KHost.total
  rw [oneRow_apply, Cert.BridgeLib.colSum_apply _ _ reducesTo_S25x128_S128_d0 (by decide) h_S_ j]
  show Ideal.ofBits .f32 0x00000000#32 + _ = _
  rw [ofBits_zero, zero_add]
  exact Finset.sum_congr rfl fun t _ => sublane0_apply T _ _ t j

/-- The total of the per-tile column sums is the column sum over all 100000 rows. -/
theorem total_tileSum (h : FVec Ideal (⟨2, ![100000, 128]⟩ : Shape) .f32) (j : Fin 128) :
    KHost.total (KSpec.tileSum h) (ix2 (0 : Fin 1) j) = ∑ r : Fin 100000, h (ix2 r j) := by
  rw [total_apply]
  show ∑ t : Fin 25, ∑ y : Fin 4000, h (ix2 (KSpec.tileRow t y) j) = _
  exact Cert.Algebra.sum_blocks_25_4000 (fun r => h (ix2 r j)) KSpec.tileRow KSpec.tileRow_val

/-- The total of the per-tile column sums of squares is the column sum of squares over all 100000 rows. -/
theorem total_tileSumSq (h : FVec Ideal (⟨2, ![100000, 128]⟩ : Shape) .f32) (j : Fin 128) :
    KHost.total (KSpec.tileSumSq h) (ix2 (0 : Fin 1) j) = ∑ r : Fin 100000, h (ix2 r j) * h (ix2 r j) := by
  rw [total_apply]
  show ∑ t : Fin 25, ∑ y : Fin 4000, h (ix2 (KSpec.tileRow t y) j) * h (ix2 (KSpec.tileRow t y) j) = _
  exact Cert.Algebra.sum_blocks_25_4000 (fun r => h (ix2 r j) * h (ix2 r j)) KSpec.tileRow KSpec.tileRow_val

/-! ## The one-row statistics at a column -/

/-- The mean at column j: the total over 100000. -/
theorem meanK_at (T : FVec Ideal (⟨3, ![25, 8, 128]⟩ : Shape) .f32) (j : Fin 128) :
    KHost.meanK T (ix2 (0 : Fin 1) j) = Ideal.div (KHost.total T (ix2 (0 : Fin 1) j)) ((100000 : ℝ) : EReal) := by
  unfold KHost.meanK
  rw [hostDivf_apply, broadcastInDim_scalar_apply]
  show Ideal.div _ (Ideal.ofBits .f32 0x47C35000#32) = _
  rw [Cert.Algebra.ofBits_100000]

/-- The reciprocal root at column j: of (total of squares / 100000 − mean · mean) + ε. -/
theorem rstdK_at (T Q : FVec Ideal (⟨3, ![25, 8, 128]⟩ : Shape) .f32) (j : Fin 128) :
    KHost.rstdK T Q (ix2 (0 : Fin 1) j)
      = Ideal.rsqrt ((Ideal.div (KHost.total Q (ix2 (0 : Fin 1) j)) ((100000 : ℝ) : EReal)
            - KHost.meanK T (ix2 (0 : Fin 1) j) * KHost.meanK T (ix2 (0 : Fin 1) j))
          + Ideal.ofBits .f32 0x3727C5AC#32) := by
  unfold KHost.rstdK
  show Ideal.rsqrt ((Ideal.div (KHost.total Q (ix2 (0 : Fin 1) j))
        (broadcastInDim Cert.KernelIdeal.S1x128 ![] bcast_S_S1x128 (constant (F := Ideal) Cert.KernelIdeal.S_ .f32 0x47C35000#32) (ix2 (0 : Fin 1) j))
      - KHost.meanK T (ix2 (0 : Fin 1) j) * KHost.meanK T (ix2 (0 : Fin 1) j))
      + broadcastInDim Cert.KernelIdeal.S1x128 ![] bcast_S_S1x128 (constant (F := Ideal) Cert.KernelIdeal.S_ .f32 0x3727C5AC#32) (ix2 (0 : Fin 1) j)) = _
  rw [broadcastInDim_scalar_apply, broadcastInDim_scalar_apply]
  show Ideal.rsqrt ((Ideal.div _ (Ideal.ofBits .f32 0x47C35000#32) - _) + Ideal.ofBits .f32 0x3727C5AC#32) = _
  rw [Cert.Algebra.ofBits_100000]

/-- The multiplier at column j: γ j times the reciprocal root. -/
theorem scaleK_at (T Q : FVec Ideal (⟨3, ![25, 8, 128]⟩ : Shape) .f32) (γ : FVec Ideal (⟨1, ![128]⟩ : Shape) .f32) (j : Fin 128) :
    KHost.scaleK T Q γ (ix2 (0 : Fin 1) j) = γ (ix1 j) * KHost.rstdK T Q (ix2 (0 : Fin 1) j) := by
  unfold KHost.scaleK
  rw [mulf_apply, Cert.BridgeLib.reshapeRow_apply]

/-- The offset at column j: β j minus (mean · γ j) times the reciprocal root. -/
theorem shiftK_at (T Q : FVec Ideal (⟨3, ![25, 8, 128]⟩ : Shape) .f32) (γ β : FVec Ideal (⟨1, ![128]⟩ : Shape) .f32) (j : Fin 128) :
    KHost.shiftK T Q γ β (ix2 (0 : Fin 1) j)
      = β (ix1 j) - (KHost.meanK T (ix2 (0 : Fin 1) j) * γ (ix1 j)) * KHost.rstdK T Q (ix2 (0 : Fin 1) j) := by
  unfold KHost.shiftK
  rw [subf_apply, mulf_apply, mulf_apply, Cert.BridgeLib.reshapeRow_apply, Cert.BridgeLib.reshapeRow_apply]

/-! ## The bridge -/

/-- The pattern of ε denotes a positive real. -/
theorem eps_pos : (0 : ℝ) < (10995116 : ℝ) / 2 ^ 40 := by positivity

/-- THE NORMALISATION BRIDGE: for an array of reals and real γ, β, the multiply-add with the scale and shift formed
    from the per-tile sums and sums of squares is the normalisation by the column mean and variance. -/
theorem bn_eq (h : FVec Ideal (⟨2, ![100000, 128]⟩ : Shape) .f32) (hh : Cert.LibReal.IsReal h)
    (γ β : FVec Ideal (⟨1, ![128]⟩ : Shape) .f32) (hγ : Cert.LibReal.IsReal γ) (hβ : Cert.LibReal.IsReal β) :
    KSpec.bnRelu h (KHost.scaleK (KSpec.tileSum h) (KSpec.tileSumSq h) γ)
        (KHost.shiftK (KSpec.tileSum h) (KSpec.tileSumSq h) γ β)
      = Spec.bnrelu h γ β := by
  funext i
  obtain ⟨r, j, rfl⟩ : ∃ (r : Fin 100000) (j : Fin 128), i = ix2 r j := ⟨i 0, i 1, eq_ix2 i⟩
  have hm : KHost.meanK (KSpec.tileSum h) (ix2 (0 : Fin 1) j) = Spec.mean h (ix1 j) := by
    rw [meanK_at, total_tileSum, Cert.Reals.mean_apply]
  rw [Cert.Reals.bnrelu_apply, Cert.Reals.var_apply]
  show max (h (ix2 r j) * KHost.scaleK (KSpec.tileSum h) (KSpec.tileSumSq h) γ (ix2 (0 : Fin 1) j)
      + KHost.shiftK (KSpec.tileSum h) (KSpec.tileSumSq h) γ β (ix2 (0 : Fin 1) j)) 0 = _
  rw [scaleK_at, shiftK_at, rstdK_at, hm, total_tileSumSq, ofBits_eps_val]
  exact (Cert.Algebra.bn_bridge (fun r => h (ix2 r j)) (hh.comp _) 100000 (by norm_num)
    (by simp [Fintype.card_fin]) ((10995116 : ℝ) / 2 ^ 40) eps_pos (γ (ix1 j)) (β (ix1 j)) (hγ _) (hβ _)
    (Spec.mean h (ix1 j)) (Cert.Reals.mean_apply h j) r).symm

end Cert.BridgeBn

end
-- ==== Proof.Pure.lean ====
/-
  The kernel program's composition of pure functions is the network.

  The program is four dense stages with host stretches between them: the first perceptron on x + agg0, the
  normalisation of its output by a scale and a shift computed from per-tile column sums and sums of squares, the
  second perceptron on y + agg1, and the head, which normalises once more inside.  Stage by stage: the two
  aggregations agree with the network's; a perceptron with one-row biases is the network's perceptron; for a real
  array the multiply-add normalisation with scale γ · rstd and shift β − (mean · γ) · rstd is the network's
  normalisation; the head on scaled and shifted features is the network's head on the normalised features.
  Each stage's input is real because every earlier stage keeps the reals.
-/
import proofs.«116086_j16767552323790_2_alg».proof.Proof.KPure
import proofs.«116086_j16767552323790_2_alg».proof.Proof.Spec
import proofs.«116086_j16767552323790_2_alg».proof.Proof.LibReal
import proofs.«116086_j16767552323790_2_alg».proof.Proof.Reals
import proofs.«116086_j16767552323790_2_alg».proof.Proof.BridgeMlp
import proofs.«116086_j16767552323790_2_alg».proof.Proof.BridgeAgg
import proofs.«116086_j16767552323790_2_alg».proof.Proof.BridgeBn

noncomputable section

namespace Cert.Pure

open Idealize.ShloMosaic Idealize.ShloMosaic.ValueIdx Cert.LibReal

variable [Cert.KernelIdeal.Facts] [Cert.ReferenceIdeal.Facts]

/-- The first perceptron's output is the network's first perceptron on the network's first aggregation. -/
theorem h0K_eq (x : FVec Ideal ⟨2, ![100000, 32]⟩ .f32) (ei : IVec ⟨2, ![2, 1600000]⟩ 32) (e : FVec Ideal ⟨2, ![1600000, 16]⟩ .f32)
    (We0 : FVec Ideal ⟨2, ![16, 32]⟩ .f32) (be0 : FVec Ideal ⟨1, ![32]⟩ .f32) (W10 : FVec Ideal ⟨2, ![32, 128]⟩ .f32) (b10 : FVec Ideal ⟨1, ![128]⟩ .f32)
    (W20 : FVec Ideal ⟨2, ![128, 128]⟩ .f32) (b20 : FVec Ideal ⟨1, ![128]⟩ .f32) :
    h0K x ei e We0 be0 W10 b10 W20 b20 = Spec.mlp0 x (Spec.agg0 x ei e We0 be0) W10 b10 W20 b20 := by
  unfold h0K
  rw [Cert.BridgeAgg.agg0_eq, Cert.BridgeMlp.mlp0_eq]

/-- The second perceptron's output is the network's second perceptron on the network's second aggregation. -/
theorem h1K_eq (y : FVec Ideal ⟨2, ![100000, 128]⟩ .f32) (ei : IVec ⟨2, ![2, 1600000]⟩ 32) (e : FVec Ideal ⟨2, ![1600000, 16]⟩ .f32)
    (We1 : FVec Ideal ⟨2, ![16, 128]⟩ .f32) (be1 : FVec Ideal ⟨1, ![128]⟩ .f32) (W11 : FVec Ideal ⟨2, ![128, 128]⟩ .f32) (b11 : FVec Ideal ⟨1, ![128]⟩ .f32)
    (W21 : FVec Ideal ⟨2, ![128, 128]⟩ .f32) (b21 : FVec Ideal ⟨1, ![128]⟩ .f32) :
    h1K y ei e We1 be1 W11 b11 W21 b21 = Spec.mlp1 y (Spec.agg1 y ei e We1 be1) W11 b11 W21 b21 := by
  unfold h1K
  rw [Cert.BridgeAgg.agg1_eq, Cert.BridgeMlp.mlp1_eq]

/-- For real arguments the first block's output is the network's first block. -/
theorem y0K_eq (x : FVec Ideal ⟨2, ![100000, 32]⟩ .f32) (ei : IVec ⟨2, ![2, 1600000]⟩ 32) (e : FVec Ideal ⟨2, ![1600000, 16]⟩ .f32)
    (We0 : FVec Ideal ⟨2, ![16, 32]⟩ .f32) (be0 : FVec Ideal ⟨1, ![32]⟩ .f32) (W10 : FVec Ideal ⟨2, ![32, 128]⟩ .f32) (b10 : FVec Ideal ⟨1, ![128]⟩ .f32)
    (W20 : FVec Ideal ⟨2, ![128, 128]⟩ .f32) (b20 : FVec Ideal ⟨1, ![128]⟩ .f32) (γ0 β0 : FVec Ideal ⟨1, ![128]⟩ .f32)
    (hx : IsReal x) (he : IsReal e) (hWe0 : IsReal We0) (hbe0 : IsReal be0) (hW10 : IsReal W10) (hb10 : IsReal b10)
    (hW20 : IsReal W20) (hb20 : IsReal b20) (hγ0 : IsReal γ0) (hβ0 : IsReal β0) :
    y0K x ei e We0 be0 W10 b10 W20 b20 γ0 β0 = Spec.block0 x ei e We0 be0 W10 b10 W20 b20 γ0 β0 := by
  unfold y0K Spec.block0
  rw [h0K_eq]
  exact Cert.BridgeBn.bn_eq _ (Cert.Reals.mlp0_real hx (Cert.Reals.agg0_real hx he hWe0 hbe0) hW10 hb10 hW20 hb20)
    γ0 β0 hγ0 hβ0

/-- For a real array and real scale and shift parameters, the head with its normalisation fused in is the network's
    head on the network's normalisation. -/
theorem headK_eq (h : FVec Ideal ⟨2, ![100000, 128]⟩ .f32) (γ1 β1 : FVec Ideal ⟨1, ![128]⟩ .f32) (hW1 : FVec Ideal ⟨2, ![128, 128]⟩ .f32) (hb1 : FVec Ideal ⟨1, ![128]⟩ .f32)
    (hW2 : FVec Ideal ⟨2, ![128, 1]⟩ .f32) (hb2 : FVec Ideal ⟨1, ![1]⟩ .f32) (hh : IsReal h) (hγ1 : IsReal γ1) (hβ1 : IsReal β1) :
    headK h γ1 β1 hW1 hb1 hW2 hb2 = Spec.head (Spec.bnrelu h γ1 β1) hW1 hb1 hW2 hb2 := by
  unfold headK
  rw [Cert.BridgeMlp.head_eq, Cert.BridgeBn.bn_eq h hh γ1 β1 hγ1 hβ1]

/-- For real arguments the program's composition is the network. -/
theorem outK_eq (x : FVec Ideal ⟨2, ![100000, 32]⟩ .f32) (ei : IVec ⟨2, ![2, 1600000]⟩ 32) (e : FVec Ideal ⟨2, ![1600000, 16]⟩ .f32)
    (We0 : FVec Ideal ⟨2, ![16, 32]⟩ .f32) (be0 : FVec Ideal ⟨1, ![32]⟩ .f32) (W10 : FVec Ideal ⟨2, ![32, 128]⟩ .f32) (b10 : FVec Ideal ⟨1, ![128]⟩ .f32)
    (W20 : FVec Ideal ⟨2, ![128, 128]⟩ .f32) (b20 : FVec Ideal ⟨1, ![128]⟩ .f32) (γ0 β0 : FVec Ideal ⟨1, ![128]⟩ .f32)
    (We1 : FVec Ideal ⟨2, ![16, 128]⟩ .f32) (be1 : FVec Ideal ⟨1, ![128]⟩ .f32) (W11 : FVec Ideal ⟨2, ![128, 128]⟩ .f32) (b11 : FVec Ideal ⟨1, ![128]⟩ .f32)
    (W21 : FVec Ideal ⟨2, ![128, 128]⟩ .f32) (b21 γ1 β1 : FVec Ideal ⟨1, ![128]⟩ .f32)
    (hW1 : FVec Ideal ⟨2, ![128, 128]⟩ .f32) (hb1 : FVec Ideal ⟨1, ![128]⟩ .f32) (hW2 : FVec Ideal ⟨2, ![128, 1]⟩ .f32) (hb2 : FVec Ideal ⟨1, ![1]⟩ .f32)
    (hx : IsReal x) (he : IsReal e) (hWe0 : IsReal We0) (hbe0 : IsReal be0) (hW10 : IsReal W10) (hb10 : IsReal b10)
    (hW20 : IsReal W20) (hb20 : IsReal b20) (hγ0 : IsReal γ0) (hβ0 : IsReal β0)
    (hWe1 : IsReal We1) (hbe1 : IsReal be1) (hW11 : IsReal W11) (hb11 : IsReal b11) (hW21 : IsReal W21) (hb21 : IsReal b21)
    (hγ1 : IsReal γ1) (hβ1 : IsReal β1)
    (hhW1 : IsReal hW1) (hhb1 : IsReal hb1) (hhW2 : IsReal hW2) (hhb2 : IsReal hb2) :
    outK x ei e We0 be0 W10 b10 W20 b20 γ0 β0 We1 be1 W11 b11 W21 b21 γ1 β1 hW1 hb1 hW2 hb2 = Cert.Spec.out x ei e We0 be0 W10 b10 W20 b20 γ0 β0 We1 be1 W11 b11 W21 b21 γ1 β1 hW1 hb1 hW2 hb2 := by
  have hy : IsReal (Spec.block0 x ei e We0 be0 W10 b10 W20 b20 γ0 β0) :=
    Cert.Reals.block0_real hx he hWe0 hbe0 hW10 hb10 hW20 hb20 hγ0 hβ0
  unfold outK Spec.out Spec.block1
  rw [y0K_eq x ei e We0 be0 W10 b10 W20 b20 γ0 β0 hx he hWe0 hbe0 hW10 hb10 hW20 hb20 hγ0 hβ0, h1K_eq]
  exact headK_eq _ γ1 β1 hW1 hb1 hW2 hb2
    (Cert.Reals.mlp1_real hy (Cert.Reals.agg1_real hy he hWe1 hbe1) hW11 hb11 hW21 hb21) hγ1 hβ1

end Cert.Pure
-- ==== Proof.RefOps.lean ====
/-
  The reference network's entry function as a straight line of whole-array operations.

  The entry function is a sequence of 128 statements, nine of them calls of small helper functions
  (three shapes of relu, and a column variance that itself calls a three-way select). Each call runs the
  helper's own operations on the caller's arrays, so the whole function is one line of 183 operations:
  the two rows of the edge list and the wrapped source indices; per block a gather of the source rows,
  the edge matmul, bias, relu, the scatter-add into destination rows, the two-layer perceptron, the
  column mean and variance over the 100000 nodes, normalisation, scale, shift and relu; then the
  two-layer head and the logistic function.

  The line is kept in three consecutive pieces, `ops0` (87 operations: the first block, and the first
  three steps of the second block's index wrap), `ops1` (89: the rest of the second block and the head up
  to the negation) and `ops2` (7: the logistic function), and `ops` is their concatenation. `main_eq`
  says the entry function is exactly that line run in order.
-/
import proofs.«116086_j16767552323790_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 87: the edge list's rows and wrapped sources, the first block (messages, scatter-add,
    perceptron, column statistics with the variance helper's twenty-two operations inline, normalisation, relu),
    and the start of the second block's index wrap. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.binary main_arg2 main_arg3 main_v11 ((fun l r => Host.dotGeneral dot_S1600000x16_S16x32_S1600000x32_1_0_0_1_n_n none l r) : (⟨S1600000x16, .f32⟩ : BufTy).Contents (Elt F) → (⟨S16x32, .f32⟩ : BufTy).Contents (Elt F) → (⟨S1600000x32, .f32⟩ : BufTy).Contents (Elt F)),
    StableHlo.binary main_v10 main_v11 main_v12 (addf : (⟨S1600000x32, .f32⟩ : BufTy).Contents (Elt F) → (⟨S1600000x32, .f32⟩ : BufTy).Contents (Elt F) → (⟨S1600000x32, .f32⟩ : BufTy).Contents (Elt F)),
    StableHlo.unary main_arg4 main_v13 (broadcastInDim S1x32 ![1] bcast_S32_S1x32_1 : (⟨S32, .f32⟩ : BufTy).Contents (Elt F) → (⟨S1x32, .f32⟩ : BufTy).Contents (Elt F)),
    StableHlo.unary main_v13 main_v14 (broadcastInDim S1600000x32 ![0, 1] bcast_S1x32_S1600000x32_0_1 : (⟨S1x32, .f32⟩ : BufTy).Contents (Elt F) → (⟨S1600000x32, .f32⟩ : BufTy).Contents (Elt F)),
    StableHlo.binary main_v12 main_v14 main_v15 (addf : (⟨S1600000x32, .f32⟩ : BufTy).Contents (Elt F) → (⟨S1600000x32, .f32⟩ : BufTy).Contents (Elt F) → (⟨S1600000x32, .f32⟩ : BufTy).Contents (Elt F)),
    StableHlo.TRef.nullary main_call0.cst (constant S_ .f32 0x00000000#32),
    StableHlo.TRef.unary main_call0.cst main_call0.v0 (broadcastInDim S1600000x32 ![] bcast_S_S1600000x32),
    StableHlo.TRef.binary (.of main_v15 : StableHlo.TRef sig ⟨S1600000x32, .f32⟩) main_call0.v0 main_call0.v1 maximumf,
    StableHlo.nullary main_cst (constant S_ .f32 0x00000000#32),
    StableHlo.unary main_cst main_v17 (broadcastInDim S100000x32 ![] bcast_S_S100000x32 : (⟨S_, .f32⟩ : BufTy).Contents (Elt F) → (⟨S100000x32, .f32⟩ : BufTy).Contents (Elt F)),
    StableHlo.unary main_v3 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_arg0 main_v19 main_v20 (addf : (⟨S100000x32, .f32⟩ : BufTy).Contents (Elt F) → (⟨S100000x32, .f32⟩ : BufTy).Contents (Elt F) → (⟨S100000x32, .f32⟩ : BufTy).Contents (Elt F)),
    StableHlo.binary main_v20 main_arg5 main_v21 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg6 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v24 : StableHlo.TRef sig ⟨S100000x128, .f32⟩) main_call1.v0 main_call1.v1 maximumf,
    StableHlo.binary main_v25 main_arg7 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v28 main_v29 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.binary main_v29 main_cst_1 main_v30 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (.of main_v29 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v29 : StableHlo.TRef sig ⟨S100000x128, .f32⟩) main_call2.v4 main_call2.v5 subf,
    StableHlo.TRef.binary main_call2.v5 main_call2.v5 main_call2.v6 mulf,
    StableHlo.TRef.unary (.of main_c_3 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v32 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v35 main_v36 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v37 (broadcastInDim S128 ![] bcast_S_S128 : (⟨S_, .f32⟩ : BufTy).Contents (Elt F) → (⟨S128, .f32⟩ : BufTy).Contents (Elt F)),
    StableHlo.binary main_v33 main_v37 main_v38 (addf : (⟨S128, .f32⟩ : BufTy).Contents (Elt F) → (⟨S128, .f32⟩ : BufTy).Contents (Elt F) → (⟨S128, .f32⟩ : BufTy).Contents (Elt F)),
    StableHlo.unary main_v38 main_v39 (Host.rsqrt : (⟨S128, .f32⟩ : BufTy).Contents (Elt F) → (⟨S128, .f32⟩ : BufTy).Contents (Elt F)),
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v41 main_v42 (mulf : (⟨S100000x128, .f32⟩ : BufTy).Contents (Elt F) → (⟨S100000x128, .f32⟩ : BufTy).Contents (Elt F) → (⟨S100000x128, .f32⟩ : BufTy).Contents (Elt F)),
    StableHlo.unary main_arg9 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (mulf : (⟨S100000x128, .f32⟩ : BufTy).Contents (Elt F) → (⟨S100000x128, .f32⟩ : BufTy).Contents (Elt F) → (⟨S100000x128, .f32⟩ : BufTy).Contents (Elt F)),
    StableHlo.unary main_arg10 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v48 : StableHlo.TRef sig ⟨S100000x128, .f32⟩) main_call3.v0 main_call3.v1 maximumf,
    StableHlo.nullary main_c_5 (constantI S_ 32 0#32),
    StableHlo.unary main_c_5 main_v50 (broadcastInDim S1600000 ![] bcast_S_S1600000 : (⟨S_, .i32⟩ : BufTy).Contents (Elt F) → (⟨S1600000, .i32⟩ : BufTy).Contents (Elt F)),
    StableHlo.binary main_v1 main_v50 main_v51 (cmpi .slt : (⟨S1600000, .i32⟩ : BufTy).Contents (Elt F) → (⟨S1600000, .i32⟩ : BufTy).Contents (Elt F) → (⟨S1600000, .i1⟩ : BufTy).Contents (Elt F)) ]

/-- Operations 88 … 176: the rest of the second block (index wrap, messages, scatter-add, perceptron, column
    statistics, normalisation, relu) and the head's two layers up to the negation. -/
abbrev ops1 : List (HloOp τ sig (Elt F)) :=
  [ StableHlo.nullary main_c_6 (constantI S_ 32 100000#32),
    StableHlo.unary main_c_6 main_v52 (broadcastInDim S1600000 ![] bcast_S_S1600000 : (⟨S_, .i32⟩ : BufTy).Contents (Elt F) → (⟨S1600000, .i32⟩ : BufTy).Contents (Elt F)),
    StableHlo.binary main_v1 main_v52 main_v53 (addi : (⟨S1600000, .i32⟩ : BufTy).Contents (Elt F) → (⟨S1600000, .i32⟩ : BufTy).Contents (Elt F) → (⟨S1600000, .i32⟩ : BufTy).Contents (Elt F)),
    StableHlo.ternary main_v51 main_v53 main_v1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v54 main_v55 (broadcastInDim S1600000x1 ![0] bcast_S1600000_S1600000x1_0 : (⟨S1600000, .i32⟩ : BufTy).Contents (Elt F) → (⟨S1600000x1, .i32⟩ : BufTy).Contents (Elt F)),
    StableHlo.binary main_v49 main_v55 main_v56 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.binary main_arg2 main_arg11 main_v57 ((fun l r => Host.dotGeneral dot_S1600000x16_S16x128_S1600000x128_1_0_0_1_n_n none l r) : (⟨S1600000x16, .f32⟩ : BufTy).Contents (Elt F) → (⟨S16x128, .f32⟩ : BufTy).Contents (Elt F) → (⟨S1600000x128, .f32⟩ : BufTy).Contents (Elt F)),
    StableHlo.binary main_v56 main_v57 main_v58 (addf : (⟨S1600000x128, .f32⟩ : BufTy).Contents (Elt F) → (⟨S1600000x128, .f32⟩ : BufTy).Contents (Elt F) → (⟨S1600000x128, .f32⟩ : BufTy).Contents (Elt F)),
    StableHlo.unary main_arg12 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S1600000x128 ![0, 1] bcast_S1x128_S1600000x128_0_1 : (⟨S1x128, .f32⟩ : BufTy).Contents (Elt F) → (⟨S1600000x128, .f32⟩ : BufTy).Contents (Elt F)),
    StableHlo.binary main_v58 main_v60 main_v61 (addf : (⟨S1600000x128, .f32⟩ : BufTy).Contents (Elt F) → (⟨S1600000x128, .f32⟩ : BufTy).Contents (Elt F) → (⟨S1600000x128, .f32⟩ : BufTy).Contents (Elt F)),
    StableHlo.TRef.nullary main_call4.cst (constant S_ .f32 0x00000000#32),
    StableHlo.TRef.unary main_call4.cst main_call4.v0 (broadcastInDim S1600000x128 ![] bcast_S_S1600000x128),
    StableHlo.TRef.binary (.of main_v61 : StableHlo.TRef sig ⟨S1600000x128, .f32⟩) main_call4.v0 main_call4.v1 maximumf,
    StableHlo.nullary main_cst_7 (constant S_ .f32 0x00000000#32),
    StableHlo.unary main_cst_7 main_v63 (broadcastInDim S100000x128 ![] bcast_S_S100000x128 : (⟨S_, .f32⟩ : BufTy).Contents (Elt F) → (⟨S100000x128, .f32⟩ : BufTy).Contents (Elt F)),
    StableHlo.unary main_v3 main_v64 (broadcastInDim S1600000x1 ![0] bcast_S1600000_S1600000x1_0 : (⟨S1600000, .i32⟩ : BufTy).Contents (Elt F) → (⟨S1600000x1, .i32⟩ : BufTy).Contents (Elt F)),
    StableHlo.ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v49 main_v65 main_v66 (addf : (⟨S100000x128, .f32⟩ : BufTy).Contents (Elt F) → (⟨S100000x128, .f32⟩ : BufTy).Contents (Elt F) → (⟨S100000x128, .f32⟩ : BufTy).Contents (Elt F)),
    StableHlo.binary main_v66 main_arg13 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg14 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v70 : StableHlo.TRef sig ⟨S100000x128, .f32⟩) main_call5.v0 main_call5.v1 maximumf,
    StableHlo.binary main_v71 main_arg15 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg16 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v74 main_v75 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x00000000#32),
    StableHlo.binary main_v75 main_cst_8 main_v76 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v77 (broadcastInDim S128 ![] bcast_S_S128 : (⟨S_, .f32⟩ : BufTy).Contents (Elt F) → (⟨S128, .f32⟩ : BufTy).Contents (Elt F)),
    StableHlo.binary main_v76 main_v77 main_v78 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call6.cst (constant S_ .f32 0x00000000#32),
    StableHlo.TRef.binary (.of main_v75 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v75 : StableHlo.TRef sig ⟨S100000x128, .f32⟩) main_call6.v4 main_call6.v5 subf,
    StableHlo.TRef.binary main_call6.v5 main_call6.v5 main_call6.v6 mulf,
    StableHlo.TRef.unary (.of main_c_10 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v78 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v81 main_v82 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v83 (broadcastInDim S128 ![] bcast_S_S128 : (⟨S_, .f32⟩ : BufTy).Contents (Elt F) → (⟨S128, .f32⟩ : BufTy).Contents (Elt F)),
    StableHlo.binary main_v79 main_v83 main_v84 (addf : (⟨S128, .f32⟩ : BufTy).Contents (Elt F) → (⟨S128, .f32⟩ : BufTy).Contents (Elt F) → (⟨S128, .f32⟩ : BufTy).Contents (Elt F)),
    StableHlo.unary main_v84 main_v85 (Host.rsqrt : (⟨S128, .f32⟩ : BufTy).Contents (Elt F) → (⟨S128, .f32⟩ : BufTy).Contents (Elt F)),
    StableHlo.unary main_v85 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v87 main_v88 (mulf : (⟨S100000x128, .f32⟩ : BufTy).Contents (Elt F) → (⟨S100000x128, .f32⟩ : BufTy).Contents (Elt F) → (⟨S100000x128, .f32⟩ : BufTy).Contents (Elt F)),
    StableHlo.unary main_arg17 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v90 main_v91 (mulf : (⟨S100000x128, .f32⟩ : BufTy).Contents (Elt F) → (⟨S100000x128, .f32⟩ : BufTy).Contents (Elt F) → (⟨S100000x128, .f32⟩ : BufTy).Contents (Elt F)),
    StableHlo.unary main_arg18 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v93 main_v94 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v94 : StableHlo.TRef sig ⟨S100000x128, .f32⟩) main_call7.v0 main_call7.v1 maximumf,
    StableHlo.binary main_v95 main_arg19 main_v96 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg20 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v98 main_v99 (addf : (⟨S100000x128, .f32⟩ : BufTy).Contents (Elt F) → (⟨S100000x128, .f32⟩ : BufTy).Contents (Elt F) → (⟨S100000x128, .f32⟩ : BufTy).Contents (Elt F)),
    StableHlo.TRef.nullary main_call8.cst (constant S_ .f32 0x00000000#32),
    StableHlo.TRef.unary main_call8.cst main_call8.v0 (broadcastInDim S100000x128 ![] bcast_S_S100000x128),
    StableHlo.TRef.binary (.of main_v99 : StableHlo.TRef sig ⟨S100000x128, .f32⟩) main_call8.v0 main_call8.v1 maximumf,
    StableHlo.binary main_v100 main_arg21 main_v101 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.unary main_arg22 main_v102 (broadcastInDim S1x1 ![1] bcast_S1_S1x1_1 : (⟨S1, .f32⟩ : BufTy).Contents (Elt F) → (⟨S1x1, .f32⟩ : BufTy).Contents (Elt F)),
    StableHlo.unary main_v102 main_v103 (broadcastInDim S100000x1 ![0, 1] bcast_S1x1_S100000x1_0_1 : (⟨S1x1, .f32⟩ : BufTy).Contents (Elt F) → (⟨S100000x1, .f32⟩ : BufTy).Contents (Elt F)),
    StableHlo.binary main_v101 main_v103 main_v104 (addf : (⟨S100000x1, .f32⟩ : BufTy).Contents (Elt F) → (⟨S100000x1, .f32⟩ : BufTy).Contents (Elt F) → (⟨S100000x1, .f32⟩ : BufTy).Contents (Elt F)),
    StableHlo.unary main_v104 main_v105 (Host.negf : (⟨S100000x1, .f32⟩ : BufTy).Contents (Elt F) → (⟨S100000x1, .f32⟩ : BufTy).Contents (Elt F)) ]

/-- Operations 177 … 183: the logistic function 1 / (1 + exp(·)) of the negated head output. -/
abbrev ops2 : List (HloOp τ sig (Elt F)) :=
  [ StableHlo.unary main_v105 main_v106 (Host.exp : (⟨S100000x1, .f32⟩ : BufTy).Contents (Elt F) → (⟨S100000x1, .f32⟩ : BufTy).Contents (Elt F)),
    StableHlo.nullary main_cst_12 (constant S_ .f32 0x3F800000#32),
    StableHlo.unary main_cst_12 main_v107 (broadcastInDim S100000x1 ![] bcast_S_S100000x1 : (⟨S_, .f32⟩ : BufTy).Contents (Elt F) → (⟨S100000x1, .f32⟩ : BufTy).Contents (Elt F)),
    StableHlo.binary main_v107 main_v106 main_v108 (addf : (⟨S100000x1, .f32⟩ : BufTy).Contents (Elt F) → (⟨S100000x1, .f32⟩ : BufTy).Contents (Elt F) → (⟨S100000x1, .f32⟩ : BufTy).Contents (Elt F)),
    StableHlo.nullary main_cst_13 (constant S_ .f32 0x3F800000#32),
    StableHlo.unary main_cst_13 main_v109 (broadcastInDim S100000x1 ![] bcast_S_S100000x1 : (⟨S_, .f32⟩ : BufTy).Contents (Elt F) → (⟨S100000x1, .f32⟩ : BufTy).Contents (Elt F)),
    StableHlo.binary main_v109 main_v108 main_v110 (Host.divf : (⟨S100000x1, .f32⟩ : BufTy).Contents (Elt F) → (⟨S100000x1, .f32⟩ : BufTy).Contents (Elt F) → (⟨S100000x1, .f32⟩ : BufTy).Contents (Elt F)) ]

/-- The whole line: the three pieces in order. -/
abbrev ops : List (HloOp τ sig (Elt F)) := ops0 ++ (ops1 ++ ops2)

/-! Each third of the entry function is its piece of the line: the helper functions' definitions unfold at
    their calls, and sequencing reassociates into one chain of steps. -/

set_option maxRecDepth 8192 in
set_option maxHeartbeats 4000000 in
theorem main_part0_eq (c : Dev nD) : main_part0 (F := F) c = seq ops0 := by
  simp only [main_part0, fn_relu.body, fn_relu_0.body, fn_relu_1.body, fn_var.body, fn_where.body, seq, bind_assoc, pure_bind]
  rfl

set_option maxRecDepth 8192 in
set_option maxHeartbeats 4000000 in
theorem main_part1_eq (c : Dev nD) : main_part1 (F := F) c = seq ops1 := by
  simp only [main_part1, fn_relu.body, fn_relu_0.body, fn_relu_1.body, fn_var.body, fn_where.body, seq, bind_assoc, pure_bind]
  rfl

set_option maxRecDepth 8192 in
theorem main_part2_eq (c : Dev nD) : main_part2 (F := F) c = seq ops2 := rfl

/-- The entry function is the whole line run in order. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches only arrays of the device. -/

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub ..⟩

set_option maxRecDepth 8192 in
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., unary_bufs_sub .., ternary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., unary_bufs_sub ..⟩

theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

end Cert.ReferenceIdeal.RefRun

end
-- ==== Proof.RefRun.lean ====
/-
  The reference network's run, read back as one function of its argument arrays.

  The line of 183 whole-array operations is folded piece by piece over the arrays' contents at launch. After
  the first piece the arrays still needed are the two rows of the edge list, the sign test of the sources
  and the first block's output; after the second, the negated head output; after the third, the result.
  Each is identified with the corresponding stage of the network written as a function of the argument
  arrays (the specification module): the first block, then the second block and the head's two layers,
  then the logistic function. No operation writes an argument array, so those keep their launch contents.
  The run theorem then says: every weakly fair execution terminates, the result array holds the network's
  value on the launch contents of the arguments, and the argument arrays are unchanged.
-/
import proofs.«116086_j16767552323790_2_alg».proof.Proof.RefOps
import proofs.«116086_j16767552323790_2_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Folding two lines one after the other is folding their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Contents of every array of the device, over the extended reals. -/
abbrev Val0 : Type := Valuation τ sig (Elt Ideal)

/-- The contents at launch. -/
abbrev val0 (V0 : Val0) : Val0 := V0
/-- The contents after the first piece. -/
def val1 (V0 : Val0) : Val0 := after ops0 (val0 V0)
/-- The contents after the first two pieces. -/
def val2 (V0 : Val0) : Val0 := after ops1 (val1 V0)
/-- The contents after the whole line. -/
def val3 (V0 : Val0) : Val0 := after ops2 (val2 V0)

theorem after_ops (V0 : Val0) : after ops V0 = val3 V0 :=
  (after_append ops0 (ops1 ++ ops2) V0).trans (after_append ops1 ops2 _)

/-- An operation of one of the builders writes exactly its result array, which is in the list. -/
local macro "wr" : term => `(Finset.singleton_subset_iff.mpr (List.mem_toFinset.mpr (List.mem_map_of_mem (by decide))))

/-- The arrays that piece 0 writes: one per operation. -/
abbrev ops0_W : List (Ref sig .tc) :=
  [main_v0, main_v1, main_v2, main_v3, main_c, main_v4, main_v5, main_c_0,
   main_v6, main_v7, main_v8, main_v9, main_v10, main_v11, main_v12, main_v13,
   main_v14, main_v15, main_call0_cst, main_call0_v0, main_v16, main_cst, main_v17, main_v18,
   main_v19, main_v20, main_v21, main_v22, main_v23, main_v24, main_call1_cst, main_call1_v0,
   main_v25, main_v26, main_v27, main_v28, main_v29, main_cst_1, main_v30, main_cst_2,
   main_v31, main_v32, main_c_3, main_call2_cst, main_call2_v0, main_call2_v1, main_call2_cst_0, main_call2_v2,
   main_call2_v3, main_call2_v4, main_call2_v5, main_call2_v6, main_call2_v7, main_call2_cst_1, main_call2_v8, main_call2_cst_2,
   main_call2_v9, main_call2_v10, main_call2_v11, main_call2_cst_3, main_call2_v12, main_call2_cst_4, main_call2_call0_v0, main_call2_call0_v1,
   main_v33, main_v34, main_v35, main_v36, main_cst_4, main_v37, main_v38, main_v39,
   main_v40, main_v41, main_v42, main_v43, main_v44, main_v45, main_v46, main_v47,
   main_v48, main_call3_cst, main_call3_v0, main_v49, main_c_5, main_v50, main_v51]

set_option maxRecDepth 8192 in
theorem ops0_writes : (ops0 : List (HloOp τ sig (Elt Ideal))).Forall fun op =>
    op.writes ⊆ (ops0_W.map (Proc.devRef (τ := τ) .tc)).toFinset :=
  ⟨wr, wr, wr, wr, wr, wr, wr, wr, wr, wr, wr, wr,
   wr, wr, wr, wr, wr, wr, wr, wr, wr, wr, wr, wr,
   wr, wr, wr, wr, wr, wr, wr, wr, wr, wr, wr, wr,
   wr, wr, wr, wr, wr, wr, wr, wr, wr, wr, wr, wr,
   wr, wr, wr, wr, wr, wr, wr, wr, wr, wr, wr, wr,
   wr, wr, wr, wr, wr, wr, wr, wr, wr, wr, wr, wr,
   wr, wr, wr, wr, wr, wr, wr, wr, wr, wr, wr, wr,
   wr, wr, wr⟩

/-- An array that piece 0 does not write keeps its contents through it. -/
theorem val1_keep (V0 : Val0) (r : Ref sig .tc) (h : r ∉ ops0_W) :
    val1 V0 (Proc.devRef .tc r) = val0 V0 (Proc.devRef .tc r) :=
  after_of_writes_sub ops0 _ ops0_writes h

/-- The arrays that piece 1 writes: one per operation. -/
abbrev ops1_W : List (Ref sig .tc) :=
  [main_c_6, main_v52, main_v53, main_v54, main_v55, main_v56, main_v57, main_v58,
   main_v59, main_v60, main_v61, main_call4_cst, main_call4_v0, main_v62, main_cst_7, main_v63,
   main_v64, main_v65, main_v66, main_v67, main_v68, main_v69, main_v70, main_call5_cst,
   main_call5_v0, main_v71, main_v72, main_v73, main_v74, main_v75, main_cst_8, main_v76,
   main_cst_9, main_v77, main_v78, main_c_10, main_call6_cst, main_call6_v0, main_call6_v1, main_call6_cst_0,
   main_call6_v2, main_call6_v3, main_call6_v4, main_call6_v5, main_call6_v6, main_call6_v7, main_call6_cst_1, main_call6_v8,
   main_call6_cst_2, main_call6_v9, main_call6_v10, main_call6_v11, main_call6_cst_3, main_call6_v12, main_call6_cst_4, main_call6_call0_v0,
   main_call6_call0_v1, main_v79, main_v80, main_v81, main_v82, main_cst_11, main_v83, main_v84,
   main_v85, main_v86, main_v87, main_v88, main_v89, main_v90, main_v91, main_v92,
   main_v93, main_v94, main_call7_cst, main_call7_v0, main_v95, main_v96, main_v97, main_v98,
   main_v99, main_call8_cst, main_call8_v0, main_v100, main_v101, main_v102, main_v103, main_v104,
   main_v105]

set_option maxRecDepth 8192 in
theorem ops1_writes : (ops1 : List (HloOp τ sig (Elt Ideal))).Forall fun op =>
    op.writes ⊆ (ops1_W.map (Proc.devRef (τ := τ) .tc)).toFinset :=
  ⟨wr, wr, wr, wr, wr, wr, wr, wr, wr, wr, wr, wr,
   wr, wr, wr, wr, wr, wr, wr, wr, wr, wr, wr, wr,
   wr, wr, wr, wr, wr, wr, wr, wr, wr, wr, wr, wr,
   wr, wr, wr, wr, wr, wr, wr, wr, wr, wr, wr, wr,
   wr, wr, wr, wr, wr, wr, wr, wr, wr, wr, wr, wr,
   wr, wr, wr, wr, wr, wr, wr, wr, wr, wr, wr, wr,
   wr, wr, wr, wr, wr, wr, wr, wr, wr, wr, wr, wr,
   wr, wr, wr, wr, wr⟩

/-- An array that piece 1 does not write keeps its contents through it. -/
theorem val2_keep (V0 : Val0) (r : Ref sig .tc) (h : r ∉ ops1_W) :
    val2 V0 (Proc.devRef .tc r) = val1 V0 (Proc.devRef .tc r) :=
  after_of_writes_sub ops1 _ ops1_writes h

/-- The arrays that piece 2 writes: one per operation. -/
abbrev ops2_W : List (Ref sig .tc) :=
  [main_v106, main_cst_12, main_v107, main_v108, main_cst_13, main_v109, main_v110]

set_option maxRecDepth 8192 in
theorem ops2_writes : (ops2 : List (HloOp τ sig (Elt Ideal))).Forall fun op =>
    op.writes ⊆ (ops2_W.map (Proc.devRef (τ := τ) .tc)).toFinset :=
  ⟨wr, wr, wr, wr, wr, wr, wr⟩

/-- An array that piece 2 does not write keeps its contents through it. -/
theorem val3_keep (V0 : Val0) (r : Ref sig .tc) (h : r ∉ ops2_W) :
    val3 V0 (Proc.devRef .tc r) = val2 V0 (Proc.devRef .tc r) :=
  after_of_writes_sub ops2 _ ops2_writes h

/-! ## The argument arrays are never written -/

theorem val1_arg0 (V0 : Val0) : val1 V0 (no_index (Proc.devRef .tc main_arg0)) = V0 (Proc.devRef .tc main_arg0) :=
  val1_keep V0 main_arg0 (by decide)
theorem val1_arg1 (V0 : Val0) : val1 V0 (no_index (Proc.devRef .tc main_arg1)) = V0 (Proc.devRef .tc main_arg1) :=
  val1_keep V0 main_arg1 (by decide)
theorem val1_arg2 (V0 : Val0) : val1 V0 (no_index (Proc.devRef .tc main_arg2)) = V0 (Proc.devRef .tc main_arg2) :=
  val1_keep V0 main_arg2 (by decide)
theorem val1_arg3 (V0 : Val0) : val1 V0 (no_index (Proc.devRef .tc main_arg3)) = V0 (Proc.devRef .tc main_arg3) :=
  val1_keep V0 main_arg3 (by decide)
theorem val1_arg4 (V0 : Val0) : val1 V0 (no_index (Proc.devRef .tc main_arg4)) = V0 (Proc.devRef .tc main_arg4) :=
  val1_keep V0 main_arg4 (by decide)
theorem val1_arg5 (V0 : Val0) : val1 V0 (no_index (Proc.devRef .tc main_arg5)) = V0 (Proc.devRef .tc main_arg5) :=
  val1_keep V0 main_arg5 (by decide)
theorem val1_arg6 (V0 : Val0) : val1 V0 (no_index (Proc.devRef .tc main_arg6)) = V0 (Proc.devRef .tc main_arg6) :=
  val1_keep V0 main_arg6 (by decide)
theorem val1_arg7 (V0 : Val0) : val1 V0 (no_index (Proc.devRef .tc main_arg7)) = V0 (Proc.devRef .tc main_arg7) :=
  val1_keep V0 main_arg7 (by decide)
theorem val1_arg8 (V0 : Val0) : val1 V0 (no_index (Proc.devRef .tc main_arg8)) = V0 (Proc.devRef .tc main_arg8) :=
  val1_keep V0 main_arg8 (by decide)
theorem val1_arg9 (V0 : Val0) : val1 V0 (no_index (Proc.devRef .tc main_arg9)) = V0 (Proc.devRef .tc main_arg9) :=
  val1_keep V0 main_arg9 (by decide)
theorem val1_arg10 (V0 : Val0) : val1 V0 (no_index (Proc.devRef .tc main_arg10)) = V0 (Proc.devRef .tc main_arg10) :=
  val1_keep V0 main_arg10 (by decide)
theorem val1_arg11 (V0 : Val0) : val1 V0 (no_index (Proc.devRef .tc main_arg11)) = V0 (Proc.devRef .tc main_arg11) :=
  val1_keep V0 main_arg11 (by decide)
theorem val1_arg12 (V0 : Val0) : val1 V0 (no_index (Proc.devRef .tc main_arg12)) = V0 (Proc.devRef .tc main_arg12) :=
  val1_keep V0 main_arg12 (by decide)
theorem val1_arg13 (V0 : Val0) : val1 V0 (no_index (Proc.devRef .tc main_arg13)) = V0 (Proc.devRef .tc main_arg13) :=
  val1_keep V0 main_arg13 (by decide)
theorem val1_arg14 (V0 : Val0) : val1 V0 (no_index (Proc.devRef .tc main_arg14)) = V0 (Proc.devRef .tc main_arg14) :=
  val1_keep V0 main_arg14 (by decide)
theorem val1_arg15 (V0 : Val0) : val1 V0 (no_index (Proc.devRef .tc main_arg15)) = V0 (Proc.devRef .tc main_arg15) :=
  val1_keep V0 main_arg15 (by decide)
theorem val1_arg16 (V0 : Val0) : val1 V0 (no_index (Proc.devRef .tc main_arg16)) = V0 (Proc.devRef .tc main_arg16) :=
  val1_keep V0 main_arg16 (by decide)
theorem val1_arg17 (V0 : Val0) : val1 V0 (no_index (Proc.devRef .tc main_arg17)) = V0 (Proc.devRef .tc main_arg17) :=
  val1_keep V0 main_arg17 (by decide)
theorem val1_arg18 (V0 : Val0) : val1 V0 (no_index (Proc.devRef .tc main_arg18)) = V0 (Proc.devRef .tc main_arg18) :=
  val1_keep V0 main_arg18 (by decide)
theorem val1_arg19 (V0 : Val0) : val1 V0 (no_index (Proc.devRef .tc main_arg19)) = V0 (Proc.devRef .tc main_arg19) :=
  val1_keep V0 main_arg19 (by decide)
theorem val1_arg20 (V0 : Val0) : val1 V0 (no_index (Proc.devRef .tc main_arg20)) = V0 (Proc.devRef .tc main_arg20) :=
  val1_keep V0 main_arg20 (by decide)
theorem val1_arg21 (V0 : Val0) : val1 V0 (no_index (Proc.devRef .tc main_arg21)) = V0 (Proc.devRef .tc main_arg21) :=
  val1_keep V0 main_arg21 (by decide)
theorem val1_arg22 (V0 : Val0) : val1 V0 (no_index (Proc.devRef .tc main_arg22)) = V0 (Proc.devRef .tc main_arg22) :=
  val1_keep V0 main_arg22 (by decide)
theorem val2_arg0 (V0 : Val0) : val2 V0 (no_index (Proc.devRef .tc main_arg0)) = V0 (Proc.devRef .tc main_arg0) :=
  (val2_keep V0 main_arg0 (by decide)).trans (val1_arg0 V0)
theorem val2_arg1 (V0 : Val0) : val2 V0 (no_index (Proc.devRef .tc main_arg1)) = V0 (Proc.devRef .tc main_arg1) :=
  (val2_keep V0 main_arg1 (by decide)).trans (val1_arg1 V0)
theorem val2_arg2 (V0 : Val0) : val2 V0 (no_index (Proc.devRef .tc main_arg2)) = V0 (Proc.devRef .tc main_arg2) :=
  (val2_keep V0 main_arg2 (by decide)).trans (val1_arg2 V0)
theorem val2_arg3 (V0 : Val0) : val2 V0 (no_index (Proc.devRef .tc main_arg3)) = V0 (Proc.devRef .tc main_arg3) :=
  (val2_keep V0 main_arg3 (by decide)).trans (val1_arg3 V0)
theorem val2_arg4 (V0 : Val0) : val2 V0 (no_index (Proc.devRef .tc main_arg4)) = V0 (Proc.devRef .tc main_arg4) :=
  (val2_keep V0 main_arg4 (by decide)).trans (val1_arg4 V0)
theorem val2_arg5 (V0 : Val0) : val2 V0 (no_index (Proc.devRef .tc main_arg5)) = V0 (Proc.devRef .tc main_arg5) :=
  (val2_keep V0 main_arg5 (by decide)).trans (val1_arg5 V0)
theorem val2_arg6 (V0 : Val0) : val2 V0 (no_index (Proc.devRef .tc main_arg6)) = V0 (Proc.devRef .tc main_arg6) :=
  (val2_keep V0 main_arg6 (by decide)).trans (val1_arg6 V0)
theorem val2_arg7 (V0 : Val0) : val2 V0 (no_index (Proc.devRef .tc main_arg7)) = V0 (Proc.devRef .tc main_arg7) :=
  (val2_keep V0 main_arg7 (by decide)).trans (val1_arg7 V0)
theorem val2_arg8 (V0 : Val0) : val2 V0 (no_index (Proc.devRef .tc main_arg8)) = V0 (Proc.devRef .tc main_arg8) :=
  (val2_keep V0 main_arg8 (by decide)).trans (val1_arg8 V0)
theorem val2_arg9 (V0 : Val0) : val2 V0 (no_index (Proc.devRef .tc main_arg9)) = V0 (Proc.devRef .tc main_arg9) :=
  (val2_keep V0 main_arg9 (by decide)).trans (val1_arg9 V0)
theorem val2_arg10 (V0 : Val0) : val2 V0 (no_index (Proc.devRef .tc main_arg10)) = V0 (Proc.devRef .tc main_arg10) :=
  (val2_keep V0 main_arg10 (by decide)).trans (val1_arg10 V0)
theorem val2_arg11 (V0 : Val0) : val2 V0 (no_index (Proc.devRef .tc main_arg11)) = V0 (Proc.devRef .tc main_arg11) :=
  (val2_keep V0 main_arg11 (by decide)).trans (val1_arg11 V0)
theorem val2_arg12 (V0 : Val0) : val2 V0 (no_index (Proc.devRef .tc main_arg12)) = V0 (Proc.devRef .tc main_arg12) :=
  (val2_keep V0 main_arg12 (by decide)).trans (val1_arg12 V0)
theorem val2_arg13 (V0 : Val0) : val2 V0 (no_index (Proc.devRef .tc main_arg13)) = V0 (Proc.devRef .tc main_arg13) :=
  (val2_keep V0 main_arg13 (by decide)).trans (val1_arg13 V0)
theorem val2_arg14 (V0 : Val0) : val2 V0 (no_index (Proc.devRef .tc main_arg14)) = V0 (Proc.devRef .tc main_arg14) :=
  (val2_keep V0 main_arg14 (by decide)).trans (val1_arg14 V0)
theorem val2_arg15 (V0 : Val0) : val2 V0 (no_index (Proc.devRef .tc main_arg15)) = V0 (Proc.devRef .tc main_arg15) :=
  (val2_keep V0 main_arg15 (by decide)).trans (val1_arg15 V0)
theorem val2_arg16 (V0 : Val0) : val2 V0 (no_index (Proc.devRef .tc main_arg16)) = V0 (Proc.devRef .tc main_arg16) :=
  (val2_keep V0 main_arg16 (by decide)).trans (val1_arg16 V0)
theorem val2_arg17 (V0 : Val0) : val2 V0 (no_index (Proc.devRef .tc main_arg17)) = V0 (Proc.devRef .tc main_arg17) :=
  (val2_keep V0 main_arg17 (by decide)).trans (val1_arg17 V0)
theorem val2_arg18 (V0 : Val0) : val2 V0 (no_index (Proc.devRef .tc main_arg18)) = V0 (Proc.devRef .tc main_arg18) :=
  (val2_keep V0 main_arg18 (by decide)).trans (val1_arg18 V0)
theorem val2_arg19 (V0 : Val0) : val2 V0 (no_index (Proc.devRef .tc main_arg19)) = V0 (Proc.devRef .tc main_arg19) :=
  (val2_keep V0 main_arg19 (by decide)).trans (val1_arg19 V0)
theorem val2_arg20 (V0 : Val0) : val2 V0 (no_index (Proc.devRef .tc main_arg20)) = V0 (Proc.devRef .tc main_arg20) :=
  (val2_keep V0 main_arg20 (by decide)).trans (val1_arg20 V0)
theorem val2_arg21 (V0 : Val0) : val2 V0 (no_index (Proc.devRef .tc main_arg21)) = V0 (Proc.devRef .tc main_arg21) :=
  (val2_keep V0 main_arg21 (by decide)).trans (val1_arg21 V0)
theorem val2_arg22 (V0 : Val0) : val2 V0 (no_index (Proc.devRef .tc main_arg22)) = V0 (Proc.devRef .tc main_arg22) :=
  (val2_keep V0 main_arg22 (by decide)).trans (val1_arg22 V0)
theorem val3_arg0 (V0 : Val0) : val3 V0 (no_index (Proc.devRef .tc main_arg0)) = V0 (Proc.devRef .tc main_arg0) :=
  (val3_keep V0 main_arg0 (by decide)).trans (val2_arg0 V0)
theorem val3_arg1 (V0 : Val0) : val3 V0 (no_index (Proc.devRef .tc main_arg1)) = V0 (Proc.devRef .tc main_arg1) :=
  (val3_keep V0 main_arg1 (by decide)).trans (val2_arg1 V0)
theorem val3_arg2 (V0 : Val0) : val3 V0 (no_index (Proc.devRef .tc main_arg2)) = V0 (Proc.devRef .tc main_arg2) :=
  (val3_keep V0 main_arg2 (by decide)).trans (val2_arg2 V0)
theorem val3_arg3 (V0 : Val0) : val3 V0 (no_index (Proc.devRef .tc main_arg3)) = V0 (Proc.devRef .tc main_arg3) :=
  (val3_keep V0 main_arg3 (by decide)).trans (val2_arg3 V0)
theorem val3_arg4 (V0 : Val0) : val3 V0 (no_index (Proc.devRef .tc main_arg4)) = V0 (Proc.devRef .tc main_arg4) :=
  (val3_keep V0 main_arg4 (by decide)).trans (val2_arg4 V0)
theorem val3_arg5 (V0 : Val0) : val3 V0 (no_index (Proc.devRef .tc main_arg5)) = V0 (Proc.devRef .tc main_arg5) :=
  (val3_keep V0 main_arg5 (by decide)).trans (val2_arg5 V0)
theorem val3_arg6 (V0 : Val0) : val3 V0 (no_index (Proc.devRef .tc main_arg6)) = V0 (Proc.devRef .tc main_arg6) :=
  (val3_keep V0 main_arg6 (by decide)).trans (val2_arg6 V0)
theorem val3_arg7 (V0 : Val0) : val3 V0 (no_index (Proc.devRef .tc main_arg7)) = V0 (Proc.devRef .tc main_arg7) :=
  (val3_keep V0 main_arg7 (by decide)).trans (val2_arg7 V0)
theorem val3_arg8 (V0 : Val0) : val3 V0 (no_index (Proc.devRef .tc main_arg8)) = V0 (Proc.devRef .tc main_arg8) :=
  (val3_keep V0 main_arg8 (by decide)).trans (val2_arg8 V0)
theorem val3_arg9 (V0 : Val0) : val3 V0 (no_index (Proc.devRef .tc main_arg9)) = V0 (Proc.devRef .tc main_arg9) :=
  (val3_keep V0 main_arg9 (by decide)).trans (val2_arg9 V0)
theorem val3_arg10 (V0 : Val0) : val3 V0 (no_index (Proc.devRef .tc main_arg10)) = V0 (Proc.devRef .tc main_arg10) :=
  (val3_keep V0 main_arg10 (by decide)).trans (val2_arg10 V0)
theorem val3_arg11 (V0 : Val0) : val3 V0 (no_index (Proc.devRef .tc main_arg11)) = V0 (Proc.devRef .tc main_arg11) :=
  (val3_keep V0 main_arg11 (by decide)).trans (val2_arg11 V0)
theorem val3_arg12 (V0 : Val0) : val3 V0 (no_index (Proc.devRef .tc main_arg12)) = V0 (Proc.devRef .tc main_arg12) :=
  (val3_keep V0 main_arg12 (by decide)).trans (val2_arg12 V0)
theorem val3_arg13 (V0 : Val0) : val3 V0 (no_index (Proc.devRef .tc main_arg13)) = V0 (Proc.devRef .tc main_arg13) :=
  (val3_keep V0 main_arg13 (by decide)).trans (val2_arg13 V0)
theorem val3_arg14 (V0 : Val0) : val3 V0 (no_index (Proc.devRef .tc main_arg14)) = V0 (Proc.devRef .tc main_arg14) :=
  (val3_keep V0 main_arg14 (by decide)).trans (val2_arg14 V0)
theorem val3_arg15 (V0 : Val0) : val3 V0 (no_index (Proc.devRef .tc main_arg15)) = V0 (Proc.devRef .tc main_arg15) :=
  (val3_keep V0 main_arg15 (by decide)).trans (val2_arg15 V0)
theorem val3_arg16 (V0 : Val0) : val3 V0 (no_index (Proc.devRef .tc main_arg16)) = V0 (Proc.devRef .tc main_arg16) :=
  (val3_keep V0 main_arg16 (by decide)).trans (val2_arg16 V0)
theorem val3_arg17 (V0 : Val0) : val3 V0 (no_index (Proc.devRef .tc main_arg17)) = V0 (Proc.devRef .tc main_arg17) :=
  (val3_keep V0 main_arg17 (by decide)).trans (val2_arg17 V0)
theorem val3_arg18 (V0 : Val0) : val3 V0 (no_index (Proc.devRef .tc main_arg18)) = V0 (Proc.devRef .tc main_arg18) :=
  (val3_keep V0 main_arg18 (by decide)).trans (val2_arg18 V0)
theorem val3_arg19 (V0 : Val0) : val3 V0 (no_index (Proc.devRef .tc main_arg19)) = V0 (Proc.devRef .tc main_arg19) :=
  (val3_keep V0 main_arg19 (by decide)).trans (val2_arg19 V0)
theorem val3_arg20 (V0 : Val0) : val3 V0 (no_index (Proc.devRef .tc main_arg20)) = V0 (Proc.devRef .tc main_arg20) :=
  (val3_keep V0 main_arg20 (by decide)).trans (val2_arg20 V0)
theorem val3_arg21 (V0 : Val0) : val3 V0 (no_index (Proc.devRef .tc main_arg21)) = V0 (Proc.devRef .tc main_arg21) :=
  (val3_keep V0 main_arg21 (by decide)).trans (val2_arg21 V0)
theorem val3_arg22 (V0 : Val0) : val3 V0 (no_index (Proc.devRef .tc main_arg22)) = V0 (Proc.devRef .tc main_arg22) :=
  (val3_keep V0 main_arg22 (by decide)).trans (val2_arg22 V0)

/-! ## The first piece: the edge list's rows and the first block -/

set_option maxRecDepth 8192 in
set_option maxHeartbeats 4000000 in
theorem val1_v1 (V0 : Val0) : val1 V0 (no_index (Proc.devRef .tc main_v1)) = Spec.row0 (V0 (Proc.devRef .tc main_arg1)) := by
  unfold val1
  simp only [ops0]
  after_results_simp
  rfl

set_option maxRecDepth 8192 in
set_option maxHeartbeats 4000000 in
theorem val1_v3 (V0 : Val0) : val1 V0 (no_index (Proc.devRef .tc main_v3)) = Spec.row1 (V0 (Proc.devRef .tc main_arg1)) := by
  unfold val1
  simp only [ops0]
  after_results_simp
  rfl

set_option maxRecDepth 8192 in
set_option maxHeartbeats 4000000 in
theorem val1_v51 (V0 : Val0) : val1 V0 (no_index (Proc.devRef .tc main_v51)) =
    cmpi .slt (Spec.row0 (V0 (Proc.devRef .tc main_arg1))) (broadcastInDim S1600000 ![] bcast_S_S1600000 (constantI S_ 32 0#32)) := by
  unfold val1
  simp only [ops0]
  after_results_simp
  rfl

set_option maxRecDepth 8192 in
set_option maxHeartbeats 8000000 in
theorem val1_v49 (V0 : Val0) : val1 V0 (no_index (Proc.devRef .tc main_v49)) =
    Spec.block0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val1
  simp only [ops0]
  after_results_simp
  rfl

/-! ## The second piece: the second block and the head's two layers -/

set_option maxRecDepth 8192 in
set_option maxHeartbeats 8000000 in
theorem val2_v105 (V0 : Val0) : val2 V0 (no_index (Proc.devRef .tc main_v105)) =
    Host.negf
      (addf
        (Host.dotGeneral (φ₂ := .f32) dot_S100000x128_S128x1_S100000x1_1_0_0_1_n_n none
          (Spec.reluN (addf (Host.dotGeneral (φ₂ := .f32) dot_S100000x128_S128x128_S100000x128_1_0_0_1_n_n none
            (Spec.block1 (Spec.block0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))) (V0 (Proc.devRef .tc main_arg1)) (V0 (Proc.devRef .tc main_arg2)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)))
            (V0 (Proc.devRef .tc main_arg19) : FVec Ideal S128x128 .f32)) (Spec.rows (V0 (Proc.devRef .tc main_arg20)))))
          (V0 (Proc.devRef .tc main_arg21) : FVec Ideal S128x1 .f32))
        (broadcastInDim S100000x1 ![0, 1] bcast_S1x1_S100000x1_0_1 (broadcastInDim S1x1 ![1] bcast_S1_S1x1_1 (V0 (Proc.devRef .tc main_arg22))))) := by
  unfold val2
  simp only [ops1]
  after_results_simp
  simp only [val1_v1, val1_v3, val1_v49, val1_v51, val1_arg2, val1_arg11, val1_arg12, val1_arg13, val1_arg14, val1_arg15, val1_arg16, val1_arg17, val1_arg18, val1_arg19, val1_arg20, val1_arg21, val1_arg22]
  rfl

/-! ## The third piece: the logistic function -/

set_option maxRecDepth 8192 in
theorem val3_v110 (V0 : Val0) : val3 V0 (no_index (Proc.devRef .tc main_v110)) =
    Spec.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) := by
  unfold val3
  simp only [ops2]
  after_results_simp
  simp only [val2_v105]
  rfl

/-! ## The run -/

set_option maxRecDepth 8192 in
set_option maxHeartbeats 8000000 in
/-- On every device, from any memory with zero counters: every weakly fair execution of the entry function
    terminates with the result array at the network's value on the arguments' launch contents, and the
    argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v110) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v110).trans ((congrFun (after_ops _) _).trans (val3_v110 (launchContents m c))),
      (h c main_arg0).trans ((congrFun (after_ops _) _).trans (val3_arg0 (launchContents m c))),
      (h c main_arg1).trans ((congrFun (after_ops _) _).trans (val3_arg1 (launchContents m c))),
      (h c main_arg2).trans ((congrFun (after_ops _) _).trans (val3_arg2 (launchContents m c))),
      (h c main_arg3).trans ((congrFun (after_ops _) _).trans (val3_arg3 (launchContents m c))),
      (h c main_arg4).trans ((congrFun (after_ops _) _).trans (val3_arg4 (launchContents m c))),
      (h c main_arg5).trans ((congrFun (after_ops _) _).trans (val3_arg5 (launchContents m c))),
      (h c main_arg6).trans ((congrFun (after_ops _) _).trans (val3_arg6 (launchContents m c))),
      (h c main_arg7).trans ((congrFun (after_ops _) _).trans (val3_arg7 (launchContents m c))),
      (h c main_arg8).trans ((congrFun (after_ops _) _).trans (val3_arg8 (launchContents m c))),
      (h c main_arg9).trans ((congrFun (after_ops _) _).trans (val3_arg9 (launchContents m c))),
      (h c main_arg10).trans ((congrFun (after_ops _) _).trans (val3_arg10 (launchContents m c))),
      (h c main_arg11).trans ((congrFun (after_ops _) _).trans (val3_arg11 (launchContents m c))),
      (h c main_arg12).trans ((congrFun (after_ops _) _).trans (val3_arg12 (launchContents m c))),
      (h c main_arg13).trans ((congrFun (after_ops _) _).trans (val3_arg13 (launchContents m c))),
      (h c main_arg14).trans ((congrFun (after_ops _) _).trans (val3_arg14 (launchContents m c))),
      (h c main_arg15).trans ((congrFun (after_ops _) _).trans (val3_arg15 (launchContents m c))),
      (h c main_arg16).trans ((congrFun (after_ops _) _).trans (val3_arg16 (launchContents m c))),
      (h c main_arg17).trans ((congrFun (after_ops _) _).trans (val3_arg17 (launchContents m c))),
      (h c main_arg18).trans ((congrFun (after_ops _) _).trans (val3_arg18 (launchContents m c))),
      (h c main_arg19).trans ((congrFun (after_ops _) _).trans (val3_arg19 (launchContents m c))),
      (h c main_arg20).trans ((congrFun (after_ops _) _).trans (val3_arg20 (launchContents m c))),
      (h c main_arg21).trans ((congrFun (after_ops _) _).trans (val3_arg21 (launchContents m c))),
      (h c main_arg22).trans ((congrFun (after_ops _) _).trans (val3_arg22 (launchContents m c)))⟩)
    (run_seq scopedRefs_eq scopedSems_eq defs main (fun _ => ops) main_eq (fun _ => ops_sub) m ρ)

/-- The run with the result dropped: the entry function terminates and the argument arrays end unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => (h c).2) (run m ρ)

end Cert.ReferenceIdeal.RefRun

end
-- ==== Proof.Finite.lean ====
/-
  From the precondition to the reals.

  The precondition states, for each of the twenty-two float arguments x, that the conjunction over all
  entries of |x i| < +∞ holds, and conjoins the twenty-two results.  On the extended reals
  |a| = max a (-a) is below the top element exactly when a is neither infinity, that is, when a is a real
  number.  So under the precondition every float argument is an array of real numbers.
-/
import proofs.«116086_j16767552323790_2_alg».proof.Defs
import proofs.«116086_j16767552323790_2_alg».proof.Proof.LibReal
import Idealize.ShloMosaic.Lib.ReduceAll
import Idealize.ShloMosaic.Lib.ValueIdx

noncomputable section

namespace Cert.Finite

open Idealize.ShloMosaic Idealize.SL.Sem

/-- An extended real whose absolute value max a (-a) is strictly below the top element is a real number:
    at either infinity the absolute value is the top element itself. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- If the conjunction, over every index of an array x, of the comparisons |x i| < y i is true, and y is the
    top element everywhere, then x is an array of real numbers.  Any shape; the conjunction is a reduction by
    "and" over all axes into a result with a single index. -/
theorem of_all_abs_lt_top {s t u : Shape} {axes : List (Fin s.rank)} [Subsingleton t.Idx]
    (x y : FVec Ideal s .f32) (init : u.Idx → BitVec 1) (hr : s.ReducesTo axes t) (hu : 0 < u.numel) (j : t.Idx)
    (e : Host.reduce IntOp.andi (cmpf .olt (Host.absf x) y) init hr hu j = 1#1)
    (hy : ∀ i, y i = (⊤ : EReal)) : Cert.LibReal.IsReal x := by
  intro i
  have h1 := Host.reduce_andi_all _ init hr hu j e i
  refine real_of_abs_lt_top (x i) ?_
  rw [← hy i]
  exact h1

/-- The splat of the pattern of +∞ over any shape is the top element at every index. -/
theorem top_splat {s z : Shape} {dims : Fin z.rank → Fin s.rank} {hb : z.BroadcastsInDim s dims} (i : s.Idx) :
    broadcastInDim s dims hb (constant z .f32 0x7F800000#32 : FVec Ideal z .f32) i = (⊤ : EReal) :=
  Cert.LibReal.ofBits_inf

/-- The shape of rank zero has exactly one index. -/
instance : Subsingleton Cert.Pre_finite_inputs.S_.Idx := ⟨fun a b => funext fun d => d.elim0⟩

open Cert.Pre_finite_inputs in
/-- Under the precondition every float argument is an array of real numbers (the integer argument 1 is not
    constrained).  The precondition's value at its one index is a conjunction of twenty-two reductions by
    "and"; each conjunct is read back entry by entry. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg0)) ∧
    Cert.LibReal.IsReal (m ((c.tc : Thread Cert.KernelIdeal.nD Cert.KernelIdeal.τ).loc Cert.KernelIdeal.main_arg2)) ∧
    Cert.LibReal.IsReal (m ((c.tc : Thread Cert.KernelIdeal.nD Cert.KernelIdeal.τ).loc Cert.KernelIdeal.main_arg3)) ∧
    Cert.LibReal.IsReal (m ((c.tc : Thread Cert.KernelIdeal.nD Cert.KernelIdeal.τ).loc Cert.KernelIdeal.main_arg4)) ∧
    Cert.LibReal.IsReal (m ((c.tc : Thread Cert.KernelIdeal.nD Cert.KernelIdeal.τ).loc Cert.KernelIdeal.main_arg5)) ∧
    Cert.LibReal.IsReal (m ((c.tc : Thread Cert.KernelIdeal.nD Cert.KernelIdeal.τ).loc Cert.KernelIdeal.main_arg6)) ∧
    Cert.LibReal.IsReal (m ((c.tc : Thread Cert.KernelIdeal.nD Cert.KernelIdeal.τ).loc Cert.KernelIdeal.main_arg7)) ∧
    Cert.LibReal.IsReal (m ((c.tc : Thread Cert.KernelIdeal.nD Cert.KernelIdeal.τ).loc Cert.KernelIdeal.main_arg8)) ∧
    Cert.LibReal.IsReal (m ((c.tc : Thread Cert.KernelIdeal.nD Cert.KernelIdeal.τ).loc Cert.KernelIdeal.main_arg9)) ∧
    Cert.LibReal.IsReal (m ((c.tc : Thread Cert.KernelIdeal.nD Cert.KernelIdeal.τ).loc Cert.KernelIdeal.main_arg10)) ∧
    Cert.LibReal.IsReal (m ((c.tc : Thread Cert.KernelIdeal.nD Cert.KernelIdeal.τ).loc Cert.KernelIdeal.main_arg11)) ∧
    Cert.LibReal.IsReal (m ((c.tc : Thread Cert.KernelIdeal.nD Cert.KernelIdeal.τ).loc Cert.KernelIdeal.main_arg12)) ∧
    Cert.LibReal.IsReal (m ((c.tc : Thread Cert.KernelIdeal.nD Cert.KernelIdeal.τ).loc Cert.KernelIdeal.main_arg13)) ∧
    Cert.LibReal.IsReal (m ((c.tc : Thread Cert.KernelIdeal.nD Cert.KernelIdeal.τ).loc Cert.KernelIdeal.main_arg14)) ∧
    Cert.LibReal.IsReal (m ((c.tc : Thread Cert.KernelIdeal.nD Cert.KernelIdeal.τ).loc Cert.KernelIdeal.main_arg15)) ∧
    Cert.LibReal.IsReal (m ((c.tc : Thread Cert.KernelIdeal.nD Cert.KernelIdeal.τ).loc Cert.KernelIdeal.main_arg16)) ∧
    Cert.LibReal.IsReal (m ((c.tc : Thread Cert.KernelIdeal.nD Cert.KernelIdeal.τ).loc Cert.KernelIdeal.main_arg17)) ∧
    Cert.LibReal.IsReal (m ((c.tc : Thread Cert.KernelIdeal.nD Cert.KernelIdeal.τ).loc Cert.KernelIdeal.main_arg18)) ∧
    Cert.LibReal.IsReal (m ((c.tc : Thread Cert.KernelIdeal.nD Cert.KernelIdeal.τ).loc Cert.KernelIdeal.main_arg19)) ∧
    Cert.LibReal.IsReal (m ((c.tc : Thread Cert.KernelIdeal.nD Cert.KernelIdeal.τ).loc Cert.KernelIdeal.main_arg20)) ∧
    Cert.LibReal.IsReal (m ((c.tc : Thread Cert.KernelIdeal.nD Cert.KernelIdeal.τ).loc Cert.KernelIdeal.main_arg21)) ∧
    Cert.LibReal.IsReal (m ((c.tc : Thread Cert.KernelIdeal.nD Cert.KernelIdeal.τ).loc Cert.KernelIdeal.main_arg22)) := by
  have h0 := congrFun (h c) ValueIdx.ix0
  dsimp only [fn, fn_part1, fn_part2, fn_part3, fn_part4, fn_part5, fn_part6, andi] at h0
  simp only [IntOp.andi_eq_one] at h0
  obtain ⟨⟨⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩ := h0
  exact ⟨of_all_abs_lt_top _ _ _ _ _ _ h0 top_splat,
    of_all_abs_lt_top _ _ _ _ _ _ h2 top_splat,
    of_all_abs_lt_top _ _ _ _ _ _ h3 top_splat,
    of_all_abs_lt_top _ _ _ _ _ _ h4 top_splat,
    of_all_abs_lt_top _ _ _ _ _ _ h5 top_splat,
    of_all_abs_lt_top _ _ _ _ _ _ h6 top_splat,
    of_all_abs_lt_top _ _ _ _ _ _ h7 top_splat,
    of_all_abs_lt_top _ _ _ _ _ _ h8 top_splat,
    of_all_abs_lt_top _ _ _ _ _ _ h9 top_splat,
    of_all_abs_lt_top _ _ _ _ _ _ h10 top_splat,
    of_all_abs_lt_top _ _ _ _ _ _ h11 top_splat,
    of_all_abs_lt_top _ _ _ _ _ _ h12 top_splat,
    of_all_abs_lt_top _ _ _ _ _ _ h13 top_splat,
    of_all_abs_lt_top _ _ _ _ _ _ h14 top_splat,
    of_all_abs_lt_top _ _ _ _ _ _ h15 top_splat,
    of_all_abs_lt_top _ _ _ _ _ _ h16 top_splat,
    of_all_abs_lt_top _ _ _ _ _ _ h17 top_splat,
    of_all_abs_lt_top _ _ _ _ _ _ h18 top_splat,
    of_all_abs_lt_top _ _ _ _ _ _ h19 top_splat,
    of_all_abs_lt_top _ _ _ _ _ _ h20 top_splat,
    of_all_abs_lt_top _ _ _ _ _ _ h21 top_splat,
    of_all_abs_lt_top _ _ _ _ _ _ h22 top_splat⟩

/-- Argument 0 is an array of real numbers. -/
theorem arg0_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg0)) :=
  (args_real m h c).1

/-- Argument 2 is an array of real numbers. -/
theorem arg2_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg2)) :=
  (args_real m h c).2.1

/-- Argument 3 is an array of real numbers. -/
theorem arg3_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg3)) :=
  (args_real m h c).2.2.1

/-- Argument 4 is an array of real numbers. -/
theorem arg4_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg4)) :=
  (args_real m h c).2.2.2.1

/-- Argument 5 is an array of real numbers. -/
theorem arg5_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg5)) :=
  (args_real m h c).2.2.2.2.1

/-- Argument 6 is an array of real numbers. -/
theorem arg6_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg6)) :=
  (args_real m h c).2.2.2.2.2.1

/-- Argument 7 is an array of real numbers. -/
theorem arg7_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg7)) :=
  (args_real m h c).2.2.2.2.2.2.1

/-- Argument 8 is an array of real numbers. -/
theorem arg8_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg8)) :=
  (args_real m h c).2.2.2.2.2.2.2.1

/-- Argument 9 is an array of real numbers. -/
theorem arg9_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg9)) :=
  (args_real m h c).2.2.2.2.2.2.2.2.1

/-- Argument 10 is an array of real numbers. -/
theorem arg10_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg10)) :=
  (args_real m h c).2.2.2.2.2.2.2.2.2.1

/-- Argument 11 is an array of real numbers. -/
theorem arg11_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg11)) :=
  (args_real m h c).2.2.2.2.2.2.2.2.2.2.1

/-- Argument 12 is an array of real numbers. -/
theorem arg12_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg12)) :=
  (args_real m h c).2.2.2.2.2.2.2.2.2.2.2.1

/-- Argument 13 is an array of real numbers. -/
theorem arg13_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg13)) :=
  (args_real m h c).2.2.2.2.2.2.2.2.2.2.2.2.1

/-- Argument 14 is an array of real numbers. -/
theorem arg14_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg14)) :=
  (args_real m h c).2.2.2.2.2.2.2.2.2.2.2.2.2.1

/-- Argument 15 is an array of real numbers. -/
theorem arg15_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg15)) :=
  (args_real m h c).2.2.2.2.2.2.2.2.2.2.2.2.2.2.1

/-- Argument 16 is an array of real numbers. -/
theorem arg16_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg16)) :=
  (args_real m h c).2.2.2.2.2.2.2.2.2.2.2.2.2.2.2.1

/-- Argument 17 is an array of real numbers. -/
theorem arg17_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg17)) :=
  (args_real m h c).2.2.2.2.2.2.2.2.2.2.2.2.2.2.2.2.1

/-- Argument 18 is an array of real numbers. -/
theorem arg18_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg18)) :=
  (args_real m h c).2.2.2.2.2.2.2.2.2.2.2.2.2.2.2.2.2.1

/-- Argument 19 is an array of real numbers. -/
theorem arg19_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg19)) :=
  (args_real m h c).2.2.2.2.2.2.2.2.2.2.2.2.2.2.2.2.2.2.1

/-- Argument 20 is an array of real numbers. -/
theorem arg20_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg20)) :=
  (args_real m h c).2.2.2.2.2.2.2.2.2.2.2.2.2.2.2.2.2.2.2.1

/-- Argument 21 is an array of real numbers. -/
theorem arg21_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg21)) :=
  (args_real m h c).2.2.2.2.2.2.2.2.2.2.2.2.2.2.2.2.2.2.2.2.1

/-- Argument 22 is an array of real numbers. -/
theorem arg22_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.LibReal.IsReal (m ((c.tc : Thread Cert.KernelIdeal.nD Cert.KernelIdeal.τ).loc Cert.KernelIdeal.main_arg22)) :=
  (args_real m h c).2.2.2.2.2.2.2.2.2.2.2.2.2.2.2.2.2.2.2.2.2

end Cert.Finite
-- ==== Proof.lean ====
/-
  The certificate of a two-block message-passing network with a sigmoid head.

  Both programs compute, over the extended reals, one function of the argument arrays (`Cert.Spec.out`): twice —
  messages relu(x[src] + e · We + be) summed into their destination rows, a two-layer perceptron on x plus that sum,
  a normalisation of every column over the 100000 rows to mean zero and variance one (up to ε), scaled, shifted,
  relu — and then a two-layer head ending in 1 / (1 + exp(−z)).

  The reference spells this with whole-array operations; its run is read back operation by operation. The kernel
  program narrows and widens some operands (the identity on extended reals), groups one sum differently (associativity),
  computes the perceptrons tile by tile of 4000 rows (the same sums of products), and normalises differently: each tile
  writes its column sums and sums of squares, the host adds the 25 tiles (the sum over the rows regrouped), forms
  mean μ = s / N and variance ss / N − μ², and each entry becomes h · (γ · r) + (β − (μ · γ) · r) with
  r = rsqrt(variance + ε). For columns of real numbers the mean of the squared deviations is the mean of the squares
  minus the squared mean, and the two spellings of an entry agree by distributivity; every entry is a real because the
  precondition makes every float argument finite and every operation on the way keeps reals real. The last
  normalisation is fused into the head; the kernel's logistic is the reference's 1 / (1 + exp(−z)).

  The three frames are the generated ones (the reference's from its run with the result dropped); the ideal pass
  rewrote nothing, so `preserves` is trivial.
-/
import proofs.«116086_j16767552323790_2_alg».proof.Defs
import proofs.«116086_j16767552323790_2_alg».proof.Proof.Gen.Kernel
import proofs.«116086_j16767552323790_2_alg».proof.Proof.Gen.Kernel.Frame
import proofs.«116086_j16767552323790_2_alg».proof.Proof.Gen.KernelIdeal
import proofs.«116086_j16767552323790_2_alg».proof.Proof.Gen.KernelIdeal.Frame
import proofs.«116086_j16767552323790_2_alg».proof.Proof.Gen.ReferenceIdeal
import proofs.«116086_j16767552323790_2_alg».proof.Proof.Gen.Pre_finite_inputs
import proofs.«116086_j16767552323790_2_alg».proof.Proof.KRun
import proofs.«116086_j16767552323790_2_alg».proof.Proof.KValA
import proofs.«116086_j16767552323790_2_alg».proof.Proof.KValB
import proofs.«116086_j16767552323790_2_alg».proof.Proof.Pure
import proofs.«116086_j16767552323790_2_alg».proof.Proof.RefRun
import proofs.«116086_j16767552323790_2_alg».proof.Proof.Finite
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ => Cert.ReferenceIdeal.RefRun.frame m ρ

/-- The ideal pass rewrote no operation. -/
theorem preserves : Cert.preserves_Kernel_KernelIdeal := trivial

/-- From memories agreeing on the arguments both programs end with the result array at `Cert.Spec.out` of the
    arguments: the reference by its run; the kernel program by its run with the result named, the value chain through
    its four regions, and the equality of the kernel-shaped composition with `Cert.Spec.out` on real arguments. -/
theorem algebraic : Cert.algebraic_KernelIdeal_ReferenceIdeal := by
  intro m ρ m' ρ' hpre hagree
  refine ⟨fun c => Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)), ?_, Cert.ReferenceIdeal.RefRun.run m' ρ'⟩
  refine (θ_run (Cert.KernelIdeal.defs (F := Ideal)) _ _).mono (fun r h c => ⟨(h c).1.trans ?_, (h c).2⟩)
    (Cert.KernelIdeal.KRun.run_named (F := Ideal) m ρ)
  obtain ⟨e0, e1, e2, e3, e4, e5, e6, e7, e8, e9, e10, e11, e12, e13, e14, e15, e16, e17, e18, e19, e20, e21, e22⟩ := hagree c
  beta_reduce
  rw [e0, e1, e2, e3, e4, e5, e6, e7, e8, e9, e10, e11, e12, e13, e14, e15, e16, e17, e18, e19, e20, e21, e22]
  rw [Cert.KernelIdeal.KVal.out_of m ρ c _ (Cert.KernelIdeal.KVal.y0 m ρ c)]
  exact Cert.Pure.outK_eq _ _ _ _ _ _ _ _ _ _ _ _ _ _ _ _ _ _ _ _ _ _ _
    (Cert.Finite.arg0_real m hpre c) (Cert.Finite.arg2_real m hpre c) (Cert.Finite.arg3_real m hpre c) (Cert.Finite.arg4_real m hpre c) (Cert.Finite.arg5_real m hpre c) (Cert.Finite.arg6_real m hpre c) (Cert.Finite.arg7_real m hpre c) (Cert.Finite.arg8_real m hpre c) (Cert.Finite.arg9_real m hpre c) (Cert.Finite.arg10_real m hpre c) (Cert.Finite.arg11_real m hpre c) (Cert.Finite.arg12_real m hpre c) (Cert.Finite.arg13_real m hpre c) (Cert.Finite.arg14_real m hpre c) (Cert.Finite.arg15_real m hpre c) (Cert.Finite.arg16_real m hpre c) (Cert.Finite.arg17_real m hpre c) (Cert.Finite.arg18_real m hpre c) (Cert.Finite.arg19_real m hpre c) (Cert.Finite.arg20_real m hpre c) (Cert.Finite.arg21_real m hpre c) (Cert.Finite.arg22_real m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
